-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3x256x64x64 : Shape := ⟨5, ![2, 3, 256, 64, 64]⟩
abbrev S2x256x64x64 : Shape := ⟨4, ![2, 256, 64, 64]⟩
abbrev S2x3x16x64x64 : Shape := ⟨5, ![2, 3, 16, 64, 64]⟩
abbrev S2x64x64 : Shape := ⟨3, ![2, 64, 64]⟩
abbrev S_ : Shape := ⟨0, ![]⟩

class Facts : Prop where
  bcast_S_S2x3x256x64x64 : S_.BroadcastsInDim S2x3x256x64x64 (![] : Fin 0 → Fin S2x3x256x64x64.rank)
  reducesTo_S2x3x256x64x64_S_d0_1_2_3_4 : S2x3x256x64x64.ReducesTo [0, 1, 2, 3, 4] S_
  h_S_ : 0 < S_.numel
  bcast_S_S2x256x64x64 : S_.BroadcastsInDim S2x256x64x64 (![] : Fin 0 → Fin S2x256x64x64.rank)
  reducesTo_S2x256x64x64_S_d0_1_2_3 : S2x256x64x64.ReducesTo [0, 1, 2, 3] S_
  bcast_S_S2x3x16x64x64 : S_.BroadcastsInDim S2x3x16x64x64 (![] : Fin 0 → Fin S2x3x16x64x64.rank)
  reducesTo_S2x3x16x64x64_S_d0_1_2_3_4 : S2x3x16x64x64.ReducesTo [0, 1, 2, 3, 4] S_

variable [Facts]

def fn {F : FTy → Type} [FloatOps F] (main_arg0 : FVec F S2x3x256x64x64 .f32) (main_arg1 : FVec F S2x256x64x64 .f32) (main_arg2 : FVec F S2x3x16x64x64 .f32) (main_arg3 : IVec S2x64x64 32) : IVec S_ 1 :=
  let main_v0 : FVec F S2x3x256x64x64 .f32 := Host.absf main_arg0
  let main_cst : FVec F S_ .f32 := constant S_ .f32 0x7F800000#32
  let main_v1 : FVec F S2x3x256x64x64 .f32 := broadcastInDim S2x3x256x64x64 ![] bcast_S_S2x3x256x64x64 main_cst
  let main_v2 : IVec S2x3x256x64x64 1 := cmpf .olt main_v0 main_v1
  let main_c : IVec S_ 1 := constantI S_ 1 1#1
  let main_v3 : IVec S_ 1 := (fun x v => Host.reduce IntOp.andi x v reducesTo_S2x3x256x64x64_S_d0_1_2_3_4 h_S_) main_v2 main_c
  let main_v4 : FVec F S2x256x64x64 .f32 := Host.absf main_arg1
  let main_cst_0 : FVec F S_ .f32 := constant S_ .f32 0x7F800000#32
  let main_v5 : FVec F S2x256x64x64 .f32 := broadcastInDim S2x256x64x64 ![] bcast_S_S2x256x64x64 main_cst_0
  let main_v6 : IVec S2x256x64x64 1 := cmpf .olt main_v4 main_v5
  let main_c_1 : IVec S_ 1 := constantI S_ 1 1#1
  let main_v7 : IVec S_ 1 := (fun x v => Host.reduce IntOp.andi x v reducesTo_S2x256x64x64_S_d0_1_2_3 h_S_) main_v6 main_c_1
  let main_v8 : IVec S_ 1 := andi main_v3 main_v7
  let main_v9 : FVec F S2x3x16x64x64 .f32 := Host.absf main_arg2
  let main_cst_2 : FVec F S_ .f32 := constant S_ .f32 0x7F800000#32
  let main_v10 : FVec F S2x3x16x64x64 .f32 := broadcastInDim S2x3x16x64x64 ![] bcast_S_S2x3x16x64x64 main_cst_2
  let main_v11 : IVec S2x3x16x64x64 1 := cmpf .olt main_v9 main_v10
  let main_c_3 : IVec S_ 1 := constantI S_ 1 1#1
  let main_v12 : IVec S_ 1 := (fun x v => Host.reduce IntOp.andi x v reducesTo_S2x3x16x64x64_S_d0_1_2_3_4 h_S_) main_v11 main_c_3
  let main_v13 : IVec S_ 1 := andi main_v8 main_v12
  main_v13
-- ==== Kernel.lean ====
abbrev S2x3x256x64x64 : Shape := ⟨5, ![2, 3, 256, 64, 64]⟩
abbrev S2x256x64x64 : Shape := ⟨4, ![2, 256, 64, 64]⟩
abbrev S2x3x16x64x64 : Shape := ⟨5, ![2, 3, 16, 64, 64]⟩
abbrev S2x64x64 : Shape := ⟨3, ![2, 64, 64]⟩
abbrev S2x256x4096 : Shape := ⟨3, ![2, 256, 4096]⟩
abbrev S2x3x256x4096 : Shape := ⟨4, ![2, 3, 256, 4096]⟩
abbrev S2x3x16x4096 : Shape := ⟨4, ![2, 3, 16, 4096]⟩
abbrev S2x4096x16 : Shape := ⟨3, ![2, 4096, 16]⟩
abbrev S2x256x2048 : Shape := ⟨3, ![2, 256, 2048]⟩
abbrev S2x1x256x256 : Shape := ⟨4, ![2, 1, 256, 256]⟩
abbrev S2x1x16x256 : Shape := ⟨4, ![2, 1, 16, 256]⟩
abbrev S2x2048x16 : Shape := ⟨3, ![2, 2048, 16]⟩
abbrev S2x2048x1 : Shape := ⟨3, ![2, 2048, 1]⟩
abbrev S2x256x256 : Shape := ⟨3, ![2, 256, 256]⟩
abbrev S2x2048x256 : Shape := ⟨3, ![2, 2048, 256]⟩
abbrev S2x2048 : Shape := ⟨2, ![2, 2048]⟩
abbrev S2x16x256 : Shape := ⟨3, ![2, 16, 256]⟩
abbrev S2x64x64x16 : Shape := ⟨4, ![2, 64, 64, 16]⟩
abbrev S2x16x64x64 : Shape := ⟨4, ![2, 16, 64, 64]⟩
abbrev S_ : Shape := ⟨0, ![]⟩
abbrev S2x1x64x64 : Shape := ⟨4, ![2, 1, 64, 64]⟩
abbrev S2x1x64x64x1 : Shape := ⟨5, ![2, 1, 64, 64, 1]⟩
abbrev S1 : Shape := ⟨1, ![1]⟩
abbrev S1x1x1x1x1 : Shape := ⟨5, ![1, 1, 1, 1, 1]⟩

abbrev nBuf : Space → Nat
  | .hbm => 43
  | .vmem => 11
  | .smem => 0
  | _ => 0

abbrev bufTy : (tb : Table) → Fin (tcTables nBuf tb) → BufTy
  | .hbm, ⟨0, _⟩ => ⟨S2x3x256x64x64, .f32⟩
  | .hbm, ⟨1, _⟩ => ⟨S2x256x64x64, .f32⟩
  | .hbm, ⟨2, _⟩ => ⟨S2x3x16x64x64, .f32⟩
  | .hbm, ⟨3, _⟩ => ⟨S2x64x64, .i32⟩
  | .hbm, ⟨4, _⟩ => ⟨S2x256x4096, .f32⟩
  | .hbm, ⟨5, _⟩ => ⟨S2x3x256x4096, .f32⟩
  | .hbm, ⟨6, _⟩ => ⟨S2x3x16x4096, .f32⟩
  | .hbm, ⟨7, _⟩ => ⟨S2x4096x16, .f32⟩
  | .hbm, ⟨8, _⟩ => ⟨S2x64x64x16, .f32⟩
  | .hbm, ⟨9, _⟩ => ⟨S2x16x64x64, .f32⟩
  | .hbm, ⟨10, _⟩ => ⟨S_, .f32⟩
  | .hbm, ⟨11, _⟩ => ⟨S2x16x64x64, .f32⟩
  | .hbm, ⟨12, _⟩ => ⟨S2x16x64x64, .f32⟩
  | .hbm, ⟨13, _⟩ => ⟨S2x16x64x64, .f32⟩
  | .hbm, ⟨14, _⟩ => ⟨S2x1x64x64, .i32⟩
  | .hbm, ⟨15, _⟩ => ⟨S_, .i32⟩
  | .hbm, ⟨16, _⟩ => ⟨S2x1x64x64, .i32⟩
  | .hbm, ⟨17, _⟩ => ⟨S2x1x64x64, .i1⟩
  | .hbm, ⟨18, _⟩ => ⟨S_, .i32⟩
  | .hbm, ⟨19, _⟩ => ⟨S2x1x64x64, .i32⟩
  | .hbm, ⟨20, _⟩ => ⟨S2x1x64x64, .i32⟩
  | .hbm, ⟨21, _⟩ => ⟨S2x1x64x64, .i32⟩
  | .hbm, ⟨22, _⟩ => ⟨S2x1x64x64x1, .i32⟩
  | .hbm, ⟨23, _⟩ => ⟨S1, .i32⟩
  | .hbm, ⟨24, _⟩ => ⟨S_, .i32⟩
  | .hbm, ⟨25, _⟩ => ⟨S2x1x64x64x1, .i32⟩
  | .hbm, ⟨26, _⟩ => ⟨S2x1x64x64x1, .i1⟩
  | .hbm, ⟨27, _⟩ => ⟨S1x1x1x1x1, .i32⟩
  | .hbm, ⟨28, _⟩ => ⟨S2x1x64x64x1, .i32⟩
  | .hbm, ⟨29, _⟩ => ⟨S2x1x64x64x1, .i1⟩
  | .hbm, ⟨30, _⟩ => ⟨S2x1x64x64x1, .i1⟩
  | .hbm, ⟨31, _⟩ => ⟨S_, .i1⟩
  | .hbm, ⟨32, _⟩ => ⟨S2x1x64x64, .i1⟩
  | .hbm, ⟨33, _⟩ => ⟨S2x1x64x64, .f32⟩
  | .hbm, ⟨34, _⟩ => ⟨S_, .f32⟩
  | .hbm, ⟨35, _⟩ => ⟨S2x1x64x64, .f32⟩
  | .hbm, ⟨36, _⟩ => ⟨S2x1x64x64, .f32⟩
  | .hbm, ⟨37, _⟩ => ⟨S2x64x64, .f32⟩
  | .hbm, ⟨38, _⟩ => ⟨S2x64x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S2x256x2048, .f32⟩
  | .local _ .vmem, ⟨1, _⟩ => ⟨S2x256x2048, .f32⟩
  | .local _ .vmem, ⟨2, _⟩ => ⟨S2x1x256x256, .f32⟩
  | .local _ .vmem, ⟨3, _⟩ => ⟨S2x1x256x256, .f32⟩
  | .local _ .vmem, ⟨4, _⟩ => ⟨S2x1x16x256, .f32⟩
  | .local _ .vmem, ⟨5, _⟩ => ⟨S2x1x16x256, .f32⟩
  | .local _ .vmem, ⟨6, _⟩ => ⟨S2x2048x16, .f32⟩
  | .local _ .vmem, ⟨7, _⟩ => ⟨S2x2048x16, .f32⟩
  | .local _ .vmem, ⟨8, _⟩ => ⟨S2x2048x1, .f32⟩
  | .local _ .vmem, ⟨9, _⟩ => ⟨S2x2048x1, .f32⟩
  | .local _ .vmem, ⟨10, _⟩ => ⟨S2x2048x16, .f32⟩
  | _, _ => ⟨S2x3x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 3, 16], ![false, false, false]⟩

def k0_cond2 (i : grid0.Coords) : BitVec 1 :=
  let arg1 : BitVec 32 := BitVec.ofNat 32 (i 1).val
  let c2_i32 : BitVec 32 := 2#32
  let v3 : BitVec 1 := Scalar.cmpi .eq arg1 c2_i32
  let arg2 : BitVec 32 := BitVec.ofNat 32 (i 2).val
  let c15_i32 : BitVec 32 := 15#32
  let v4 : BitVec 1 := Scalar.cmpi .eq arg2 c15_i32
  let v5 : BitVec 1 := Scalar.andi v3 v4
  let v45 : BitVec 32 := Scalar.extui v5
  let c0_i32_34 : BitVec 32 := 0#32
  let v46 : BitVec 1 := Scalar.cmpi .ne v45 c0_i32_34
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2x2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  shapeCasts_S2x256x64x64_S2x256x4096 : S2x256x64x64.ShapeCasts S2x256x4096
  shapeCasts_S2x3x256x64x64_S2x3x256x4096 : S2x3x256x64x64.ShapeCasts S2x3x256x4096
  shapeCasts_S2x3x16x64x64_S2x3x16x4096 : S2x3x16x64x64.ShapeCasts S2x3x16x4096
  inb_S2x2048x1_S2x2048x1_0_0_0 : ∀ a, (![0, 0, 0] : Fin 3 → Nat) a + S2x2048x1.size a ≤ S2x2048x1.size a
  h_S2x2048x1 : 0 < S2x2048x1.numel
  shapeCasts_S2x2048x1_S2x2048x1 : S2x2048x1.ShapeCasts S2x2048x1
  inb_S2x2048x16_S2x2048x16_0_0_0 : ∀ a, (![0, 0, 0] : Fin 3 → Nat) a + S2x2048x16.size a ≤ S2x2048x16.size a
  h_S2x2048x16 : 0 < S2x2048x16.numel
  shapeCasts_S2x2048x16_S2x2048x16 : S2x2048x16.ShapeCasts S2x2048x16
  inb_S2x256x2048_S2x256x2048_0_0_0 : ∀ a, (![0, 0, 0] : Fin 3 → Nat) a + S2x256x2048.size a ≤ S2x256x2048.size a
  h_S2x256x2048 : 0 < S2x256x2048.numel
  shapeCasts_S2x256x2048_S2x256x2048 : S2x256x2048.ShapeCasts S2x256x2048
  inb_S2x1x256x256_S2x1x256x256_0_0_0_0 : ∀ a, (![0, 0, 0, 0] : Fin 4 → Nat) a + S2x1x256x256.size a ≤ S2x1x256x256.size a
  h_S2x1x256x256 : 0 < S2x1x256x256.numel
  shapeCasts_S2x1x256x256_S2x256x256 : S2x1x256x256.ShapeCasts S2x256x256
  reduces_S2x2048x256_S2x2048 : S2x2048x256.Reduces [2] S2x2048
  shapeCasts_S2x2048_S2x2048x1 : S2x2048.ShapeCasts S2x2048x1
  broadcasts_S2x2048x1_S2x2048x256 : S2x2048x1.Broadcasts S2x2048x256
  inb_S2x1x16x256_S2x1x16x256_0_0_0_0 : ∀ a, (![0, 0, 0, 0] : Fin 4 → Nat) a + S2x1x16x256.size a ≤ S2x1x16x256.size a
  h_S2x1x16x256 : 0 < S2x1x16x256.numel
  shapeCasts_S2x1x16x256_S2x16x256 : S2x1x16x256.ShapeCasts S2x16x256
  broadcasts_S2x2048x1_S2x2048x16 : S2x2048x1.Broadcasts S2x2048x16
  shapeCasts_S2x4096x16_S2x64x64x16 : S2x4096x16.ShapeCasts S2x64x64x16
  transposes_S2x64x64x16_S2x16x64x64_0_3_1_2 : S2x64x64x16.Transposes [0, 3, 1, 2] S2x16x64x64
  bcast_S_S2x16x64x64 : S_.BroadcastsInDim S2x16x64x64 (![] : Fin 0 → Fin S2x16x64x64.rank)
  bcast_S2x64x64_S2x1x64x64_0_2_3 : S2x64x64.BroadcastsInDim S2x1x64x64 (![0, 2, 3] : Fin 3 → Fin S2x1x64x64.rank)
  bcast_S_S2x1x64x64 : S_.BroadcastsInDim S2x1x64x64 (![] : Fin 0 → Fin S2x1x64x64.rank)
  shapeCasts_S2x1x64x64_S2x1x64x64x1 : S2x1x64x64.ShapeCasts S2x1x64x64x1
  bcast_S_S2x1x64x64x1 : S_.BroadcastsInDim S2x1x64x64x1 (![] : Fin 0 → Fin S2x1x64x64x1.rank)
  bcast_S1_S1x1x1x1x1_4 : S1.BroadcastsInDim S1x1x1x1x1 (![4] : Fin 1 → Fin S1x1x1x1x1.rank)
  bcast_S1x1x1x1x1_S2x1x64x64x1_0_1_2_3_4 : S1x1x1x1x1.BroadcastsInDim S2x1x64x64x1 (![0, 1, 2, 3, 4] : Fin 5 → Fin S2x1x64x64x1.rank)
  reducesTo_S2x1x64x64x1_S2x1x64x64_d4 : S2x1x64x64x1.ReducesTo [4] S2x1x64x64
  h_S_ : 0 < S_.numel
  shapeCasts_S2x1x64x64_S2x64x64 : S2x1x64x64.ShapeCasts S2x64x64
  reducesTo_S2x64x64_S_d0_1_2 : S2x64x64.ReducesTo [0, 1, 2] S_
  dot_S2x256x2048_S2x256x256_S2x2048x256_1_1_2_2_0_0_wf : DotDims.WF S2x256x2048 S2x256x256 S2x2048x256 [1] [1] [2] [2] [0] [0]
  dot_S2x2048x256_S2x16x256_S2x2048x16_2_2_1_1_0_0_wf : DotDims.WF S2x2048x256 S2x16x256 S2x2048x16 [2] [2] [1] [1] [0] [0]
  gather_S2x16x64x64_S2x1x64x64x1_S2x1x64x64_n_1_023_023_1_4_1111_wf : GatherDims.WF S2x16x64x64 S2x1x64x64x1 S2x1x64x64 [] [1] [0, 2, 3] [1] [0, 2, 3] 4 ![1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x2048.size a ≤ S2x256x4096.size a
  hwx0_0 : ∀ i : grid0.Coords, EltTy.bits .f32 = 32 ∨ (Rect.block (s := S2x256x4096) S2x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x256x256.size a ≤ S2x3x256x4096.size a
  hwx0_1 : ∀ i : grid0.Coords, EltTy.bits .f32 = 32 ∨ (Rect.block (s := S2x3x256x4096) S2x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x16x256.size a ≤ S2x3x16x4096.size a
  hwx0_2 : ∀ i : grid0.Coords, EltTy.bits .f32 = 32 ∨ (Rect.block (s := S2x3x16x4096) S2x1x16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x2048x16.size a ≤ S2x4096x16.size a
  hwx0_3 : ∀ i : grid0.Coords, EltTy.bits .f32 = 32 ∨ (Rect.block (s := S2x4096x16) S2x2048x16.size (cc0_transform_3 i) (hinb0_3 i)).WholeWords (EltTy.packing .f32)

variable [Facts₀]

def dot_S2x256x2048_S2x256x256_S2x2048x256_1_1_2_2_0_0 : DotDims S2x256x2048 S2x256x256 S2x2048x256 where
  lhsContracting := [1]
  rhsContracting := [1]
  lhsNonContracting := [2]
  rhsNonContracting := [2]
  lhsBatch := [0]
  rhsBatch := [0]
  wf := dot_S2x256x2048_S2x256x256_S2x2048x256_1_1_2_2_0_0_wf
def dot_S2x2048x256_S2x16x256_S2x2048x16_2_2_1_1_0_0 : DotDims S2x2048x256 S2x16x256 S2x2048x16 where
  lhsContracting := [2]
  rhsContracting := [2]
  lhsNonContracting := [1]
  rhsNonContracting := [1]
  lhsBatch := [0]
  rhsBatch := [0]
  wf := dot_S2x2048x256_S2x16x256_S2x2048x16_2_2_1_1_0_0_wf
def gather_S2x16x64x64_S2x1x64x64x1_S2x1x64x64_n_1_023_023_1_4_1111 : GatherDims S2x16x64x64 S2x1x64x64x1 S2x1x64x64 where
  offsetDims := []
  collapsedSliceDims := [1]
  operandBatchingDims := [0, 2, 3]
  startIndicesBatchingDims := [0, 2, 3]
  startIndexMap := [1]
  indexVectorDim := 4
  sliceSizes := ![1, 1, 1, 1]
  wf := gather_S2x16x64x64_S2x1x64x64x1_S2x1x64x64_n_1_023_023_1_4_1111_wf

abbrev win0_0 : Pipeline.Window sig grid0 :=
  Pipeline.Window.ofSpec (Memref.whole main_v0) S2x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x1x16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x2048x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x3x256x64x64 : Shape := ⟨5, ![2, 3, 256, 64, 64]⟩
abbrev S2x256x64x64 : Shape := ⟨4, ![2, 256, 64, 64]⟩
abbrev S2x3x16x64x64 : Shape := ⟨5, ![2, 3, 16, 64, 64]⟩
abbrev S2x64x64 : Shape := ⟨3, ![2, 64, 64]⟩
abbrev S2x3x64x64x256 : Shape := ⟨5, ![2, 3, 64, 64, 256]⟩
abbrev S2x12288x256 : Shape := ⟨3, ![2, 12288, 256]⟩
abbrev S2x256x4096 : Shape := ⟨3, ![2, 256, 4096]⟩
abbrev S2x12288x4096 : Shape := ⟨3, ![2, 12288, 4096]⟩
abbrev S_ : Shape := ⟨0, ![]⟩
abbrev S2x4096 : Shape := ⟨2, ![2, 4096]⟩
abbrev S2x1x4096 : Shape := ⟨3, ![2, 1, 4096]⟩
abbrev S2x16x3x64x64 : Shape := ⟨5, ![2, 16, 3, 64, 64]⟩
abbrev S2x16x12288 : Shape := ⟨3, ![2, 16, 12288]⟩
abbrev S2x16x4096 : Shape := ⟨3, ![2, 16, 4096]⟩
abbrev S2x16x64x64 : Shape := ⟨4, ![2, 16, 64, 64]⟩
abbrev S2x1x64x64 : Shape := ⟨4, ![2, 1, 64, 64]⟩
abbrev S2x1x64x64x1 : Shape := ⟨5, ![2, 1, 64, 64, 1]⟩
abbrev S1 : Shape := ⟨1, ![1]⟩
abbrev S1x1x1x1x1 : Shape := ⟨5, ![1, 1, 1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S2x3x256x64x64, .f32⟩
  | .hbm, ⟨1, _⟩ => ⟨S2x256x64x64, .f32⟩
  | .hbm, ⟨2, _⟩ => ⟨S2x3x16x64x64, .f32⟩
  | .hbm, ⟨3, _⟩ => ⟨S2x64x64, .i32⟩
  | .hbm, ⟨4, _⟩ => ⟨S2x3x64x64x256, .f32⟩
  | .hbm, ⟨5, _⟩ => ⟨S2x12288x256, .f32⟩
  | .hbm, ⟨6, _⟩ => ⟨S2x256x4096, .f32⟩
  | .hbm, ⟨7, _⟩ => ⟨S2x12288x4096, .f32⟩
  | .hbm, ⟨8, _⟩ => ⟨S_, .f32⟩
  | .hbm, ⟨9, _⟩ => ⟨S2x12288x4096, .f32⟩
  | .hbm, ⟨10, _⟩ => ⟨S2x12288x4096, .f32⟩
  | .hbm, ⟨11, _⟩ => ⟨S_, .f32⟩
  | .hbm, ⟨12, _⟩ => ⟨S2x4096, .f32⟩
  | .hbm, ⟨13, _⟩ => ⟨S_, .f32⟩
  | .hbm, ⟨14, _⟩ => ⟨S2x4096, .f32⟩
  | .hbm, ⟨15, _⟩ => ⟨S2x4096, .f32⟩
  | .hbm, ⟨16, _⟩ => ⟨S2x1x4096, .f32⟩
  | .hbm, ⟨17, _⟩ => ⟨S2x12288x4096, .f32⟩
  | .hbm, ⟨18, _⟩ => ⟨S2x12288x4096, .f32⟩
  | .hbm, ⟨19, _⟩ => ⟨S2x12288x4096, .f32⟩
  | .hbm, ⟨20, _⟩ => ⟨S_, .f32⟩
  | .hbm, ⟨21, _⟩ => ⟨S2x4096, .f32⟩
  | .hbm, ⟨22, _⟩ => ⟨S2x1x4096, .f32⟩
  | .hbm, ⟨23, _⟩ => ⟨S2x12288x4096, .f32⟩
  | .hbm, ⟨24, _⟩ => ⟨S2x12288x4096, .f32⟩
  | .hbm, ⟨25, _⟩ => ⟨S2x16x3x64x64, .f32⟩
  | .hbm, ⟨26, _⟩ => ⟨S2x16x12288, .f32⟩
  | .hbm, ⟨27, _⟩ => ⟨S2x16x4096, .f32⟩
  | .hbm, ⟨28, _⟩ => ⟨S2x16x64x64, .f32⟩
  | .hbm, ⟨29, _⟩ => ⟨S_, .f32⟩
  | .hbm, ⟨30, _⟩ => ⟨S2x16x64x64, .f32⟩
  | .hbm, ⟨31, _⟩ => ⟨S2x16x64x64, .f32⟩
  | .hbm, ⟨32, _⟩ => ⟨S2x16x64x64, .f32⟩
  | .hbm, ⟨33, _⟩ => ⟨S2x1x64x64, .i32⟩
  | .hbm, ⟨34, _⟩ => ⟨S_, .i32⟩
  | .hbm, ⟨35, _⟩ => ⟨S2x1x64x64, .i32⟩
  | .hbm, ⟨36, _⟩ => ⟨S2x1x64x64, .i1⟩
  | .hbm, ⟨37, _⟩ => ⟨S_, .i32⟩
  | .hbm, ⟨38, _⟩ => ⟨S2x1x64x64, .i32⟩
  | .hbm, ⟨39, _⟩ => ⟨S2x1x64x64, .i32⟩
  | .hbm, ⟨40, _⟩ => ⟨S2x1x64x64, .i32⟩
  | .hbm, ⟨41, _⟩ => ⟨S2x1x64x64x1, .i32⟩
  | .hbm, ⟨42, _⟩ => ⟨S1, .i32⟩
  | .hbm, ⟨43, _⟩ => ⟨S_, .i32⟩
  | .hbm, ⟨44, _⟩ => ⟨S2x1x64x64x1, .i32⟩
  | .hbm, ⟨45, _⟩ => ⟨S2x1x64x64x1, .i1⟩
  | .hbm, ⟨46, _⟩ => ⟨S1x1x1x1x1, .i32⟩
  | .hbm, ⟨47, _⟩ => ⟨S2x1x64x64x1, .i32⟩
  | .hbm, ⟨48, _⟩ => ⟨S2x1x64x64x1, .i1⟩
  | .hbm, ⟨49, _⟩ => ⟨S2x1x64x64x1, .i1⟩
  | .hbm, ⟨50, _⟩ => ⟨S_, .i1⟩
  | .hbm, ⟨51, _⟩ => ⟨S2x1x64x64, .i1⟩
  | .hbm, ⟨52, _⟩ => ⟨S2x1x64x64, .f32⟩
  | .hbm, ⟨53, _⟩ => ⟨S_, .f32⟩
  | .hbm, ⟨54, _⟩ => ⟨S2x1x64x64, .f32⟩
  | .hbm, ⟨55, _⟩ => ⟨S2x1x64x64, .f32⟩
  | .hbm, ⟨56, _⟩ => ⟨S2x64x64, .f32⟩
  | .hbm, ⟨57, _⟩ => ⟨S2x64x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S2x3x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_cst : Ref sig .tc := ⟨.hbm, 53, rfl⟩
abbrev main_call0_v14 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_4 : Ref sig .tc := ⟨.hbm, 58, rfl⟩
abbrev main_v28 : Ref sig .tc := ⟨.hbm, 59, rfl⟩
abbrev main_cst_5 : Ref sig .tc := ⟨.hbm, 60, rfl⟩
abbrev main_v29 : Ref sig .tc := ⟨.hbm, 61, rfl⟩

abbrev nD : Nat := 1
abbrev τ : Topo := Topo.v7x

variable {F : FTy → Type} [FloatOps F]

class Facts₀ : Prop where
  transposes_S2x3x256x64x64_S2x3x64x64x256_0_1_3_4_2 : S2x3x256x64x64.Transposes [0, 1, 3, 4, 2] S2x3x64x64x256
  shapeCasts_S2x3x64x64x256_S2x12288x256 : S2x3x64x64x256.ShapeCasts S2x12288x256
  shapeCasts_S2x256x64x64_S2x256x4096 : S2x256x64x64.ShapeCasts S2x256x4096
  bcast_S_S2x12288x4096 : S_.BroadcastsInDim S2x12288x4096 (![] : Fin 0 → Fin S2x12288x4096.rank)
  reducesTo_S2x12288x4096_S2x4096_d1 : S2x12288x4096.ReducesTo [1] S2x4096
  h_S_ : 0 < S_.numel
  bcast_S_S2x4096 : S_.BroadcastsInDim S2x4096 (![] : Fin 0 → Fin S2x4096.rank)
  bcast_S2x4096_S2x1x4096_0_2 : S2x4096.BroadcastsInDim S2x1x4096 (![0, 2] : Fin 2 → Fin S2x1x4096.rank)
  bcast_S2x1x4096_S2x12288x4096_0_1_2 : S2x1x4096.BroadcastsInDim S2x12288x4096 (![0, 1, 2] : Fin 3 → Fin S2x12288x4096.rank)
  transposes_S2x3x16x64x64_S2x16x3x64x64_0_2_1_3_4 : S2x3x16x64x64.Transposes [0, 2, 1, 3, 4] S2x16x3x64x64
  shapeCasts_S2x16x3x64x64_S2x16x12288 : S2x16x3x64x64.ShapeCasts S2x16x12288
  shapeCasts_S2x16x4096_S2x16x64x64 : S2x16x4096.ShapeCasts S2x16x64x64
  bcast_S_S2x16x64x64 : S_.BroadcastsInDim S2x16x64x64 (![] : Fin 0 → Fin S2x16x64x64.rank)
  bcast_S2x64x64_S2x1x64x64_0_2_3 : S2x64x64.BroadcastsInDim S2x1x64x64 (![0, 2, 3] : Fin 3 → Fin S2x1x64x64.rank)
  bcast_S_S2x1x64x64 : S_.BroadcastsInDim S2x1x64x64 (![] : Fin 0 → Fin S2x1x64x64.rank)
  shapeCasts_S2x1x64x64_S2x1x64x64x1 : S2x1x64x64.ShapeCasts S2x1x64x64x1
  bcast_S_S2x1x64x64x1 : S_.BroadcastsInDim S2x1x64x64x1 (![] : Fin 0 → Fin S2x1x64x64x1.rank)
  bcast_S1_S1x1x1x1x1_4 : S1.BroadcastsInDim S1x1x1x1x1 (![4] : Fin 1 → Fin S1x1x1x1x1.rank)
  bcast_S1x1x1x1x1_S2x1x64x64x1_0_1_2_3_4 : S1x1x1x1x1.BroadcastsInDim S2x1x64x64x1 (![0, 1, 2, 3, 4] : Fin 5 → Fin S2x1x64x64x1.rank)
  reducesTo_S2x1x64x64x1_S2x1x64x64_d4 : S2x1x64x64x1.ReducesTo [4] S2x1x64x64
  shapeCasts_S2x1x64x64_S2x64x64 : S2x1x64x64.ShapeCasts S2x64x64
  reducesTo_S2x64x64_S_d0_1_2 : S2x64x64.ReducesTo [0, 1, 2] S_
  dot_S2x12288x256_S2x256x4096_S2x12288x4096_2_1_1_2_0_0_wf : DotDims.WF S2x12288x256 S2x256x4096 S2x12288x4096 [2] [1] [1] [2] [0] [0]
  dot_S2x16x12288_S2x12288x4096_S2x16x4096_2_1_1_2_0_0_wf : DotDims.WF S2x16x12288 S2x12288x4096 S2x16x4096 [2] [1] [1] [2] [0] [0]
  gather_S2x16x64x64_S2x1x64x64x1_S2x1x64x64_n_1_023_023_1_4_1111_wf : GatherDims.WF S2x16x64x64 S2x1x64x64x1 S2x1x64x64 [] [1] [0, 2, 3] [1] [0, 2, 3] 4 ![1, 1, 1, 1]

variable [Facts₀]

def dot_S2x12288x256_S2x256x4096_S2x12288x4096_2_1_1_2_0_0 : DotDims S2x12288x256 S2x256x4096 S2x12288x4096 where
  lhsContracting := [2]
  rhsContracting := [1]
  lhsNonContracting := [1]
  rhsNonContracting := [2]
  lhsBatch := [0]
  rhsBatch := [0]
  wf := dot_S2x12288x256_S2x256x4096_S2x12288x4096_2_1_1_2_0_0_wf
def dot_S2x16x12288_S2x12288x4096_S2x16x4096_2_1_1_2_0_0 : DotDims S2x16x12288 S2x12288x4096 S2x16x4096 where
  lhsContracting := [2]
  rhsContracting := [1]
  lhsNonContracting := [1]
  rhsNonContracting := [2]
  lhsBatch := [0]
  rhsBatch := [0]
  wf := dot_S2x16x12288_S2x12288x4096_S2x16x4096_2_1_1_2_0_0_wf
def gather_S2x16x64x64_S2x1x64x64x1_S2x1x64x64_n_1_023_023_1_4_1111 : GatherDims S2x16x64x64 S2x1x64x64x1 S2x1x64x64 where
  offsetDims := []
  collapsedSliceDims := [1]
  operandBatchingDims := [0, 2, 3]
  startIndicesBatchingDims := [0, 2, 3]
  startIndexMap := [1]
  indexVectorDim := 4
  sliceSizes := ![1, 1, 1, 1]
  wf := gather_S2x16x64x64_S2x1x64x64x1_S2x1x64x64_n_1_023_023_1_4_1111_wf

class Facts : Prop extends Facts₀ where

variable [Facts]
-- ==== Proof.KernelBody.lean ====
/-
  The arithmetic of one run of the kernel body, under names that say what it is.

  The body keeps three scratch arrays between grid points — the running maximum `m`, the running sum of weights `l`
  and the running weighted sum of labels `acc`. Whatever the control case, the new scratch contents are the same
  three functions of the point's query block `q`, key block `k`, label block `v` and the OLD scratch contents; a
  first point of a query tile uses the reset values in place of the old contents, and a last point also stores the
  quotient of the two new sums. The functions are the printed body's own pure terms.
-/
import proofs.«165208_j19602230739911_2_alg».proof.Proof.Gen.KernelIdeal.Skeleton

noncomputable section

open Idealize.ShloMosaic

namespace Cert.KernelBody

open Cert.KernelIdeal Cert.KernelIdeal.Gen

variable {F : FTy → Type} [FloatOps F]

/-- The running maximum after a point: the old one against the row maxima of this block's scores. -/
abbrev newMax (q : Vec F S2x256x2048 .f32) (k : Vec F S2x1x256x256 .f32) (m : Vec F S2x2048x1 .f32) : Vec F S2x2048x1 .f32 :=
  k0_pay3 (k0_pay9 q k m)

/-- The running sum of weights after a point: the old one rescaled to the new maximum, plus this block's weights. -/
abbrev newSum (q : Vec F S2x256x2048 .f32) (k : Vec F S2x1x256x256 .f32) (m l : Vec F S2x2048x1 .f32) : Vec F S2x2048x1 .f32 :=
  k0_pay1 (k0_pay12 q k m l)

/-- The running weighted sum of labels after a point: the old one rescaled, plus this block's weights times its labels. -/
abbrev newAcc (q : Vec F S2x256x2048 .f32) (k : Vec F S2x1x256x256 .f32) (v : Vec F S2x1x16x256 .f32) (m : Vec F S2x2048x1 .f32)
    (acc : Vec F S2x2048x16 .f32) : Vec F S2x2048x16 .f32 :=
  k0_pay2 (k0_pay10 q k m) (k0_pay11 q k m) v acc

/-- What a last point stores into the output block. -/
abbrev quotient (acc : Vec F S2x2048x16 .f32) (l : Vec F S2x2048x1 .f32) : Vec F S2x2048x16 .f32 := k0_pay4 acc l

/-- The reset values of a first point: `-∞` for the maximum, `0` for the two sums. -/
abbrev m0 : Vec F S2x2048x1 .f32 := k0_pay5
abbrev l0 : Vec F S2x2048x1 .f32 := k0_pay6
abbrev acc0 : Vec F S2x2048x16 .f32 := k0_pay7

end Cert.KernelBody

end
-- ==== Proof.KernelPieces.lean ====
/-
  What one run of the kernel body leaves behind, case by case, as pure functions of what it found.

  The body keeps three scratch arrays between grid points — the running maximum `m`, the running sum of weights `l`
  and the running weighted sum of labels `acc` — and has three control cases: the FIRST point of a query tile (the
  scratch is reset to `-∞`, `0`, `0` before anything is read), a MIDDLE point, and the LAST point of a query tile
  (which also stores `acc / l` into the output block). In every case the new scratch contents are the same three
  functions of the point's query block `q`, key block `k`, label block `v` and of the OLD scratch contents:
      `m' = newMax q k m`,   `l' = newSum q k m l`,   `acc' = newAcc q k v m acc`,
  with the reset values standing for the old contents at a first point; the last point's output block is
  `quotient acc' l'` (the names are defined beside the body's pure terms). The lemmas below read the stores found by the symbolic run back as these functions (every store covers its
  whole buffer, and every load reads a whole buffer, so a buffer read back is the last value stored into it).
-/
import proofs.«165208_j19602230739911_2_alg».proof.Proof.Gen.KernelIdeal.Frame
import proofs.«165208_j19602230739911_2_alg».proof.Proof.KernelBody
import Idealize.ShloMosaic.Lib.Pipeline.Value
import Idealize.ShloMosaic.Lib.Tactic

noncomputable section

open Idealize.ShloMosaic Idealize.ShloMosaic.TcCoe Idealize.SL.Sem

namespace Cert.KernelPieces

open Cert.KernelIdeal Cert.KernelIdeal.Gen Cert.KernelBody

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## A middle point -/

theorem max_B (c : Dev nD) (i : grid0.Coords) (a3 : Memref sig .tc .vmem S2x256x2048 .f32) (h3 : a3.IsWhole) (a4 : Memref sig .tc .vmem S2x1x256x256 .f32) (h4 : a4.IsWhole) (a5 : Memref sig .tc .vmem S2x1x16x256 .f32) (h5 : a5.IsWhole) (a6 : Memref sig .tc .vmem S2x2048x16 .f32) (h6 : a6.IsWhole) (a7 : Memref sig .tc .vmem S2x2048x1 .f32) (h7 : a7.IsWhole) (a8 : Memref sig .tc .vmem S2x2048x1 .f32) (h8 : a8.IsWhole) (a9 : Memref sig .tc .vmem S2x2048x16 .f32) (h9 : a9.IsWhole) (hc0 : ¬cond0_0 i) (hc1 : ¬cond0_1 i) (x0 : Vec F S2x256x2048 .f32) (x1 : Vec F S2x1x256x256 .f32) (x2 : Vec F S2x1x16x256 .f32) (xs0 xs1 : Vec F S2x2048x1 .f32) (xs2 : Vec F S2x2048x16 .f32) :
    sout0_B_0 c i a3 h3 a4 h4 a5 h5 a6 h6 a7 h7 a8 h8 a9 h9 hc0 hc1 x0 x1 x2 xs0 xs1 xs2 = newMax x0 x1 xs0 := by
  unfold sout0_B_0
  rw [View.read_writes_eq_canon _ _ _ (scover0_B_0 c i a3 h3 a4 h4 a5 h5 a6 h6 a7 h7 a8 h8 a9 h9 hc0 hc1 x0 x1 x2 xs0 xs1 xs2)]
  unfold kernelRun0_B
  dsimp only
  sl_unfold_words
  rw [View.canon_unit_zero hz3]
  simp only [View.readCov_unit_zero (S := S2x2048x1) _ hz3, View.readCov_unit_zero (S := S2x2048x16) _ hz3, View.readAt_eq_ld, h3.read_unread, h4.read_unread, h5.read_unread, h7.read_unread, h8.read_unread, h9.read_unread, View.ld_unit_zero (S := S2x256x2048) hz3, View.ld_unit_zero (S := S2x1x256x256) hz4, View.ld_unit_zero (S := S2x1x16x256) hz4, View.ld_unit_zero (S := S2x2048x1) hz3, View.ld_unit_zero (S := S2x2048x16) hz3]

theorem sum_B (c : Dev nD) (i : grid0.Coords) (a3 : Memref sig .tc .vmem S2x256x2048 .f32) (h3 : a3.IsWhole) (a4 : Memref sig .tc .vmem S2x1x256x256 .f32) (h4 : a4.IsWhole) (a5 : Memref sig .tc .vmem S2x1x16x256 .f32) (h5 : a5.IsWhole) (a6 : Memref sig .tc .vmem S2x2048x16 .f32) (h6 : a6.IsWhole) (a7 : Memref sig .tc .vmem S2x2048x1 .f32) (h7 : a7.IsWhole) (a8 : Memref sig .tc .vmem S2x2048x1 .f32) (h8 : a8.IsWhole) (a9 : Memref sig .tc .vmem S2x2048x16 .f32) (h9 : a9.IsWhole) (hc0 : ¬cond0_0 i) (hc1 : ¬cond0_1 i) (x0 : Vec F S2x256x2048 .f32) (x1 : Vec F S2x1x256x256 .f32) (x2 : Vec F S2x1x16x256 .f32) (xs0 xs1 : Vec F S2x2048x1 .f32) (xs2 : Vec F S2x2048x16 .f32) :
    sout0_B_1 c i a3 h3 a4 h4 a5 h5 a6 h6 a7 h7 a8 h8 a9 h9 hc0 hc1 x0 x1 x2 xs0 xs1 xs2 = newSum x0 x1 xs0 xs1 := by
  unfold sout0_B_1
  rw [View.read_writes_eq_canon _ _ _ (scover0_B_1 c i a3 h3 a4 h4 a5 h5 a6 h6 a7 h7 a8 h8 a9 h9 hc0 hc1 x0 x1 x2 xs0 xs1 xs2)]
  unfold kernelRun0_B
  dsimp only
  sl_unfold_words
  rw [View.canon_unit_zero hz3]
  simp only [View.readCov_unit_zero (S := S2x2048x1) _ hz3, View.readCov_unit_zero (S := S2x2048x16) _ hz3, View.readAt_eq_ld, h3.read_unread, h4.read_unread, h5.read_unread, h7.read_unread, h8.read_unread, h9.read_unread, View.ld_unit_zero (S := S2x256x2048) hz3, View.ld_unit_zero (S := S2x1x256x256) hz4, View.ld_unit_zero (S := S2x1x16x256) hz4, View.ld_unit_zero (S := S2x2048x1) hz3, View.ld_unit_zero (S := S2x2048x16) hz3]

theorem acc_B (c : Dev nD) (i : grid0.Coords) (a3 : Memref sig .tc .vmem S2x256x2048 .f32) (h3 : a3.IsWhole) (a4 : Memref sig .tc .vmem S2x1x256x256 .f32) (h4 : a4.IsWhole) (a5 : Memref sig .tc .vmem S2x1x16x256 .f32) (h5 : a5.IsWhole) (a6 : Memref sig .tc .vmem S2x2048x16 .f32) (h6 : a6.IsWhole) (a7 : Memref sig .tc .vmem S2x2048x1 .f32) (h7 : a7.IsWhole) (a8 : Memref sig .tc .vmem S2x2048x1 .f32) (h8 : a8.IsWhole) (a9 : Memref sig .tc .vmem S2x2048x16 .f32) (h9 : a9.IsWhole) (hc0 : ¬cond0_0 i) (hc1 : ¬cond0_1 i) (x0 : Vec F S2x256x2048 .f32) (x1 : Vec F S2x1x256x256 .f32) (x2 : Vec F S2x1x16x256 .f32) (xs0 xs1 : Vec F S2x2048x1 .f32) (xs2 : Vec F S2x2048x16 .f32) :
    sout0_B_2 c i a3 h3 a4 h4 a5 h5 a6 h6 a7 h7 a8 h8 a9 h9 hc0 hc1 x0 x1 x2 xs0 xs1 xs2 = newAcc x0 x1 x2 xs0 xs2 := by
  unfold sout0_B_2
  rw [View.read_writes_eq_canon _ _ _ (scover0_B_2 c i a3 h3 a4 h4 a5 h5 a6 h6 a7 h7 a8 h8 a9 h9 hc0 hc1 x0 x1 x2 xs0 xs1 xs2)]
  unfold kernelRun0_B
  dsimp only
  sl_unfold_words
  rw [View.canon_unit_zero hz3]
  simp only [View.readCov_unit_zero (S := S2x2048x1) _ hz3, View.readCov_unit_zero (S := S2x2048x16) _ hz3, View.readAt_eq_ld, h3.read_unread, h4.read_unread, h5.read_unread, h7.read_unread, h8.read_unread, h9.read_unread, View.ld_unit_zero (S := S2x256x2048) hz3, View.ld_unit_zero (S := S2x1x256x256) hz4, View.ld_unit_zero (S := S2x1x16x256) hz4, View.ld_unit_zero (S := S2x2048x1) hz3, View.ld_unit_zero (S := S2x2048x16) hz3]

/-! ## A last point: the same three, and the output block is the quotient of the two NEW sums (the body loads them
    back after storing them) -/

theorem max_C (c : Dev nD) (i : grid0.Coords) (a3 : Memref sig .tc .vmem S2x256x2048 .f32) (h3 : a3.IsWhole) (a4 : Memref sig .tc .vmem S2x1x256x256 .f32) (h4 : a4.IsWhole) (a5 : Memref sig .tc .vmem S2x1x16x256 .f32) (h5 : a5.IsWhole) (a6 : Memref sig .tc .vmem S2x2048x16 .f32) (h6 : a6.IsWhole) (a7 : Memref sig .tc .vmem S2x2048x1 .f32) (h7 : a7.IsWhole) (a8 : Memref sig .tc .vmem S2x2048x1 .f32) (h8 : a8.IsWhole) (a9 : Memref sig .tc .vmem S2x2048x16 .f32) (h9 : a9.IsWhole) (hc0 : ¬cond0_0 i) (hc1 : cond0_1 i) (x0 : Vec F S2x256x2048 .f32) (x1 : Vec F S2x1x256x256 .f32) (x2 : Vec F S2x1x16x256 .f32) (xs0 xs1 : Vec F S2x2048x1 .f32) (xs2 : Vec F S2x2048x16 .f32) :
    sout0_C_0 c i a3 h3 a4 h4 a5 h5 a6 h6 a7 h7 a8 h8 a9 h9 hc0 hc1 x0 x1 x2 xs0 xs1 xs2 = newMax x0 x1 xs0 := by
  unfold sout0_C_0
  rw [View.read_writes_eq_canon _ _ _ (scover0_C_0 c i a3 h3 a4 h4 a5 h5 a6 h6 a7 h7 a8 h8 a9 h9 hc0 hc1 x0 x1 x2 xs0 xs1 xs2)]
  unfold kernelRun0_C
  dsimp only
  sl_unfold_words
  rw [View.canon_unit_zero hz3]
  simp only [View.readCov_unit_zero (S := S2x2048x1) _ hz3, View.readCov_unit_zero (S := S2x2048x16) _ hz3, View.readAt_eq_ld, h3.read_unread, h4.read_unread, h5.read_unread, h7.read_unread, h8.read_unread, h9.read_unread, View.ld_unit_zero (S := S2x256x2048) hz3, View.ld_unit_zero (S := S2x1x256x256) hz4, View.ld_unit_zero (S := S2x1x16x256) hz4, View.ld_unit_zero (S := S2x2048x1) hz3, View.ld_unit_zero (S := S2x2048x16) hz3]

theorem sum_C (c : Dev nD) (i : grid0.Coords) (a3 : Memref sig .tc .vmem S2x256x2048 .f32) (h3 : a3.IsWhole) (a4 : Memref sig .tc .vmem S2x1x256x256 .f32) (h4 : a4.IsWhole) (a5 : Memref sig .tc .vmem S2x1x16x256 .f32) (h5 : a5.IsWhole) (a6 : Memref sig .tc .vmem S2x2048x16 .f32) (h6 : a6.IsWhole) (a7 : Memref sig .tc .vmem S2x2048x1 .f32) (h7 : a7.IsWhole) (a8 : Memref sig .tc .vmem S2x2048x1 .f32) (h8 : a8.IsWhole) (a9 : Memref sig .tc .vmem S2x2048x16 .f32) (h9 : a9.IsWhole) (hc0 : ¬cond0_0 i) (hc1 : cond0_1 i) (x0 : Vec F S2x256x2048 .f32) (x1 : Vec F S2x1x256x256 .f32) (x2 : Vec F S2x1x16x256 .f32) (xs0 xs1 : Vec F S2x2048x1 .f32) (xs2 : Vec F S2x2048x16 .f32) :
    sout0_C_1 c i a3 h3 a4 h4 a5 h5 a6 h6 a7 h7 a8 h8 a9 h9 hc0 hc1 x0 x1 x2 xs0 xs1 xs2 = newSum x0 x1 xs0 xs1 := by
  unfold sout0_C_1
  rw [View.read_writes_eq_canon _ _ _ (scover0_C_1 c i a3 h3 a4 h4 a5 h5 a6 h6 a7 h7 a8 h8 a9 h9 hc0 hc1 x0 x1 x2 xs0 xs1 xs2)]
  unfold kernelRun0_C
  dsimp only
  sl_unfold_words
  rw [View.canon_unit_zero hz3]
  simp only [View.readCov_unit_zero (S := S2x2048x1) _ hz3, View.readCov_unit_zero (S := S2x2048x16) _ hz3, View.readAt_eq_ld, h3.read_unread, h4.read_unread, h5.read_unread, h7.read_unread, h8.read_unread, h9.read_unread, View.ld_unit_zero (S := S2x256x2048) hz3, View.ld_unit_zero (S := S2x1x256x256) hz4, View.ld_unit_zero (S := S2x1x16x256) hz4, View.ld_unit_zero (S := S2x2048x1) hz3, View.ld_unit_zero (S := S2x2048x16) hz3]

theorem acc_C (c : Dev nD) (i : grid0.Coords) (a3 : Memref sig .tc .vmem S2x256x2048 .f32) (h3 : a3.IsWhole) (a4 : Memref sig .tc .vmem S2x1x256x256 .f32) (h4 : a4.IsWhole) (a5 : Memref sig .tc .vmem S2x1x16x256 .f32) (h5 : a5.IsWhole) (a6 : Memref sig .tc .vmem S2x2048x16 .f32) (h6 : a6.IsWhole) (a7 : Memref sig .tc .vmem S2x2048x1 .f32) (h7 : a7.IsWhole) (a8 : Memref sig .tc .vmem S2x2048x1 .f32) (h8 : a8.IsWhole) (a9 : Memref sig .tc .vmem S2x2048x16 .f32) (h9 : a9.IsWhole) (hc0 : ¬cond0_0 i) (hc1 : cond0_1 i) (x0 : Vec F S2x256x2048 .f32) (x1 : Vec F S2x1x256x256 .f32) (x2 : Vec F S2x1x16x256 .f32) (xs0 xs1 : Vec F S2x2048x1 .f32) (xs2 : Vec F S2x2048x16 .f32) :
    sout0_C_2 c i a3 h3 a4 h4 a5 h5 a6 h6 a7 h7 a8 h8 a9 h9 hc0 hc1 x0 x1 x2 xs0 xs1 xs2 = newAcc x0 x1 x2 xs0 xs2 := by
  unfold sout0_C_2
  rw [View.read_writes_eq_canon _ _ _ (scover0_C_2 c i a3 h3 a4 h4 a5 h5 a6 h6 a7 h7 a8 h8 a9 h9 hc0 hc1 x0 x1 x2 xs0 xs1 xs2)]
  unfold kernelRun0_C
  dsimp only
  sl_unfold_words
  rw [View.canon_unit_zero hz3]
  simp only [View.readCov_unit_zero (S := S2x2048x1) _ hz3, View.readCov_unit_zero (S := S2x2048x16) _ hz3, View.readAt_eq_ld, h3.read_unread, h4.read_unread, h5.read_unread, h7.read_unread, h8.read_unread, h9.read_unread, View.ld_unit_zero (S := S2x256x2048) hz3, View.ld_unit_zero (S := S2x1x256x256) hz4, View.ld_unit_zero (S := S2x1x16x256) hz4, View.ld_unit_zero (S := S2x2048x1) hz3, View.ld_unit_zero (S := S2x2048x16) hz3]

theorem out_C (c : Dev nD) (i : grid0.Coords) (a3 : Memref sig .tc .vmem S2x256x2048 .f32) (h3 : a3.IsWhole) (a4 : Memref sig .tc .vmem S2x1x256x256 .f32) (h4 : a4.IsWhole) (a5 : Memref sig .tc .vmem S2x1x16x256 .f32) (h5 : a5.IsWhole) (a6 : Memref sig .tc .vmem S2x2048x16 .f32) (h6 : a6.IsWhole) (a7 : Memref sig .tc .vmem S2x2048x1 .f32) (h7 : a7.IsWhole) (a8 : Memref sig .tc .vmem S2x2048x1 .f32) (h8 : a8.IsWhole) (a9 : Memref sig .tc .vmem S2x2048x16 .f32) (h9 : a9.IsWhole) (hc0 : ¬cond0_0 i) (hc1 : cond0_1 i) (x0 : Vec F S2x256x2048 .f32) (x1 : Vec F S2x1x256x256 .f32) (x2 : Vec F S2x1x16x256 .f32) (xs0 xs1 : Vec F S2x2048x1 .f32) (xs2 : Vec F S2x2048x16 .f32) :
    out0_C_3 c i a3 h3 a4 h4 a5 h5 a6 h6 a7 h7 a8 h8 a9 h9 hc0 hc1 x0 x1 x2 xs0 xs1 xs2 = quotient (newAcc x0 x1 x2 xs0 xs2) (newSum x0 x1 xs0 xs1) := by
  unfold out0_C_3
  rw [View.read_writes_eq_canon _ _ _ (cover0_C_3 c i a3 h3 a4 h4 a5 h5 a6 h6 a7 h7 a8 h8 a9 h9 hc0 hc1 x0 x1 x2 xs0 xs1 xs2)]
  unfold kernelRun0_C
  dsimp only
  sl_unfold_words
  rw [View.canon_unit_zero hz3]
  simp only [View.readCov_unit_zero (S := S2x2048x1) _ hz3, View.readCov_unit_zero (S := S2x2048x16) _ hz3, View.readAt_eq_ld, h3.read_unread, h4.read_unread, h5.read_unread, h7.read_unread, h8.read_unread, h9.read_unread, View.ld_unit_zero (S := S2x256x2048) hz3, View.ld_unit_zero (S := S2x1x256x256) hz4, View.ld_unit_zero (S := S2x1x16x256) hz4, View.ld_unit_zero (S := S2x2048x1) hz3, View.ld_unit_zero (S := S2x2048x16) hz3]

/-! ## A first point: the reset values are stored first and read back, so they stand where the old contents stood -/

theorem max_A (c : Dev nD) (i : grid0.Coords) (a3 : Memref sig .tc .vmem S2x256x2048 .f32) (h3 : a3.IsWhole) (a4 : Memref sig .tc .vmem S2x1x256x256 .f32) (h4 : a4.IsWhole) (a5 : Memref sig .tc .vmem S2x1x16x256 .f32) (h5 : a5.IsWhole) (a6 : Memref sig .tc .vmem S2x2048x16 .f32) (h6 : a6.IsWhole) (a7 : Memref sig .tc .vmem S2x2048x1 .f32) (h7 : a7.IsWhole) (a8 : Memref sig .tc .vmem S2x2048x1 .f32) (h8 : a8.IsWhole) (a9 : Memref sig .tc .vmem S2x2048x16 .f32) (h9 : a9.IsWhole) (hc0 : cond0_0 i) (hc1 : ¬cond0_1 i) (x0 : Vec F S2x256x2048 .f32) (x1 : Vec F S2x1x256x256 .f32) (x2 : Vec F S2x1x16x256 .f32) :
    sout0_A_0 c i a3 h3 a4 h4 a5 h5 a6 h6 a7 h7 a8 h8 a9 h9 hc0 hc1 x0 x1 x2 = newMax x0 x1 m0 := by
  unfold sout0_A_0
  rw [View.read_writes_eq_canon _ _ _ (scover0_A_0 c i a3 h3 a4 h4 a5 h5 a6 h6 a7 h7 a8 h8 a9 h9 hc0 hc1 x0 x1 x2)]
  unfold kernelRun0_A
  dsimp only
  sl_unfold_words
  rw [View.canon_cons_unit_zero (S := S2x2048x1) hz3]
  simp only [View.readCov_unit_zero (S := S2x2048x1) _ hz3, View.readCov_unit_zero (S := S2x2048x16) _ hz3, View.readAt_eq_ld, h3.read_unread, h4.read_unread, h5.read_unread, h7.read_unread, h8.read_unread, h9.read_unread, View.ld_unit_zero (S := S2x256x2048) hz3, View.ld_unit_zero (S := S2x1x256x256) hz4, View.ld_unit_zero (S := S2x1x16x256) hz4, View.ld_unit_zero (S := S2x2048x1) hz3, View.ld_unit_zero (S := S2x2048x16) hz3]

theorem sum_A (c : Dev nD) (i : grid0.Coords) (a3 : Memref sig .tc .vmem S2x256x2048 .f32) (h3 : a3.IsWhole) (a4 : Memref sig .tc .vmem S2x1x256x256 .f32) (h4 : a4.IsWhole) (a5 : Memref sig .tc .vmem S2x1x16x256 .f32) (h5 : a5.IsWhole) (a6 : Memref sig .tc .vmem S2x2048x16 .f32) (h6 : a6.IsWhole) (a7 : Memref sig .tc .vmem S2x2048x1 .f32) (h7 : a7.IsWhole) (a8 : Memref sig .tc .vmem S2x2048x1 .f32) (h8 : a8.IsWhole) (a9 : Memref sig .tc .vmem S2x2048x16 .f32) (h9 : a9.IsWhole) (hc0 : cond0_0 i) (hc1 : ¬cond0_1 i) (x0 : Vec F S2x256x2048 .f32) (x1 : Vec F S2x1x256x256 .f32) (x2 : Vec F S2x1x16x256 .f32) :
    sout0_A_1 c i a3 h3 a4 h4 a5 h5 a6 h6 a7 h7 a8 h8 a9 h9 hc0 hc1 x0 x1 x2 = newSum x0 x1 m0 l0 := by
  unfold sout0_A_1
  rw [View.read_writes_eq_canon _ _ _ (scover0_A_1 c i a3 h3 a4 h4 a5 h5 a6 h6 a7 h7 a8 h8 a9 h9 hc0 hc1 x0 x1 x2)]
  unfold kernelRun0_A
  dsimp only
  sl_unfold_words
  rw [View.canon_cons_unit_zero (S := S2x2048x1) hz3]
  simp only [View.readCov_unit_zero (S := S2x2048x1) _ hz3, View.readCov_unit_zero (S := S2x2048x16) _ hz3, View.readAt_eq_ld, h3.read_unread, h4.read_unread, h5.read_unread, h7.read_unread, h8.read_unread, h9.read_unread, View.ld_unit_zero (S := S2x256x2048) hz3, View.ld_unit_zero (S := S2x1x256x256) hz4, View.ld_unit_zero (S := S2x1x16x256) hz4, View.ld_unit_zero (S := S2x2048x1) hz3, View.ld_unit_zero (S := S2x2048x16) hz3]

theorem acc_A (c : Dev nD) (i : grid0.Coords) (a3 : Memref sig .tc .vmem S2x256x2048 .f32) (h3 : a3.IsWhole) (a4 : Memref sig .tc .vmem S2x1x256x256 .f32) (h4 : a4.IsWhole) (a5 : Memref sig .tc .vmem S2x1x16x256 .f32) (h5 : a5.IsWhole) (a6 : Memref sig .tc .vmem S2x2048x16 .f32) (h6 : a6.IsWhole) (a7 : Memref sig .tc .vmem S2x2048x1 .f32) (h7 : a7.IsWhole) (a8 : Memref sig .tc .vmem S2x2048x1 .f32) (h8 : a8.IsWhole) (a9 : Memref sig .tc .vmem S2x2048x16 .f32) (h9 : a9.IsWhole) (hc0 : cond0_0 i) (hc1 : ¬cond0_1 i) (x0 : Vec F S2x256x2048 .f32) (x1 : Vec F S2x1x256x256 .f32) (x2 : Vec F S2x1x16x256 .f32) :
    sout0_A_2 c i a3 h3 a4 h4 a5 h5 a6 h6 a7 h7 a8 h8 a9 h9 hc0 hc1 x0 x1 x2 = newAcc x0 x1 x2 m0 acc0 := by
  unfold sout0_A_2
  rw [View.read_writes_eq_canon _ _ _ (scover0_A_2 c i a3 h3 a4 h4 a5 h5 a6 h6 a7 h7 a8 h8 a9 h9 hc0 hc1 x0 x1 x2)]
  unfold kernelRun0_A
  dsimp only
  sl_unfold_words
  rw [View.canon_cons_unit_zero (S := S2x2048x16) hz3]
  simp only [View.readCov_unit_zero (S := S2x2048x1) _ hz3, View.readCov_unit_zero (S := S2x2048x16) _ hz3, View.readAt_eq_ld, h3.read_unread, h4.read_unread, h5.read_unread, h7.read_unread, h8.read_unread, h9.read_unread, View.ld_unit_zero (S := S2x256x2048) hz3, View.ld_unit_zero (S := S2x1x256x256) hz4, View.ld_unit_zero (S := S2x1x16x256) hz4, View.ld_unit_zero (S := S2x2048x1) hz3, View.ld_unit_zero (S := S2x2048x16) hz3]

end Cert.KernelPieces

end
-- ==== Proof.OnlineSoftmax.lean ====
/-
  The algebra of a softmax-weighted average accumulated block by block under a running level.

  For scores `s n` and values `v n` (`n = 0, 1, 2, …`, real numbers) and a real LEVEL `μ` put
    `wsum s μ N   = ∑ n < N, exp (s n - μ)`        and        `wacc s v μ N = ∑ n < N, exp (s n - μ) · v n`.
  Changing the level multiplies both by the same positive factor `exp (μ - μ')`, so the quotient
  `wacc / wsum` does not depend on the level: it is the softmax-weighted average of `v`. That is all that
  is used of the running maximum of an online softmax — only that it is SOME real number; which one is
  irrelevant over the exact reals. One step of the accumulation over a further block of `B` keys,
    `l' = exp (μ - μ') · l + ∑ k < B, exp (s (N + k) - μ')`,
  takes `wsum s μ N` to `wsum s μ' (N + B)` (and the same for `wacc`), from `exp (a + b) = exp a · exp b`
  and distributivity — laws of the reals, which is why the statements below are about real numbers and
  their images in the extended reals.
-/
import Idealize.ShloMosaic.PureOps.Ideal
import Mathlib.Data.Finset.Fold

open Finset Idealize.ShloMosaic

namespace Cert.OnlineSoftmax

/-! ## Over the reals -/

/-- The sum of the weights `exp (s n - μ)` of the first `N` keys. -/
noncomputable def wsum (s : ℕ → ℝ) (μ : ℝ) (N : ℕ) : ℝ := ∑ n ∈ range N, Real.exp (s n - μ)

/-- The sum of the values of the first `N` keys, each times its weight. -/
noncomputable def wacc (s v : ℕ → ℝ) (μ : ℝ) (N : ℕ) : ℝ := ∑ n ∈ range N, Real.exp (s n - μ) * v n

theorem wsum_zero (s : ℕ → ℝ) (μ : ℝ) : wsum s μ 0 = 0 := by simp [wsum]
theorem wacc_zero (s v : ℕ → ℝ) (μ : ℝ) : wacc s v μ 0 = 0 := by simp [wacc]

/-- Moving the level from `μ` to `μ'` multiplies every weight by `exp (μ - μ')`. -/
theorem wsum_rescale (s : ℕ → ℝ) (μ μ' : ℝ) (N : ℕ) : Real.exp (μ - μ') * wsum s μ N = wsum s μ' N := by
  unfold wsum
  rw [Finset.mul_sum]
  refine Finset.sum_congr rfl fun n _ => ?_
  rw [← Real.exp_add]
  congr 1; ring

theorem wacc_rescale (s v : ℕ → ℝ) (μ μ' : ℝ) (N : ℕ) : Real.exp (μ - μ') * wacc s v μ N = wacc s v μ' N := by
  unfold wacc
  rw [Finset.mul_sum]
  refine Finset.sum_congr rfl fun n _ => ?_
  rw [← mul_assoc, ← Real.exp_add]
  congr 2; ring

/-- The first `N + B` keys are the first `N` and then a block of `B`. -/
theorem wsum_block (s : ℕ → ℝ) (μ : ℝ) (N B : ℕ) :
    wsum s μ (N + B) = wsum s μ N + ∑ k : Fin B, Real.exp (s (N + k.val) - μ) := by
  unfold wsum
  rw [Finset.sum_range_add]
  congr 1
  exact Finset.sum_range fun k => Real.exp (s (N + k) - μ)

theorem wacc_block (s v : ℕ → ℝ) (μ : ℝ) (N B : ℕ) :
    wacc s v μ (N + B) = wacc s v μ N + ∑ k : Fin B, Real.exp (s (N + k.val) - μ) * v (N + k.val) := by
  unfold wacc
  rw [Finset.sum_range_add]
  congr 1
  exact Finset.sum_range fun k => Real.exp (s (N + k) - μ) * v (N + k)

theorem wsum_pos (s : ℕ → ℝ) (μ : ℝ) {N : ℕ} (hN : 0 < N) : 0 < wsum s μ N :=
  Finset.sum_pos (fun _ _ => Real.exp_pos _) ⟨0, Finset.mem_range.mpr hN⟩

/-- The weighted average does not depend on the level. -/
theorem ratio_level (s v : ℕ → ℝ) (μ μ' : ℝ) (N : ℕ) :
    wacc s v μ N / wsum s μ N = wacc s v μ' N / wsum s μ' N := by
  rw [← wacc_rescale s v μ μ' N, ← wsum_rescale s μ μ' N, mul_div_mul_left _ _ (Real.exp_pos _).ne']

/-- Normalizing the weights first (a softmax) and then summing the values against them gives the same
    weighted average: the common divisor leaves the sum. -/
theorem softmax_weighted (s v : ℕ → ℝ) (μ : ℝ) (N : ℕ) :
    ∑ n ∈ range N, v n * (Real.exp (s n - μ) / wsum s μ N) = wacc s v μ N / wsum s μ N := by
  unfold wacc
  rw [Finset.sum_div]
  refine Finset.sum_congr rfl fun n _ => ?_
  ring

/-- One step over the reals: rescale what the first `N` keys gave to the new level and add the block. -/
theorem wsum_step (s : ℕ → ℝ) (μ μ' : ℝ) (N B : ℕ) :
    Real.exp (μ - μ') * wsum s μ N + ∑ k : Fin B, Real.exp (s (N + k.val) - μ') = wsum s μ' (N + B) := by
  rw [wsum_rescale, wsum_block]

theorem wacc_step (s v : ℕ → ℝ) (μ μ' : ℝ) (N B : ℕ) :
    Real.exp (μ - μ') * wacc s v μ N + ∑ k : Fin B, Real.exp (s (N + k.val) - μ') * v (N + k.val)
      = wacc s v μ' (N + B) := by
  rw [wacc_rescale, wacc_block]

/-! ## In the extended reals -/

/-- A finite sum of real numbers, taken in the extended reals, is the real sum. -/
theorem coe_sum {ι : Type*} (S : Finset ι) (f : ι → ℝ) : (∑ k ∈ S, (f k : EReal)) = ((∑ k ∈ S, f k : ℝ) : EReal) := by
  classical
  induction S using Finset.induction_on with
  | empty => simp
  | insert a S ha ih => rw [Finset.sum_insert ha, Finset.sum_insert ha, ih, EReal.coe_add]

/-- The maximum of finitely many real numbers — at least one — taken from `-∞` is a real number. -/
theorem fold_max_real {B : ℕ} (hB : 0 < B) (sb : Fin B → EReal) (r : Fin B → ℝ) (hsb : ∀ k, sb k = (r k : EReal)) :
    ∃ β : ℝ, (Finset.univ : Finset (Fin B)).fold max (⊥ : EReal) sb = (β : EReal) := by
  have hlt : (Finset.univ : Finset (Fin B)).fold max (⊥ : EReal) sb < ⊤ :=
    (Finset.fold_max_lt ⊤).mpr ⟨bot_lt_top, fun k _ => by rw [hsb k]; exact EReal.coe_lt_top _⟩
  have hgt : (⊥ : EReal) < (Finset.univ : Finset (Fin B)).fold max (⊥ : EReal) sb :=
    (Finset.lt_fold_max ⊥).mpr (Or.inr ⟨⟨0, hB⟩, Finset.mem_univ _, by rw [hsb]; exact EReal.bot_lt_coe _⟩)
  exact ⟨_, (EReal.coe_toReal hlt.ne hgt.ne').symm⟩

/-- The running maximum after a block: from `-∞` or from a real number, it is a real number. -/
theorem max_real {m : EReal} (hm : m = ⊥ ∨ ∃ μ : ℝ, m = (μ : EReal)) {bm : EReal} {β : ℝ} (hb : bm = (β : EReal)) :
    ∃ μ' : ℝ, max m bm = (μ' : EReal) := by
  rcases hm with rfl | ⟨μ, rfl⟩
  · exact ⟨β, by rw [hb]; exact max_eq_right bot_le⟩
  · exact ⟨max μ β, by rw [hb]; exact (EReal.coe_strictMono.monotone.map_max).symm⟩

/-- One step of the weight sum in the extended reals, from a real level `μ` to a real level `μ'`. -/
theorem l_step (s : ℕ → ℝ) (μ μ' : ℝ) (N B : ℕ) (sb : Fin B → EReal) (hsb : ∀ k, sb k = (s (N + k.val) : EReal)) :
    Ideal.exp ((μ : EReal) - (μ' : EReal)) * ((wsum s μ N : ℝ) : EReal) + ∑ k : Fin B, Ideal.exp (sb k - (μ' : EReal))
      = ((wsum s μ' (N + B) : ℝ) : EReal) := by
  have h : ∀ k : Fin B, Ideal.exp (sb k - (μ' : EReal)) = ((Real.exp (s (N + k.val) - μ') : ℝ) : EReal) := fun k => by
    rw [hsb k, ← EReal.coe_sub, Ideal.exp_coe]
  rw [Finset.sum_congr rfl fun k _ => h k, coe_sum, ← EReal.coe_sub, Ideal.exp_coe, ← EReal.coe_mul, ← EReal.coe_add,
    wsum_step]

/-- One step of the weighted value sum in the extended reals. -/
theorem a_step (s v : ℕ → ℝ) (μ μ' : ℝ) (N B : ℕ) (sb vb : Fin B → EReal) (hsb : ∀ k, sb k = (s (N + k.val) : EReal))
    (hvb : ∀ k, vb k = (v (N + k.val) : EReal)) :
    Ideal.exp ((μ : EReal) - (μ' : EReal)) * ((wacc s v μ N : ℝ) : EReal) + ∑ k : Fin B, Ideal.exp (sb k - (μ' : EReal)) * vb k
      = ((wacc s v μ' (N + B) : ℝ) : EReal) := by
  have h : ∀ k : Fin B, Ideal.exp (sb k - (μ' : EReal)) * vb k
      = ((Real.exp (s (N + k.val) - μ') * v (N + k.val) : ℝ) : EReal) := fun k => by
    rw [hsb k, hvb k, ← EReal.coe_sub, Ideal.exp_coe, ← EReal.coe_mul]
  rw [Finset.sum_congr rfl fun k _ => h k, coe_sum, ← EReal.coe_sub, Ideal.exp_coe, ← EReal.coe_mul, ← EReal.coe_add,
    wacc_step]

/-- The first step: the level before it is `-∞`, whose weight `exp (-∞ - μ')` is `0`, and the sums start at `0`. -/
theorem l_first (s : ℕ → ℝ) (μ' : ℝ) (B : ℕ) (sb : Fin B → EReal) (hsb : ∀ k, sb k = (s (0 + k.val) : EReal)) :
    Ideal.exp ((⊥ : EReal) - (μ' : EReal)) * (0 : EReal) + ∑ k : Fin B, Ideal.exp (sb k - (μ' : EReal))
      = ((wsum s μ' (0 + B) : ℝ) : EReal) := by
  have := l_step s μ' μ' 0 B sb hsb
  rw [wsum_zero, EReal.coe_zero, mul_zero, zero_add] at this
  rw [mul_zero, zero_add]; exact this

theorem a_first (s v : ℕ → ℝ) (μ' : ℝ) (B : ℕ) (sb vb : Fin B → EReal) (hsb : ∀ k, sb k = (s (0 + k.val) : EReal))
    (hvb : ∀ k, vb k = (v (0 + k.val) : EReal)) :
    Ideal.exp ((⊥ : EReal) - (μ' : EReal)) * (0 : EReal) + ∑ k : Fin B, Ideal.exp (sb k - (μ' : EReal)) * vb k
      = ((wacc s v μ' (0 + B) : ℝ) : EReal) := by
  have := a_step s v μ' μ' 0 B sb vb hsb hvb
  rw [wacc_zero, EReal.coe_zero, mul_zero, zero_add] at this
  rw [mul_zero, zero_add]; exact this

/-- The quotient of two real numbers, the divisor not zero, in the extended reals. -/
theorem div_real (a l : ℝ) (hl : l ≠ 0) : Ideal.div (a : EReal) (l : EReal) = ((a / l : ℝ) : EReal) := by
  rw [Ideal.div_coe hl, ← EReal.coe_mul]
  congr 1; ring

end Cert.OnlineSoftmax
-- ==== Proof.Spec.lean ====
/-
  What both programs compute before their common tail, as ONE function of the three float arguments.

  `ref`  : f32[2, 3, 256, 64, 64]   (image b, reference frame r, feature f, pixel row, pixel column)
  `tgt`  : f32[2, 256, 64, 64]      (image b, feature f, pixel row, pixel column)
  `lab`  : f32[2, 3, 16, 64, 64]    (image b, reference frame r, class d, pixel row, pixel column)

  The KEYS of image `b` are its 3 · 4096 = 12288 reference pixels, numbered `n = 4096 r + 64 row + column`; the
  QUERIES its 4096 target pixels `t = 64 row + column`. The score of key `n` against query `t` is the inner product
  of their 256 features; the prediction for class `d` at query `t` is the softmax (over the keys) weighted
  average of the keys' labels of class `d`:
      `attn b t d = (∑ n, exp (score n) · label n) / (∑ n, exp (score n))`.
  Entries are read as real numbers (`EReal.toReal`): the statements that use this are made under the
  hypothesis that every entry of the three arrays IS a real number.
-/
import Idealize.ShloMosaic.Lib.ValueIdx
import proofs.«165208_j19602230739911_2_alg».proof.Proof.OnlineSoftmax

open Idealize.ShloMosaic Idealize.ShloMosaic.ValueIdx Cert.OnlineSoftmax

namespace Cert.Spec

/-- Key `n`'s position in a [2, 3, C, 64, 64] array, at channel `ch` of image `b`:
    frame `n / 4096`, pixel row `n / 64 mod 64`, pixel column `n mod 64`. -/
def keyIdx {C : ℕ} (b : Fin 2) (ch : Fin C) (n : ℕ) : (⟨5, ![2, 3, C, 64, 64]⟩ : Shape).Idx :=
  ix5 b ⟨n / 4096 % 3, Nat.mod_lt _ (by decide)⟩ ch ⟨n / 64 % 64, Nat.mod_lt _ (by decide)⟩ ⟨n % 64, Nat.mod_lt _ (by decide)⟩

/-- Query `t`'s position in the [2, 256, 64, 64] array, at feature `f` of image `b`. -/
def qryIdx (b : Fin 2) (f : Fin 256) (t : ℕ) : (⟨4, ![2, 256, 64, 64]⟩ : Shape).Idx :=
  ix4 b f ⟨t / 64 % 64, Nat.mod_lt _ (by decide)⟩ ⟨t % 64, Nat.mod_lt _ (by decide)⟩

/-- The score of key `n` against query `t` in image `b`: the inner product of their features. -/
noncomputable def score (ref : (⟨5, ![2, 3, 256, 64, 64]⟩ : Shape).Idx → EReal) (tgt : (⟨4, ![2, 256, 64, 64]⟩ : Shape).Idx → EReal)
    (b : Fin 2) (t n : ℕ) : ℝ :=
  ∑ f : Fin 256, (tgt (qryIdx b f t)).toReal * (ref (keyIdx b f n)).toReal

/-- Key `n`'s label of class `d` in image `b`. -/
noncomputable def label (lab : (⟨5, ![2, 3, 16, 64, 64]⟩ : Shape).Idx → EReal) (b : Fin 2) (d : Fin 16) (n : ℕ) : ℝ :=
  (lab (keyIdx b d n)).toReal

/-- The softmax-weighted average of the keys' labels of class `d`, at query `t` of image `b`. -/
noncomputable def attn (ref : (⟨5, ![2, 3, 256, 64, 64]⟩ : Shape).Idx → EReal) (tgt : (⟨4, ![2, 256, 64, 64]⟩ : Shape).Idx → EReal)
    (lab : (⟨5, ![2, 3, 16, 64, 64]⟩ : Shape).Idx → EReal) (b : Fin 2) (t : ℕ) (d : Fin 16) : ℝ :=
  wacc (score ref tgt b t) (label lab b d) 0 12288 / wsum (score ref tgt b t) 0 12288

/-- Every entry of an array of extended reals is a real number. -/
def AllReal {s : Shape} (x : s.Idx → EReal) : Prop := ∀ i, x i = ((x i).toReal : EReal)

end Cert.Spec
-- ==== Proof.KernelBlocks.lean ====
/-
  The blocks the kernel body is handed, read off the three float arguments.

  The region stages three arrays, each the host's reshape of an argument with the two pixel axes merged:
  the queries [2, 256, 4096], the keys [2, 3, 256, 4096] and the labels [2, 3, 16, 4096]. The grid has
  2 · 3 · 16 = 96 points; point `t` is query tile `t / 48`, reference frame `t / 16 mod 3` and key tile `t mod 16`,
  so within its query tile the point handles key block `j = t mod 48`: the keys `256 j, …, 256 j + 255` in the
  numbering `n = 4096 · frame + pixel`. A block's coordinate on an axis is always (block index) · (block size) +
  (coordinate inside the block), and a reshape keeps the row-major position.
-/
import proofs.«165208_j19602230739911_2_alg».proof.Proof.Gen.KernelIdeal.Frame
import proofs.«165208_j19602230739911_2_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelBlocks

open Cert.KernelIdeal Cert.KernelIdeal.Gen Cert.Spec

variable (m : (ℓ : Loc nD τ sig) → Buf (Elt Ideal) ℓ)

/-! ## The staged arrays are reshapes of the arguments -/

theorem V_query (c : Dev nD) :
    (V m c main_v0 : S2x256x4096.Idx → EReal)
      = shapeCast S2x256x4096 (m ((c : Thread nD τ).loc main_arg1)) shapeCasts_S2x256x64x64_S2x256x4096 := by
  show StableHlo.after hostOps0 (fun b => m (c, b)) (Proc.devRef .tc main_v0) = _
  after_results; rfl

theorem V_key (c : Dev nD) :
    (V m c main_v1 : S2x3x256x4096.Idx → EReal)
      = shapeCast S2x3x256x4096 (m ((c : Thread nD τ).loc main_arg0)) shapeCasts_S2x3x256x64x64_S2x3x256x4096 := by
  show StableHlo.after hostOps0 (fun b => m (c, b)) (Proc.devRef .tc main_v1) = _
  after_results; rfl

theorem V_label (c : Dev nD) :
    (V m c main_v2 : S2x3x16x4096.Idx → EReal)
      = shapeCast S2x3x16x4096 (m ((c : Thread nD τ).loc main_arg2)) shapeCasts_S2x3x16x64x64_S2x3x16x4096 := by
  show StableHlo.after hostOps0 (fun b => m (c, b)) (Proc.devRef .tc main_v2) = _
  after_results; rfl

/-! ## Which block a point is handed: the printed index maps, decided over the grid -/

theorem idx_facts : ∀ t : Fin cfg0.N,
    win0_0.index t (0 : Fin 3) = 0 ∧ win0_0.index t (1 : Fin 3) = 0 ∧ win0_0.index t (2 : Fin 3) = t.val / 48
    ∧ win0_1.index t (0 : Fin 4) = 0 ∧ win0_1.index t (1 : Fin 4) = t.val / 16 % 3 ∧ win0_1.index t (2 : Fin 4) = 0 ∧ win0_1.index t (3 : Fin 4) = t.val % 16
    ∧ win0_2.index t (0 : Fin 4) = 0 ∧ win0_2.index t (1 : Fin 4) = t.val / 16 % 3 ∧ win0_2.index t (2 : Fin 4) = 0 ∧ win0_2.index t (3 : Fin 4) = t.val % 16
    ∧ win0_3.index t (0 : Fin 3) = 0 ∧ win0_3.index t (1 : Fin 3) = t.val / 48 ∧ win0_3.index t (2 : Fin 3) = 0 :=
  (by decide +kernel : ∀ t : Fin grid0.N, _)

/-! ## The three input blocks at an index -/

/-- The query block of point `t`: feature `f` of query `2048 (t / 48) + r`. -/
theorem q_block (c : Dev nD) (t : Fin cfg0.N) (b : Fin 2) (f : Fin 256) (r : Fin 2048) :
    (iblk m c 0 t : Vec Ideal S2x256x2048 .f32) (ix3 b f r)
      = m ((c : Thread nD τ).loc main_arg1) (qryIdx b f (2048 * (t.val / 48) + r.val)) := by
  obtain ⟨e0, e1, e2, -⟩ := idx_facts t
  unfold iblk
  rw [View.read_apply]
  show V m c main_v0 (((cfg0.win 0).blk t).view.emb (ix3 b f r)) = _
  rw [V_query]
  refine shapeCast_apply _ _ _ (qryIdx b f (2048 * (t.val / 48) + r.val)) ?_
  rw [Shape.rowMajor_val_four, Shape.rowMajor_val_three]
  show ((b.val * 256 + f.val) * 64 + (2048 * (t.val / 48) + r.val) / 64 % 64) * 64 + (2048 * (t.val / 48) + r.val) % 64
     = ((win0_0.index t (0 : Fin 3) * 2 + 1 * b.val) * 256 + (win0_0.index t (1 : Fin 3) * 256 + 1 * f.val)) * 4096
        + (win0_0.index t (2 : Fin 3) * 2048 + 1 * r.val)
  rw [e0, e1, e2]
  have ht : t.val < 96 := lt_of_lt_of_eq t.isLt (show cfg0.N = 96 from N_0)
  omega

/-- The key block of point `t`: feature `f` of key `256 (t mod 48) + kk`. -/
theorem k_block (c : Dev nD) (t : Fin cfg0.N) (b : Fin 2) (f : Fin 256) (kk : Fin 256) :
    (iblk m c 1 t : Vec Ideal S2x1x256x256 .f32) (ix4 b (0 : Fin 1) f kk)
      = m ((c : Thread nD τ).loc main_arg0) (keyIdx b f (256 * (t.val % 48) + kk.val)) := by
  obtain ⟨-, -, -, e0, e1, e2, e3, -⟩ := idx_facts t
  unfold iblk
  rw [View.read_apply]
  show V m c main_v1 (((cfg0.win 1).blk t).view.emb (ix4 b (0 : Fin 1) f kk)) = _
  rw [V_key]
  refine shapeCast_apply _ _ _ (keyIdx b f (256 * (t.val % 48) + kk.val)) ?_
  rw [Shape.rowMajor_val_five, Shape.rowMajor_val_four]
  show (((b.val * 3 + (256 * (t.val % 48) + kk.val) / 4096 % 3) * 256 + f.val) * 64 + (256 * (t.val % 48) + kk.val) / 64 % 64) * 64
        + (256 * (t.val % 48) + kk.val) % 64
     = (((win0_1.index t (0 : Fin 4) * 2 + 1 * b.val) * 3 + (win0_1.index t (1 : Fin 4) * 1 + 1 * 0)) * 256
        + (win0_1.index t (2 : Fin 4) * 256 + 1 * f.val)) * 4096 + (win0_1.index t (3 : Fin 4) * 256 + 1 * kk.val)
  rw [e0, e1, e2, e3]
  have ht : t.val < 96 := lt_of_lt_of_eq t.isLt (show cfg0.N = 96 from N_0)
  omega

/-- The label block of point `t`: class `d` of key `256 (t mod 48) + kk`. -/
theorem v_block (c : Dev nD) (t : Fin cfg0.N) (b : Fin 2) (d : Fin 16) (kk : Fin 256) :
    (iblk m c 2 t : Vec Ideal S2x1x16x256 .f32) (ix4 b (0 : Fin 1) d kk)
      = m ((c : Thread nD τ).loc main_arg2) (keyIdx b d (256 * (t.val % 48) + kk.val)) := by
  obtain ⟨-, -, -, -, -, -, -, e0, e1, e2, e3, -⟩ := idx_facts t
  unfold iblk
  rw [View.read_apply]
  show V m c main_v2 (((cfg0.win 2).blk t).view.emb (ix4 b (0 : Fin 1) d kk)) = _
  rw [V_label]
  refine shapeCast_apply _ _ _ (keyIdx b d (256 * (t.val % 48) + kk.val)) ?_
  rw [Shape.rowMajor_val_five, Shape.rowMajor_val_four]
  show (((b.val * 3 + (256 * (t.val % 48) + kk.val) / 4096 % 3) * 16 + d.val) * 64 + (256 * (t.val % 48) + kk.val) / 64 % 64) * 64
        + (256 * (t.val % 48) + kk.val) % 64
     = (((win0_2.index t (0 : Fin 4) * 2 + 1 * b.val) * 3 + (win0_2.index t (1 : Fin 4) * 1 + 1 * 0)) * 16
        + (win0_2.index t (2 : Fin 4) * 16 + 1 * d.val)) * 4096 + (win0_2.index t (3 : Fin 4) * 256 + 1 * kk.val)
  rw [e0, e1, e2, e3]
  have ht : t.val < 96 := lt_of_lt_of_eq t.isLt (show cfg0.N = 96 from N_0)
  omega

end Cert.KernelBlocks

end
-- ==== Proof.KernelRow.lean ====
/-
  One row of the kernel body's arithmetic, read at the ideal instance.

  A ROW is one query pixel `r` of the tile in image `b`. Read at an index, the body's pure terms say, for the block's
  256 keys `k`:
      score    `s k = (∑ f, q (b, f, r) · key (b, 0, f, k)) · 1`                       (the first matrix product)
      maximum  `m' = max m (max over k of s k, from -∞)`
      weights  `p k = exp (s k - m')`,   rescale  `α = exp (m - m')`
      sums     `l' = α · l + ∑ k, p k`,   `acc' d = α · acc d + ∑ k, p k · v (b, 0, d, k)`   (the second matrix product)
      output   `acc' d / l'`.
  This module only reads the printed operations at an index — the two matrix products as sums over their one
  contracted axis, the two lane reductions as a maximum and a sum over the block's keys, the re-layings and broadcasts
  by their coordinates; what the sums mean is the next module's business.
-/
import proofs.«165208_j19602230739911_2_alg».proof.Proof.KernelBody
import proofs.«165208_j19602230739911_2_alg».proof.Proof.OnlineSoftmax
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelRow

open Cert.KernelIdeal Cert.KernelIdeal.Gen Cert.KernelBody Cert.OnlineSoftmax

/-! ## The two matrix products' operand indices, axis by axis -/

theorem qk_lhs_0 (j : S2x2048x256.Idx) (q : dot_S2x256x2048_S2x256x256_S2x2048x256_1_1_2_2_0_0.contr.Idx) :
    (dot_S2x256x2048_S2x256x256_S2x2048x256_1_1_2_2_0_0.lhsIdx j q 0).val = (j 0).val := by
  unfold DotDims.lhsIdx
  rw [dif_pos (show (0 : Fin S2x256x2048.rank) ∈ dot_S2x256x2048_S2x256x256_S2x2048x256_1_1_2_2_0_0.lhsBatch by decide)]
  rfl
theorem qk_lhs_1 (j : S2x2048x256.Idx) (q : dot_S2x256x2048_S2x256x256_S2x2048x256_1_1_2_2_0_0.contr.Idx) :
    (dot_S2x256x2048_S2x256x256_S2x2048x256_1_1_2_2_0_0.lhsIdx j q 1).val = (q ⟨0, by decide⟩).val :=
  dot_S2x256x2048_S2x256x256_S2x2048x256_1_1_2_2_0_0.lhsIdx_val_of_single rfl j q
theorem qk_lhs_2 (j : S2x2048x256.Idx) (q : dot_S2x256x2048_S2x256x256_S2x2048x256_1_1_2_2_0_0.contr.Idx) :
    (dot_S2x256x2048_S2x256x256_S2x2048x256_1_1_2_2_0_0.lhsIdx j q 2).val = (j 1).val := by
  unfold DotDims.lhsIdx
  rw [dif_neg (show ¬(2 : Fin S2x256x2048.rank) ∈ dot_S2x256x2048_S2x256x256_S2x2048x256_1_1_2_2_0_0.lhsBatch by decide), dif_pos (show (2 : Fin S2x256x2048.rank) ∈ dot_S2x256x2048_S2x256x256_S2x2048x256_1_1_2_2_0_0.lhsNonContracting by decide)]
  rfl
theorem qk_rhs_0 (j : S2x2048x256.Idx) (q : dot_S2x256x2048_S2x256x256_S2x2048x256_1_1_2_2_0_0.contr.Idx) :
    (dot_S2x256x2048_S2x256x256_S2x2048x256_1_1_2_2_0_0.rhsIdx j q 0).val = (j 0).val := by
  unfold DotDims.rhsIdx
  rw [dif_pos (show (0 : Fin S2x256x256.rank) ∈ dot_S2x256x2048_S2x256x256_S2x2048x256_1_1_2_2_0_0.rhsBatch by decide)]
  rfl
theorem qk_rhs_1 (j : S2x2048x256.Idx) (q : dot_S2x256x2048_S2x256x256_S2x2048x256_1_1_2_2_0_0.contr.Idx) :
    (dot_S2x256x2048_S2x256x256_S2x2048x256_1_1_2_2_0_0.rhsIdx j q 1).val = (q ⟨0, by decide⟩).val :=
  dot_S2x256x2048_S2x256x256_S2x2048x256_1_1_2_2_0_0.rhsIdx_val_of_single rfl j q
theorem qk_rhs_2 (j : S2x2048x256.Idx) (q : dot_S2x256x2048_S2x256x256_S2x2048x256_1_1_2_2_0_0.contr.Idx) :
    (dot_S2x256x2048_S2x256x256_S2x2048x256_1_1_2_2_0_0.rhsIdx j q 2).val = (j 2).val := by
  unfold DotDims.rhsIdx
  rw [dif_neg (show ¬(2 : Fin S2x256x256.rank) ∈ dot_S2x256x2048_S2x256x256_S2x2048x256_1_1_2_2_0_0.rhsBatch by decide), dif_pos (show (2 : Fin S2x256x256.rank) ∈ dot_S2x256x2048_S2x256x256_S2x2048x256_1_1_2_2_0_0.rhsNonContracting by decide)]
  rfl
theorem pv_lhs_0 (j : S2x2048x16.Idx) (q : dot_S2x2048x256_S2x16x256_S2x2048x16_2_2_1_1_0_0.contr.Idx) :
    (dot_S2x2048x256_S2x16x256_S2x2048x16_2_2_1_1_0_0.lhsIdx j q 0).val = (j 0).val := by
  unfold DotDims.lhsIdx
  rw [dif_pos (show (0 : Fin S2x2048x256.rank) ∈ dot_S2x2048x256_S2x16x256_S2x2048x16_2_2_1_1_0_0.lhsBatch by decide)]
  rfl
theorem pv_lhs_1 (j : S2x2048x16.Idx) (q : dot_S2x2048x256_S2x16x256_S2x2048x16_2_2_1_1_0_0.contr.Idx) :
    (dot_S2x2048x256_S2x16x256_S2x2048x16_2_2_1_1_0_0.lhsIdx j q 1).val = (j 1).val := by
  unfold DotDims.lhsIdx
  rw [dif_neg (show ¬(1 : Fin S2x2048x256.rank) ∈ dot_S2x2048x256_S2x16x256_S2x2048x16_2_2_1_1_0_0.lhsBatch by decide), dif_pos (show (1 : Fin S2x2048x256.rank) ∈ dot_S2x2048x256_S2x16x256_S2x2048x16_2_2_1_1_0_0.lhsNonContracting by decide)]
  rfl
theorem pv_lhs_2 (j : S2x2048x16.Idx) (q : dot_S2x2048x256_S2x16x256_S2x2048x16_2_2_1_1_0_0.contr.Idx) :
    (dot_S2x2048x256_S2x16x256_S2x2048x16_2_2_1_1_0_0.lhsIdx j q 2).val = (q ⟨0, by decide⟩).val :=
  dot_S2x2048x256_S2x16x256_S2x2048x16_2_2_1_1_0_0.lhsIdx_val_of_single rfl j q
theorem pv_rhs_0 (j : S2x2048x16.Idx) (q : dot_S2x2048x256_S2x16x256_S2x2048x16_2_2_1_1_0_0.contr.Idx) :
    (dot_S2x2048x256_S2x16x256_S2x2048x16_2_2_1_1_0_0.rhsIdx j q 0).val = (j 0).val := by
  unfold DotDims.rhsIdx
  rw [dif_pos (show (0 : Fin S2x16x256.rank) ∈ dot_S2x2048x256_S2x16x256_S2x2048x16_2_2_1_1_0_0.rhsBatch by decide)]
  rfl
theorem pv_rhs_1 (j : S2x2048x16.Idx) (q : dot_S2x2048x256_S2x16x256_S2x2048x16_2_2_1_1_0_0.contr.Idx) :
    (dot_S2x2048x256_S2x16x256_S2x2048x16_2_2_1_1_0_0.rhsIdx j q 1).val = (j 2).val := by
  unfold DotDims.rhsIdx
  rw [dif_neg (show ¬(1 : Fin S2x16x256.rank) ∈ dot_S2x2048x256_S2x16x256_S2x2048x16_2_2_1_1_0_0.rhsBatch by decide), dif_pos (show (1 : Fin S2x16x256.rank) ∈ dot_S2x2048x256_S2x16x256_S2x2048x16_2_2_1_1_0_0.rhsNonContracting by decide)]
  rfl
theorem pv_rhs_2 (j : S2x2048x16.Idx) (q : dot_S2x2048x256_S2x16x256_S2x2048x16_2_2_1_1_0_0.contr.Idx) :
    (dot_S2x2048x256_S2x16x256_S2x2048x16_2_2_1_1_0_0.rhsIdx j q 2).val = (q ⟨0, by decide⟩).val :=
  dot_S2x2048x256_S2x16x256_S2x2048x16_2_2_1_1_0_0.rhsIdx_val_of_single rfl j q

theorem qk_lhs (b : Fin 2) (r : Fin 2048) (k : Fin 256) (f : Fin 256) :
    dot_S2x256x2048_S2x256x256_S2x2048x256_1_1_2_2_0_0.lhsIdx (ix3 b r k) ((contrEquiv1 dot_S2x256x2048_S2x256x256_S2x2048x256_1_1_2_2_0_0 256 rfl rfl).symm f) = ix3 b f r := by
  have hk := contrEquiv1_symm_val dot_S2x256x2048_S2x256x256_S2x2048x256_1_1_2_2_0_0 256 rfl rfl f
  exact funext fun a => Fin.ext (by
    match a with
    | ⟨0, _⟩ => exact qk_lhs_0 _ _
    | ⟨1, _⟩ => exact (qk_lhs_1 _ _).trans hk
    | ⟨2, _⟩ => exact qk_lhs_2 _ _)

theorem qk_rhs (b : Fin 2) (r : Fin 2048) (k : Fin 256) (f : Fin 256) :
    dot_S2x256x2048_S2x256x256_S2x2048x256_1_1_2_2_0_0.rhsIdx (ix3 b r k) ((contrEquiv1 dot_S2x256x2048_S2x256x256_S2x2048x256_1_1_2_2_0_0 256 rfl rfl).symm f) = ix3 b f k := by
  have hk := contrEquiv1_symm_val dot_S2x256x2048_S2x256x256_S2x2048x256_1_1_2_2_0_0 256 rfl rfl f
  exact funext fun a => Fin.ext (by
    match a with
    | ⟨0, _⟩ => exact qk_rhs_0 _ _
    | ⟨1, _⟩ => exact (qk_rhs_1 _ _).trans hk
    | ⟨2, _⟩ => exact qk_rhs_2 _ _)

theorem pv_lhs (b : Fin 2) (r : Fin 2048) (d : Fin 16) (k : Fin 256) :
    dot_S2x2048x256_S2x16x256_S2x2048x16_2_2_1_1_0_0.lhsIdx (ix3 b r d) ((contrEquiv1 dot_S2x2048x256_S2x16x256_S2x2048x16_2_2_1_1_0_0 256 rfl rfl).symm k) = ix3 b r k := by
  have hk := contrEquiv1_symm_val dot_S2x2048x256_S2x16x256_S2x2048x16_2_2_1_1_0_0 256 rfl rfl k
  exact funext fun a => Fin.ext (by
    match a with
    | ⟨0, _⟩ => exact pv_lhs_0 _ _
    | ⟨1, _⟩ => exact pv_lhs_1 _ _
    | ⟨2, _⟩ => exact (pv_lhs_2 _ _).trans hk)

theorem pv_rhs (b : Fin 2) (r : Fin 2048) (d : Fin 16) (k : Fin 256) :
    dot_S2x2048x256_S2x16x256_S2x2048x16_2_2_1_1_0_0.rhsIdx (ix3 b r d) ((contrEquiv1 dot_S2x2048x256_S2x16x256_S2x2048x16_2_2_1_1_0_0 256 rfl rfl).symm k) = ix3 b d k := by
  have hk := contrEquiv1_symm_val dot_S2x2048x256_S2x16x256_S2x2048x16_2_2_1_1_0_0 256 rfl rfl k
  exact funext fun a => Fin.ext (by
    match a with
    | ⟨0, _⟩ => exact pv_rhs_0 _ _
    | ⟨1, _⟩ => exact pv_rhs_1 _ _
    | ⟨2, _⟩ => exact (pv_rhs_2 _ _).trans hk)

/-! ## Layout operations of the body at an index -/

/-- The key block [2, 1, 256, 256] with its unit axis dropped. -/
theorem key_squeeze (x1 : Vec Ideal S2x1x256x256 .f32) (b : Fin 2) (f k : Fin 256) :
    shapeCast S2x256x256 x1 shapeCasts_S2x1x256x256_S2x256x256 (ix3 b f k) = x1 (ix4 b (0 : Fin 1) f k) := by
  refine shapeCast_apply x1 _ (ix3 b f k) (ix4 b (0 : Fin 1) f k) ?_
  rw [Shape.rowMajor_val_four, Shape.rowMajor_val_three]
  show (((b.val * 1 + 0) * 256 + f.val) * 256 + k.val) = ((b.val * 256 + f.val) * 256 + k.val)
  omega

/-- The label block [2, 1, 16, 256] with its unit axis dropped. -/
theorem label_squeeze (x2 : Vec Ideal S2x1x16x256 .f32) (b : Fin 2) (d : Fin 16) (k : Fin 256) :
    shapeCast S2x16x256 x2 shapeCasts_S2x1x16x256_S2x16x256 (ix3 b d k) = x2 (ix4 b (0 : Fin 1) d k) := by
  refine shapeCast_apply x2 _ (ix3 b d k) (ix4 b (0 : Fin 1) d k) ?_
  rw [Shape.rowMajor_val_four, Shape.rowMajor_val_three]
  show (((b.val * 1 + 0) * 16 + d.val) * 256 + k.val) = ((b.val * 16 + d.val) * 256 + k.val)
  omega

/-- A per-row value [2, 2048] given its trailing unit axis. -/
theorem col_of_row (y : Vec Ideal S2x2048 .f32) (b : Fin 2) (r : Fin 2048) :
    shapeCast S2x2048x1 y shapeCasts_S2x2048_S2x2048x1 (ix3 b r (0 : Fin 1)) = y (ix2 b r) := by
  refine shapeCast_apply y _ (ix3 b r (0 : Fin 1)) (ix2 b r) ?_
  rw [Shape.rowMajor_val_two, Shape.rowMajor_val_three]
  show b.val * 2048 + r.val = (b.val * 2048 + r.val) * 1 + 0
  omega

/-- A per-row column [2, 2048, 1] broadcast along the keys. -/
theorem bcast_keys (y : Vec Ideal S2x2048x1 .f32) (b : Fin 2) (r : Fin 2048) (k : Fin 256) :
    broadcastTo S2x2048x256 y broadcasts_S2x2048x1_S2x2048x256 (ix3 b r k) = y (ix3 b r (0 : Fin 1)) :=
  broadcastTo_apply y _ (ix3 b r k) (ix3 b r (0 : Fin 1)) fun a => by
    match a with
    | ⟨0, _⟩ => rfl
    | ⟨1, _⟩ => rfl
    | ⟨2, _⟩ => rfl

/-- A per-row column [2, 2048, 1] broadcast along the classes. -/
theorem bcast_classes (y : Vec Ideal S2x2048x1 .f32) (b : Fin 2) (r : Fin 2048) (d : Fin 16) :
    broadcastTo S2x2048x16 y broadcasts_S2x2048x1_S2x2048x16 (ix3 b r d) = y (ix3 b r (0 : Fin 1)) :=
  broadcastTo_apply y _ (ix3 b r d) (ix3 b r (0 : Fin 1)) fun a => by
    match a with
    | ⟨0, _⟩ => rfl
    | ⟨1, _⟩ => rfl
    | ⟨2, _⟩ => rfl

/-- Putting key `k` back into a row's index (b, r) of the reduced shape gives (b, r, k). -/
theorem key_of_row (b : Fin 2) (r : Fin 2048) (k : Fin 256) :
    reduces_S2x2048x256_S2x2048.lift (ix2 b r) k = ix3 b r k :=
  funext fun a => Fin.ext (by
    match a with
    | ⟨0, _⟩ => rfl
    | ⟨1, _⟩ => rfl
    | ⟨2, _⟩ => rfl)

/-- The block's scores: the inner products over the 256 features, times the constant 1.0 the body multiplies by. -/
theorem score_apply (x0 : Vec Ideal S2x256x2048 .f32) (x1 : Vec Ideal S2x1x256x256 .f32) (b : Fin 2) (r : Fin 2048) (k : Fin 256) :
    k0_pay8 (F := Ideal) x0 x1 (ix3 b r k)
      = (∑ f : Fin 256, x0 (ix3 b f r) * x1 (ix4 b (0 : Fin 1) f k)) * Ideal.ofBits .f32 0x3F800000#32 := by
  unfold k0_pay8
  show (matmul dot_S2x256x2048_S2x256x256_S2x2048x256_1_1_2_2_0_0 (some .fp32) (shapeCast S2x256x2048 x0 shapeCasts_S2x256x2048_S2x256x2048)
      (shapeCast S2x256x256 x1 shapeCasts_S2x1x256x256_S2x256x256) (constant S2x2048x256 .f32 0x00000000#32) (ix3 b r k)) * Ideal.ofBits .f32 0x3F800000#32 = _
  refine congrArg (· * Ideal.ofBits .f32 0x3F800000#32) ?_
  refine (Ideal.matmul_constant_zero_apply _ _ _ _ _).trans ?_
  rw [← Equiv.sum_comp (contrEquiv1 dot_S2x256x2048_S2x256x256_S2x2048x256_1_1_2_2_0_0 256 rfl rfl).symm]
  refine Finset.sum_congr rfl fun f _ => ?_
  rw [qk_lhs, qk_rhs, shapeCast_self, key_squeeze]

/-- The new maximum of a row: the old one against the maximum of the block's scores taken from `-∞`. -/
theorem max_apply (x0 : Vec Ideal S2x256x2048 .f32) (x1 : Vec Ideal S2x1x256x256 .f32) (xs0 : Vec Ideal S2x2048x1 .f32) (b : Fin 2) (r : Fin 2048) :
    k0_pay9 (F := Ideal) x0 x1 xs0 (ix3 b r (0 : Fin 1))
      = max (xs0 (ix3 b r (0 : Fin 1)))
          ((Finset.univ : Finset (Fin 256)).fold max (Ideal.ofBits .f32 0xFF800000#32) fun k => k0_pay8 (F := Ideal) x0 x1 (ix3 b r k)) := by
  unfold k0_pay9
  show maximumf xs0 (shapeCast S2x2048x1 (multiReduction .maximumf [2] S2x2048 (k0_pay8 (F := Ideal) x0 x1) 0xFF800000#32
      reduces_S2x2048x256_S2x2048 (.inl rfl) rfl) shapeCasts_S2x2048_S2x2048x1) (ix3 b r (0 : Fin 1)) = _
  refine (maximumf_apply _ _ _).trans ?_
  rw [col_of_row]
  have e := Ideal.multiReduction_maximumf_single (k0_pay8 (F := Ideal) x0 x1) 0xFF800000#32 reduces_S2x2048x256_S2x2048 (.inl rfl) rfl (ix2 b r)
  rw [e]
  have e2 : (k0_pay8 (F := Ideal) x0 x1 ∘ reduces_S2x2048x256_S2x2048.lift (ix2 b r)) = fun k : Fin 256 => k0_pay8 (F := Ideal) x0 x1 (ix3 b r k) :=
    funext fun k => congrArg (k0_pay8 (F := Ideal) x0 x1) (key_of_row b r k)
  rw [e2]
  rfl

/-- The rescaling factor of a row. -/
theorem alpha_apply (x0 : Vec Ideal S2x256x2048 .f32) (x1 : Vec Ideal S2x1x256x256 .f32) (xs0 : Vec Ideal S2x2048x1 .f32) (i : S2x2048x1.Idx) :
    k0_pay10 (F := Ideal) x0 x1 xs0 i = Ideal.exp (xs0 i - k0_pay9 (F := Ideal) x0 x1 xs0 i) := rfl

/-- The block's weights. -/
theorem weight_apply (x0 : Vec Ideal S2x256x2048 .f32) (x1 : Vec Ideal S2x1x256x256 .f32) (xs0 : Vec Ideal S2x2048x1 .f32) (b : Fin 2) (r : Fin 2048) (k : Fin 256) :
    k0_pay11 (F := Ideal) x0 x1 xs0 (ix3 b r k)
      = Ideal.exp (k0_pay8 (F := Ideal) x0 x1 (ix3 b r k) - k0_pay9 (F := Ideal) x0 x1 xs0 (ix3 b r (0 : Fin 1))) := by
  unfold k0_pay11
  show Ideal.exp (k0_pay8 (F := Ideal) x0 x1 (ix3 b r k) - broadcastTo S2x2048x256 (k0_pay9 (F := Ideal) x0 x1 xs0) broadcasts_S2x2048x1_S2x2048x256 (ix3 b r k)) = _
  rw [bcast_keys]

/-- The new sum of weights of a row. -/
theorem sum_apply (x0 : Vec Ideal S2x256x2048 .f32) (x1 : Vec Ideal S2x1x256x256 .f32) (xs0 xs1 : Vec Ideal S2x2048x1 .f32) (b : Fin 2) (r : Fin 2048) :
    k0_pay12 (F := Ideal) x0 x1 xs0 xs1 (ix3 b r (0 : Fin 1))
      = k0_pay10 (F := Ideal) x0 x1 xs0 (ix3 b r (0 : Fin 1)) * xs1 (ix3 b r (0 : Fin 1))
        + ∑ k : Fin 256, k0_pay11 (F := Ideal) x0 x1 xs0 (ix3 b r k) := by
  unfold k0_pay12
  show k0_pay10 (F := Ideal) x0 x1 xs0 (ix3 b r (0 : Fin 1)) * xs1 (ix3 b r (0 : Fin 1))
      + shapeCast S2x2048x1 (multiReduction .add [2] S2x2048 (k0_pay11 (F := Ideal) x0 x1 xs0) 0x00000000#32
          reduces_S2x2048x256_S2x2048 (.inl rfl) rfl) shapeCasts_S2x2048_S2x2048x1 (ix3 b r (0 : Fin 1)) = _
  refine congrArg (k0_pay10 (F := Ideal) x0 x1 xs0 (ix3 b r (0 : Fin 1)) * xs1 (ix3 b r (0 : Fin 1)) + ·) ?_
  refine (col_of_row _ b r).trans ?_
  refine (Ideal.multiReduction_add_single (k0_pay11 (F := Ideal) x0 x1 xs0) 0x00000000#32 reduces_S2x2048x256_S2x2048 (.inl rfl) rfl (ix2 b r)).trans ?_
  show ∑ k : Fin 256, k0_pay11 (F := Ideal) x0 x1 xs0 (reduces_S2x2048x256_S2x2048.lift (ix2 b r) k) = _
  exact Finset.sum_congr rfl fun k _ => congrArg (k0_pay11 (F := Ideal) x0 x1 xs0) (key_of_row b r k)

/-- The new weighted sum of labels of a row, class `d`. -/
theorem acc_apply (v20 : Vec Ideal S2x2048x1 .f32) (v23 : Vec Ideal S2x2048x256 .f32) (x2 : Vec Ideal S2x1x16x256 .f32)
    (xs2 : Vec Ideal S2x2048x16 .f32) (b : Fin 2) (r : Fin 2048) (d : Fin 16) :
    k0_pay2 (F := Ideal) v20 v23 x2 xs2 (ix3 b r d)
      = v20 (ix3 b r (0 : Fin 1)) * xs2 (ix3 b r d) + ∑ k : Fin 256, v23 (ix3 b r k) * x2 (ix4 b (0 : Fin 1) d k) := by
  unfold k0_pay2
  show shapeCast S2x2048x16 (addf (mulf (broadcastTo S2x2048x16 v20 broadcasts_S2x2048x1_S2x2048x16) xs2)
      (matmul dot_S2x2048x256_S2x16x256_S2x2048x16_2_2_1_1_0_0 (some .fp32) v23 (shapeCast S2x16x256 (x2 : FVec Ideal S2x1x16x256 .f32) shapeCasts_S2x1x16x256_S2x16x256 : FVec Ideal S2x16x256 .f32) (constant S2x2048x16 .f32 0x00000000#32)))
      shapeCasts_S2x2048x16_S2x2048x16 (ix3 b r d) = _
  rw [shapeCast_self]
  show broadcastTo S2x2048x16 v20 broadcasts_S2x2048x1_S2x2048x16 (ix3 b r d) * xs2 (ix3 b r d)
      + matmul dot_S2x2048x256_S2x16x256_S2x2048x16_2_2_1_1_0_0 (some .fp32) v23 (shapeCast S2x16x256 (x2 : FVec Ideal S2x1x16x256 .f32) shapeCasts_S2x1x16x256_S2x16x256 : FVec Ideal S2x16x256 .f32) (constant S2x2048x16 .f32 0x00000000#32) (ix3 b r d) = _
  rw [bcast_classes]
  refine congrArg (v20 (ix3 b r (0 : Fin 1)) * xs2 (ix3 b r d) + ·) ?_
  refine (Ideal.matmul_constant_zero_apply _ _ _ _ _).trans ?_
  rw [← Equiv.sum_comp (contrEquiv1 dot_S2x2048x256_S2x16x256_S2x2048x16_2_2_1_1_0_0 256 rfl rfl).symm]
  refine Finset.sum_congr rfl fun k _ => ?_
  rw [pv_lhs, pv_rhs, label_squeeze]

/-- The output of a last point. -/
theorem quotient_apply (acc : Vec Ideal S2x2048x16 .f32) (l : Vec Ideal S2x2048x1 .f32) (b : Fin 2) (r : Fin 2048) (d : Fin 16) :
    quotient (F := Ideal) acc l (ix3 b r d) = Ideal.div (acc (ix3 b r d)) (l (ix3 b r (0 : Fin 1))) := by
  unfold quotient k0_pay4
  show Ideal.div (acc (ix3 b r d)) (broadcastTo S2x2048x16 l broadcasts_S2x2048x1_S2x2048x16 (ix3 b r d)) = _
  rw [bcast_classes]

theorem pay1_eq (v : Vec Ideal S2x2048x1 .f32) : k0_pay1 (F := Ideal) v = v := shapeCast_self _ _
theorem pay3_eq (v : Vec Ideal S2x2048x1 .f32) : k0_pay3 (F := Ideal) v = v := shapeCast_self _ _

/-! ## The constants -/

theorem neg_inf : Ideal.ofBits .f32 0xFF800000#32 = ⊥ := by simp [Ideal.ofBits, Ideal.ieee]
theorem one : Ideal.ofBits .f32 0x3F800000#32 = 1 := by
  simp [Ideal.ofBits, Ideal.ieee]
  rw [← EReal.coe_mul]
  norm_num

theorem m0_apply (i : S2x2048x1.Idx) : m0 (F := Ideal) i = ⊥ := by
  unfold m0 k0_pay5
  show shapeCast S2x2048x1 (broadcast S2x2048x1 (Ideal.ofBits .f32 0xFF800000#32)) shapeCasts_S2x2048x1_S2x2048x1 i = _
  rw [shapeCast_self]; exact neg_inf
theorem l0_apply (i : S2x2048x1.Idx) : l0 (F := Ideal) i = 0 := by
  unfold l0 k0_pay6
  show shapeCast S2x2048x1 (broadcast S2x2048x1 (Ideal.ofBits .f32 0x00000000#32)) shapeCasts_S2x2048x1_S2x2048x1 i = _
  rw [shapeCast_self]; exact Ideal.ofBits_zero_f32
theorem acc0_apply (i : S2x2048x16.Idx) : acc0 (F := Ideal) i = 0 := by
  unfold acc0 k0_pay7
  show shapeCast S2x2048x16 (broadcast S2x2048x16 (Ideal.ofBits .f32 0x00000000#32)) shapeCasts_S2x2048x16_S2x2048x16 i = _
  rw [shapeCast_self]; exact Ideal.ofBits_zero_f32

end Cert.KernelRow

end
-- ==== Proof.KernelRowStep.lean ====
/-
  One row of the scratch, one grid point: the online-softmax step.

  `RowInv s lbl N` says a scratch row holds the sums over the first `N` keys at SOME real level `μ`:
  `m = μ`, `l = ∑ n < N, exp (s n - μ)`, `acc d = ∑ n < N, exp (s n - μ) · lbl d n`. A point whose block has the
  real scores `s (N + k)` and labels `lbl d (N + k)` takes such a row to one for `N + 256` (`row_step`); a first
  point takes the reset row (`-∞`, `0`, `0`) to one for `256` (`row_first`); and the quotient a last point stores is
  the softmax-weighted average over the keys seen, at whatever level the row is (`row_out`).
-/
import proofs.«165208_j19602230739911_2_alg».proof.Proof.KernelRow

noncomputable section

open Idealize.ShloMosaic Idealize.ShloMosaic.ValueIdx

namespace Cert.KernelRow

open Cert.KernelIdeal Cert.KernelIdeal.Gen Cert.KernelBody Cert.OnlineSoftmax

/-- A scratch row holds the sums over the first `N` keys at some real level. -/
def RowInv (s : ℕ → ℝ) (lbl : Fin 16 → ℕ → ℝ) (N : ℕ) (M L : Vec Ideal S2x2048x1 .f32) (A : Vec Ideal S2x2048x16 .f32)
    (b : Fin 2) (r : Fin 2048) : Prop :=
  ∃ μ : ℝ, M (ix3 b r (0 : Fin 1)) = (μ : EReal) ∧ L (ix3 b r (0 : Fin 1)) = ((wsum s μ N : ℝ) : EReal)
    ∧ ∀ d : Fin 16, A (ix3 b r d) = ((wacc s (lbl d) μ N : ℝ) : EReal)

/-- The block's scores are the real numbers `s (N + k)` once the inner products are (the factor 1 drops). -/
theorem scores_real (q : Vec Ideal S2x256x2048 .f32) (k : Vec Ideal S2x1x256x256 .f32) (b : Fin 2) (r : Fin 2048) (s : ℕ → ℝ) (N : ℕ)
    (hs : ∀ kk : Fin 256, (∑ f : Fin 256, q (ix3 b f r) * k (ix4 b (0 : Fin 1) f kk)) = ((s (N + kk.val) : ℝ) : EReal)) (kk : Fin 256) :
    k0_pay8 (F := Ideal) q k (ix3 b r kk) = ((s (N + kk.val) : ℝ) : EReal) :=
  (score_apply q k b r kk).trans (by rw [hs kk, one, mul_one])

/-- The new maximum of a row whose old maximum is `-∞` or real, over a block of real scores, is real; and then the
    block's weights and the rescaling factor are the exponentials the algebra speaks of. -/
theorem new_level (q : Vec Ideal S2x256x2048 .f32) (k : Vec Ideal S2x1x256x256 .f32) (M : Vec Ideal S2x2048x1 .f32) (b : Fin 2) (r : Fin 2048)
    (s : ℕ → ℝ) (N : ℕ) (hsc : ∀ kk : Fin 256, k0_pay8 (F := Ideal) q k (ix3 b r kk) = ((s (N + kk.val) : ℝ) : EReal))
    (hM : M (ix3 b r (0 : Fin 1)) = ⊥ ∨ ∃ μ : ℝ, M (ix3 b r (0 : Fin 1)) = (μ : EReal)) :
    ∃ μ' : ℝ, k0_pay9 (F := Ideal) q k M (ix3 b r (0 : Fin 1)) = (μ' : EReal)
      ∧ (∀ kk : Fin 256, k0_pay11 (F := Ideal) q k M (ix3 b r kk) = Ideal.exp (k0_pay8 (F := Ideal) q k (ix3 b r kk) - (μ' : EReal)))
      ∧ k0_pay10 (F := Ideal) q k M (ix3 b r (0 : Fin 1)) = Ideal.exp (M (ix3 b r (0 : Fin 1)) - (μ' : EReal)) := by
  obtain ⟨β, hβ⟩ := fold_max_real (by decide : 0 < 256) (fun kk => k0_pay8 (F := Ideal) q k (ix3 b r kk)) (fun kk => s (N + kk.val)) hsc
  obtain ⟨μ', hμ'⟩ := max_real hM hβ
  have hmax : k0_pay9 (F := Ideal) q k M (ix3 b r (0 : Fin 1)) = (μ' : EReal) :=
    (max_apply q k M b r).trans (by rw [neg_inf]; exact hμ')
  exact ⟨μ', hmax, fun kk => (weight_apply q k M b r kk).trans (by rw [hmax]),
    (alpha_apply q k M _).trans (by rw [hmax])⟩

/-- A middle or last point. -/
theorem row_step (q : Vec Ideal S2x256x2048 .f32) (k : Vec Ideal S2x1x256x256 .f32) (v : Vec Ideal S2x1x16x256 .f32)
    (M L : Vec Ideal S2x2048x1 .f32) (A : Vec Ideal S2x2048x16 .f32) (b : Fin 2) (r : Fin 2048)
    (s : ℕ → ℝ) (lbl : Fin 16 → ℕ → ℝ) (N : ℕ)
    (hs : ∀ kk : Fin 256, (∑ f : Fin 256, q (ix3 b f r) * k (ix4 b (0 : Fin 1) f kk)) = ((s (N + kk.val) : ℝ) : EReal))
    (hv : ∀ (d : Fin 16) (kk : Fin 256), v (ix4 b (0 : Fin 1) d kk) = ((lbl d (N + kk.val) : ℝ) : EReal))
    (h : RowInv s lbl N M L A b r) :
    RowInv s lbl (N + 256) (newMax q k M) (newSum q k M L) (newAcc q k v M A) b r := by
  obtain ⟨μ, hM, hL, hA⟩ := h
  have hsc := scores_real q k b r s N hs
  obtain ⟨μ', hmax, hw, hα⟩ := new_level q k M b r s N hsc (Or.inr ⟨μ, hM⟩)
  rw [hM] at hα
  refine ⟨μ', ?_, ?_, fun d => ?_⟩
  · exact (congrFun (pay3_eq _) _).trans hmax
  · refine (congrFun (pay1_eq _) _).trans ((sum_apply q k M L b r).trans ?_)
    rw [hα, hL, Finset.sum_congr rfl fun kk _ => hw kk]
    exact l_step s μ μ' N 256 _ hsc
  · refine (acc_apply _ _ v A b r d).trans ?_
    rw [hα, hA d, Finset.sum_congr rfl fun kk _ => congrArg (· * v (ix4 b (0 : Fin 1) d kk)) (hw kk)]
    exact a_step s (lbl d) μ μ' N 256 _ _ hsc (hv d)

/-- A first point: from the reset values. -/
theorem row_first (q : Vec Ideal S2x256x2048 .f32) (k : Vec Ideal S2x1x256x256 .f32) (v : Vec Ideal S2x1x16x256 .f32)
    (b : Fin 2) (r : Fin 2048) (s : ℕ → ℝ) (lbl : Fin 16 → ℕ → ℝ)
    (hs : ∀ kk : Fin 256, (∑ f : Fin 256, q (ix3 b f r) * k (ix4 b (0 : Fin 1) f kk)) = ((s (0 + kk.val) : ℝ) : EReal))
    (hv : ∀ (d : Fin 16) (kk : Fin 256), v (ix4 b (0 : Fin 1) d kk) = ((lbl d (0 + kk.val) : ℝ) : EReal)) :
    RowInv s lbl (0 + 256) (newMax q k m0) (newSum q k m0 l0) (newAcc q k v m0 acc0) b r := by
  have hsc := scores_real q k b r s 0 hs
  obtain ⟨μ', hmax, hw, hα⟩ := new_level q k m0 b r s 0 hsc (Or.inl (m0_apply _))
  rw [m0_apply] at hα
  refine ⟨μ', ?_, ?_, fun d => ?_⟩
  · exact (congrFun (pay3_eq _) _).trans hmax
  · refine (congrFun (pay1_eq _) _).trans ((sum_apply q k m0 l0 b r).trans ?_)
    rw [hα, l0_apply, Finset.sum_congr rfl fun kk _ => hw kk]
    exact l_first s μ' 256 _ hsc
  · refine (acc_apply _ _ v acc0 b r d).trans ?_
    rw [hα, acc0_apply, Finset.sum_congr rfl fun kk _ => congrArg (· * v (ix4 b (0 : Fin 1) d kk)) (hw kk)]
    exact a_first s (lbl d) μ' 256 _ _ hsc (hv d)

/-- What a last point stores. -/
theorem row_out (M L : Vec Ideal S2x2048x1 .f32) (A : Vec Ideal S2x2048x16 .f32) (b : Fin 2) (r : Fin 2048)
    (s : ℕ → ℝ) (lbl : Fin 16 → ℕ → ℝ) (N : ℕ) (hN : 0 < N) (h : RowInv s lbl N M L A b r) (d : Fin 16) :
    quotient (F := Ideal) A L (ix3 b r d) = ((wacc s (lbl d) 0 N / wsum s 0 N : ℝ) : EReal) := by
  obtain ⟨μ, hM, hL, hA⟩ := h
  rw [quotient_apply, hA d, hL, div_real _ _ (wsum_pos s μ hN).ne', ratio_level s (lbl d) μ 0 N]

end Cert.KernelRow

end
-- ==== Proof.KernelInv.lean ====
/-
  The scratch after every grid point: by induction on the point, each row holds the online-softmax sums of the
  keys its query tile has seen so far.

  Point `n` (of 96) is block `n mod 48` of query tile `n / 48`. After it, row `r` of image `b` holds the sums over the
  keys `0, …, 256 (n mod 48) + 255` of the scores of query `2048 (n / 48) + r` (`scratch_inv`): a first point of a tile
  starts from the reset values, every other point continues from what the point before left — which is what the
  pipeline's proof data says the body finds in the scratch. The last point of a tile (block 47) has then seen all
  12288 keys, and what it stores is the specification's softmax-weighted average (`out_last`).
-/
import proofs.«165208_j19602230739911_2_alg».proof.Proof.KernelPieces
import proofs.«165208_j19602230739911_2_alg».proof.Proof.KernelBlocks
import proofs.«165208_j19602230739911_2_alg».proof.Proof.KernelRowStep

noncomputable section

open Idealize.ShloMosaic Idealize.ShloMosaic.TcCoe Idealize.SL.Sem Idealize.ShloMosaic.ValueIdx

namespace Cert.KernelInv

open Cert.KernelIdeal Cert.KernelIdeal.Gen Cert.KernelBody Cert.KernelPieces Cert.KernelBlocks Cert.KernelRow Cert.Spec Cert.OnlineSoftmax

variable (m : (ℓ : Loc nD τ sig) → Buf (Elt Ideal) ℓ) (c : Dev nD)

/-! ## The point's three blocks, at their literal types -/

/-- The query, key and label blocks of point `t`, as vectors of the body's literal shapes. -/
def qB (t : Fin cfg0.N) : Vec Ideal S2x256x2048 .f32 := iblk m c 0 t
def kB (t : Fin cfg0.N) : Vec Ideal S2x1x256x256 .f32 := iblk m c 1 t
def vB (t : Fin cfg0.N) : Vec Ideal S2x1x16x256 .f32 := iblk m c 2 t

/-! ## The blocks' scores and labels are the specification's, when the arguments are real -/

theorem block_scores (hR : AllReal (s := S2x3x256x64x64) (m ((c : Thread nD τ).loc main_arg0)))
    (hT : AllReal (s := S2x256x64x64) (m ((c : Thread nD τ).loc main_arg1)))
    (n : ℕ) (hn : n < cfg0.N) (b : Fin 2) (r : Fin 2048) (kk : Fin 256) :
    (∑ f : Fin 256, qB m c ⟨n, hn⟩ (ix3 b f r) * kB m c ⟨n, hn⟩ (ix4 b (0 : Fin 1) f kk))
      = ((score (m ((c : Thread nD τ).loc main_arg0)) (m ((c : Thread nD τ).loc main_arg1)) b (2048 * (n / 48) + r.val)
            (256 * (n % 48) + kk.val) : ℝ) : EReal) := by
  unfold score
  rw [← coe_sum]
  refine Finset.sum_congr rfl fun f _ => ?_
  exact (congrArg₂ (fun x y : EReal => x * y) ((q_block m c ⟨n, hn⟩ b f r).trans (hT _)) ((k_block m c ⟨n, hn⟩ b f kk).trans (hR _))).trans
    (EReal.coe_mul _ _).symm

theorem block_labels (hL : AllReal (s := S2x3x16x64x64) (m ((c : Thread nD τ).loc main_arg2)))
    (n : ℕ) (hn : n < cfg0.N) (b : Fin 2) (d : Fin 16) (kk : Fin 256) :
    vB m c ⟨n, hn⟩ (ix4 b (0 : Fin 1) d kk)
      = ((label (m ((c : Thread nD τ).loc main_arg2)) b d (256 * (n % 48) + kk.val) : ℝ) : EReal) :=
  (v_block m c ⟨n, hn⟩ b d kk).trans (hL _)

/-! ## The invariant -/

/-- After point `n`, row `r` of image `b` holds the sums over the first `256 (n mod 48) + 256` keys of the scores
    of query `2048 (n / 48) + r`, at some real level. In each control case the scratch after the point is read off
    the frame's account of the point (the case's stores, read back as the body's named functions). -/
theorem scratch_inv (hR : AllReal (s := S2x3x256x64x64) (m ((c : Thread nD τ).loc main_arg0)))
    (hT : AllReal (s := S2x256x64x64) (m ((c : Thread nD τ).loc main_arg1)))
    (hL : AllReal (s := S2x3x16x64x64) (m ((c : Thread nD τ).loc main_arg2))) (n : ℕ) :
    ∀ (hn : n < cfg0.N) (b : Fin 2) (r : Fin 2048),
      RowInv (score (m ((c : Thread nD τ).loc main_arg0)) (m ((c : Thread nD τ).loc main_arg1)) b (2048 * (n / 48) + r.val))
        (fun d => label (m ((c : Thread nD τ).loc main_arg2)) b d) (256 * (n % 48) + 256)
        (outsAt0 m c n hn).2.1 (outsAt0 m c n hn).2.2.1 (outsAt0 m c n hn).2.2.2 b r := by
  induction n with
  | zero =>
    intro hn b r
    have e : outsAt0 m c 0 hn = _ := outsAt0_A m c ⟨0, hn⟩ rfl (by show ¬(0 % 48 = 47); decide)
    rw [e]
    dsimp only
    rw [max_A, sum_A, acc_A]
    exact row_first (qB m c ⟨0, hn⟩) (kB m c ⟨0, hn⟩) (vB m c ⟨0, hn⟩) b r _ _
      (fun kk => block_scores m c hR hT 0 hn b r kk) (fun d kk => block_labels m c hL 0 hn b d kk)
  | succ n ih =>
    intro hn b r
    have hN : n + 1 < 96 := lt_of_lt_of_eq hn (show cfg0.N = 96 from N_0)
    by_cases h0 : (n + 1) % 48 = 0
    · have e : outsAt0 m c (n + 1) hn = _ := outsAt0_A m c ⟨n + 1, hn⟩ h0 (by show ¬(n + 1) % 48 = 47; omega)
      have hz : 256 * ((n + 1) % 48) = 0 := by omega
      rw [e, hz]
      dsimp only
      rw [max_A, sum_A, acc_A]
      exact row_first (qB m c ⟨n + 1, hn⟩) (kB m c ⟨n + 1, hn⟩) (vB m c ⟨n + 1, hn⟩) b r _ _
        (fun kk => by have := block_scores m c hR hT (n + 1) hn b r kk; rw [hz] at this; exact this)
        (fun d kk => by have := block_labels m c hL (n + 1) hn b d kk; rw [hz] at this; exact this)
    · have hq : (n + 1) / 48 = n / 48 := by omega
      have hk : 256 * ((n + 1) % 48) = 256 * (n % 48) + 256 := by omega
      have ihp := ih (Nat.lt_of_succ_lt hn) b r
      have hs : ∀ kk : Fin 256, (∑ f : Fin 256, qB m c ⟨n + 1, hn⟩ (ix3 b f r) * kB m c ⟨n + 1, hn⟩ (ix4 b (0 : Fin 1) f kk))
          = ((score (m ((c : Thread nD τ).loc main_arg0)) (m ((c : Thread nD τ).loc main_arg1)) b (2048 * (n / 48) + r.val)
                (256 * (n % 48) + 256 + kk.val) : ℝ) : EReal) := fun kk => by
        have := block_scores m c hR hT (n + 1) hn b r kk; rw [hq, hk] at this; exact this
      have hv : ∀ (d : Fin 16) (kk : Fin 256), vB m c ⟨n + 1, hn⟩ (ix4 b (0 : Fin 1) d kk)
          = ((label (m ((c : Thread nD τ).loc main_arg2)) b d (256 * (n % 48) + 256 + kk.val) : ℝ) : EReal) := fun d kk => by
        have := block_labels m c hL (n + 1) hn b d kk; rw [hk] at this; exact this
      by_cases h1 : (n + 1) % 48 = 47
      · have e : outsAt0 m c (n + 1) hn = _ := outsAt0_C m c ⟨n + 1, hn⟩ h0 h1
        rw [e, hq, hk]
        dsimp only
        rw [max_C, sum_C, acc_C]
        exact row_step (qB m c ⟨n + 1, hn⟩) (kB m c ⟨n + 1, hn⟩) (vB m c ⟨n + 1, hn⟩) _ _ _ b r _ _ _ hs hv ihp
      · have e : outsAt0 m c (n + 1) hn = _ := outsAt0_B m c ⟨n + 1, hn⟩ h0 h1
        rw [e, hq, hk]
        dsimp only
        rw [max_B, sum_B, acc_B]
        exact row_step (qB m c ⟨n + 1, hn⟩) (kB m c ⟨n + 1, hn⟩) (vB m c ⟨n + 1, hn⟩) _ _ _ b r _ _ _ hs hv ihp

/-- What the last point of a query tile stores into the output block: the specification's value. -/
theorem out_last (hR : AllReal (s := S2x3x256x64x64) (m ((c : Thread nD τ).loc main_arg0)))
    (hT : AllReal (s := S2x256x64x64) (m ((c : Thread nD τ).loc main_arg1)))
    (hL : AllReal (s := S2x3x16x64x64) (m ((c : Thread nD τ).loc main_arg2)))
    (t : Fin cfg0.N) (h1 : t.val % 48 = 47) (b : Fin 2) (r : Fin 2048) (d : Fin 16) :
    ((outsAt0 m c t.val t.isLt).1 : Vec Ideal S2x2048x16 .f32) (ix3 b r d)
      = ((attn (m ((c : Thread nD τ).loc main_arg0)) (m ((c : Thread nD τ).loc main_arg1)) (m ((c : Thread nD τ).loc main_arg2))
            b (2048 * (t.val / 48) + r.val) d : ℝ) : EReal) := by
  obtain ⟨n, hn⟩ := t
  cases n with
  | zero => exfalso; dsimp only at h1; omega
  | succ n =>
    have h1' : (n + 1) % 48 = 47 := h1
    have h0 : ¬(n + 1) % 48 = 0 := by omega
    have hinv := scratch_inv m c hR hT hL (n + 1) hn b r
    have hN : 256 * ((n + 1) % 48) + 256 = 12288 := by omega
    rw [hN] at hinv
    have e : outsAt0 m c (n + 1) hn = _ := outsAt0_C m c ⟨n + 1, hn⟩ h0 h1'
    show ((outsAt0 m c (n + 1) hn).1 : Vec Ideal S2x2048x16 .f32) (ix3 b r d) = _
    rw [e] at hinv ⊢
    dsimp only at hinv ⊢
    rw [max_C, sum_C, acc_C] at hinv
    rw [out_C]
    exact row_out _ _ _ b r _ _ 12288 (by decide) hinv d

end Cert.KernelInv

end
-- ==== Proof.KernelOut.lean ====
/-
  The result array of the region: every entry is the specification's softmax-weighted average.

  The output window's block at point `t` is rows `2048 (t / 48), …` of the [2, 4096, 16] array; it is written back
  once per query tile, after the tile's last point (block 47), and there it holds the quotient of the finished sums
  (`Cert.KernelInv.out_last`). The two tiles' blocks cover the array, so after the run entry (b, t, d) is
  `attn b t d`.
-/
import proofs.«165208_j19602230739911_2_alg».proof.Proof.KernelInv

noncomputable section

open Idealize.ShloMosaic Idealize.ShloMosaic.TcCoe Idealize.SL.Sem Idealize.ShloMosaic.ValueIdx
open Idealize.ShloMosaic.Pipeline (Dat)

namespace Cert.KernelOut

open Cert.KernelIdeal Cert.KernelIdeal.Gen Cert.KernelBlocks Cert.KernelInv Cert.Spec

variable (m : (ℓ : Loc nD τ sig) → Buf (Elt Ideal) ℓ) (c : Dev nD)

/-- The specification laid out as the region's result array [2, 4096, 16]: (image, query, class). -/
def outArr (ref : S2x3x256x64x64.Idx → EReal) (tgt : S2x256x64x64.Idx → EReal) (lab : S2x3x16x64x64.Idx → EReal) :
    S2x4096x16.Idx → EReal :=
  fun i => ((attn ref tgt lab ⟨(i 0).val, (i 0).isLt⟩ (i 1).val ⟨(i 2).val, (i 2).isLt⟩ : ℝ) : EReal)

/-- What a write-back of the output window writes is its block of the specification. -/
theorem flushed_eq (hR : AllReal (s := S2x3x256x64x64) (m ((c : Thread nD τ).loc main_arg0)))
    (hT : AllReal (s := S2x256x64x64) (m ((c : Thread nD τ).loc main_arg1)))
    (hL : AllReal (s := S2x3x16x64x64) (m ((c : Thread nD τ).loc main_arg2)))
    (t : Fin cfg0.N) (hf : (cfg0.win 3).flush t = true) :
    (dats m 0 c).flushed 3 t
      = ((cfg0.win 3).blk t).view.read (Elt Ideal)
          (outArr (m ((c : Thread nD τ).loc main_arg0)) (m ((c : Thread nD τ).loc main_arg1)) (m ((c : Thread nD τ).loc main_arg2))) := by
  have h47 : t.val % 48 = 47 := (flush0_3 t).mp hf
  obtain ⟨-, -, -, -, -, -, -, -, -, -, -, i0, i1, i2⟩ := idx_facts t
  show (cfg0.win 3).cut (grid0.coords t) ((dats m 0 c).after 3 t) = _
  rw [after0_3]
  funext j
  show ((outsAt0 m c t.val t.isLt).1 : Vec Ideal S2x2048x16 .f32) j
      = outArr (m ((c : Thread nD τ).loc main_arg0)) (m ((c : Thread nD τ).loc main_arg1)) (m ((c : Thread nD τ).loc main_arg2))
          (((cfg0.win 3).blk t).view.emb j)
  refine Eq.trans (congrArg ((outsAt0 m c t.val t.isLt).1 : Vec Ideal S2x2048x16 .f32) (eq_ix3 (j : S2x2048x16.Idx))) ?_
  refine (out_last m c hR hT hL t h47 ((j : S2x2048x16.Idx) 0) ((j : S2x2048x16.Idx) 1) ((j : S2x2048x16.Idx) 2)).trans ?_
  unfold outArr
  have e0 : ((((cfg0.win 3).blk t).view.emb j) 0).val = (j 0).val := by
    show win0_3.index t (0 : Fin 3) * 2 + 1 * (j 0).val = (j 0).val
    rw [i0]; omega
  have e1 : ((((cfg0.win 3).blk t).view.emb j) 1).val = 2048 * (t.val / 48) + (j 1).val := by
    show win0_3.index t (1 : Fin 3) * 2048 + 1 * (j 1).val = _
    rw [i1]; omega
  have e2 : ((((cfg0.win 3).blk t).view.emb j) 2).val = (j 2).val := by
    show win0_3.index t (2 : Fin 3) * 16 + 1 * (j 2).val = (j 2).val
    rw [i2]; omega
  have f0 : (⟨((((cfg0.win 3).blk t).view.emb j) 0).val, ((((cfg0.win 3).blk t).view.emb j) 0).isLt⟩ : Fin 2) = (j : S2x2048x16.Idx) 0 := Fin.ext e0
  have f2 : (⟨((((cfg0.win 3).blk t).view.emb j) 2).val, ((((cfg0.win 3).blk t).view.emb j) 2).isLt⟩ : Fin 16) = (j : S2x2048x16.Idx) 2 := Fin.ext e2
  rw [f0, f2, e1]

/-- An index of the result array is in point `t`'s block iff each coordinate is in the block's range on its axis. -/
theorem mem_blk (t : Fin cfg0.N) (i : S2x4096x16.Idx) :
    i ∈ ((cfg0.win 3).blk t).view.set
      ↔ ∀ a : Fin 3, win0_3.index t a * S2x2048x16.size a ≤ (i a).val ∧ (i a).val < win0_3.index t a * S2x2048x16.size a + S2x2048x16.size a := by
  show i ∈ ((View.whole main_v3).slice (win0_3.rect t)).set ↔ _
  rw [View.set_slice_whole, Rect.mem_set_unit]
  exact Iff.rfl

/-- Every index is in the block some tile's last point writes back: query `q` is in tile `q / 2048`. -/
theorem cover (i : S2x4096x16.Idx) :
    ∃ t : Fin cfg0.N, (cfg0.win 3).flush t = true ∧ i ∈ ((cfg0.win 3).blk t).view.set := by
  have h0 : (i 0).val < 2 := (i 0).isLt
  have h1 : (i 1).val < 4096 := (i 1).isLt
  have h2 : (i 2).val < 16 := (i 2).isLt
  have hN : cfg0.N = 96 := N_0
  let t : Fin cfg0.N := ⟨48 * ((i 1).val / 2048) + 47, by rw [hN]; omega⟩
  have ht : t.val = 48 * ((i 1).val / 2048) + 47 := rfl
  obtain ⟨-, -, -, -, -, -, -, -, -, -, -, i0, i1, i2⟩ := idx_facts t
  refine ⟨t, (flush0_3 t).mpr (by rw [ht]; omega), ?_⟩
  rw [mem_blk]
  intro a
  match a with
  | ⟨0, _⟩ =>
    show win0_3.index t (0 : Fin 3) * 2 ≤ (i 0).val ∧ (i 0).val < win0_3.index t (0 : Fin 3) * 2 + 2
    rw [i0]; omega
  | ⟨1, _⟩ =>
    show win0_3.index t (1 : Fin 3) * 2048 ≤ (i 1).val ∧ (i 1).val < win0_3.index t (1 : Fin 3) * 2048 + 2048
    rw [i1, ht]; omega
  | ⟨2, _⟩ =>
    show win0_3.index t (2 : Fin 3) * 16 ≤ (i 2).val ∧ (i 2).val < win0_3.index t (2 : Fin 3) * 16 + 16
    rw [i2]; omega

/-- The result array after the run is the specification. -/
theorem final (hR : AllReal (s := S2x3x256x64x64) (m ((c : Thread nD τ).loc main_arg0)))
    (hT : AllReal (s := S2x256x64x64) (m ((c : Thread nD τ).loc main_arg1)))
    (hL : AllReal (s := S2x3x16x64x64) (m ((c : Thread nD τ).loc main_arg2))) :
    (dats m 0 c).arrAt 3 cfg0.N
      = outArr (m ((c : Thread nD τ).loc main_arg0)) (m ((c : Thread nD τ).loc main_arg1)) (m ((c : Thread nD τ).loc main_arg2)) :=
  (dats m 0 c).arrAt_eq_of_cover 3 _ (flushed_eq m c hR hT hL) (cover)

end Cert.KernelOut

end
-- ==== Proof.RefRun.lean ====
/-
  The reference program, run: what its result buffer holds when @main has ended, as a function of the
  four arguments' launch contents.

  The program is a straight line of 58 host operations (the one call it makes is a line of 22 more,
  standing in the call's place). Its result is stated in two pieces, cut where the mathematics is cut:

    pred  — %0 … %20: the scores of every key against every query (a matrix product), their softmax
            over the keys (row maximum, exponential, row sum, quotient), and the softmax-weighted
            average of the keys' labels (a second matrix product), reshaped to the image grid;
    tail  — %21 … %29: add 1e-14, logarithm, pick the class named by the integer argument, negate, and
            take the mean — a function of pred's value and the integer argument only.

  pred is built from named intermediate stages (scores, rowMax, weights, rowSum, probs, labels) so that each
  can be read at an index by a lemma of its own; tail is one term, every operation spelt as the program
  prints it.
-/
import proofs.«165208_j19602230739911_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe
  Idealize.SL.Sem Idealize.ShloMosaic.StableHlo

variable {F : FTy → Type} [FloatOps F]

/-! ## The value before the tail, stage by stage -/

/-- %0 … %5: the keys' features laid out one key per row (transpose, reshape), the queries' one query per
    column (reshape), their matrix product over the 256 features, times the constant 1. -/
def scores (x0 : FVec F S2x3x256x64x64 .f32) (x1 : FVec F S2x256x64x64 .f32) : FVec F S2x12288x4096 .f32 :=
  mulf
    (Host.dotGeneral dot_S2x12288x256_S2x256x4096_S2x12288x4096_2_1_1_2_0_0 none
      (shapeCast _ (transpose S2x3x64x64x256 [0, 1, 3, 4, 2] x0 transposes_S2x3x256x64x64_S2x3x64x64x256_0_1_3_4_2)
        shapeCasts_S2x3x64x64x256_S2x12288x256)
      (shapeCast _ x1 shapeCasts_S2x256x64x64_S2x256x4096))
    (broadcastInDim S2x12288x4096 ![] bcast_S_S2x12288x4096 (constant S_ .f32 0x3F800000#32))

/-- %6 … %8: for each query the maximum of its scores over the keys, folded from -∞, and once more
    the maximum with -∞. -/
def rowMax (x0 : FVec F S2x3x256x64x64 .f32) (x1 : FVec F S2x256x64x64 .f32) : FVec F S2x4096 .f32 :=
  maximumf (broadcastInDim S2x4096 ![] bcast_S_S2x4096 (constant S_ .f32 0xFF800000#32))
    (Host.reduce FloatOps.maximumf (scores x0 x1) (constant S_ .f32 0xFF800000#32) reducesTo_S2x12288x4096_S2x4096_d1 h_S_)

/-- %9 … %12: the exponential of each score less its query's maximum. -/
def weights (x0 : FVec F S2x3x256x64x64 .f32) (x1 : FVec F S2x256x64x64 .f32) : FVec F S2x12288x4096 .f32 :=
  Host.exp (subf (scores x0 x1)
    (broadcastInDim S2x12288x4096 ![0, 1, 2] bcast_S2x1x4096_S2x12288x4096_0_1_2
      (broadcastInDim S2x1x4096 ![0, 2] bcast_S2x4096_S2x1x4096_0_2 (rowMax x0 x1))))

/-- %13: for each query the sum of its weights over the keys, from 0. -/
def rowSum (x0 : FVec F S2x3x256x64x64 .f32) (x1 : FVec F S2x256x64x64 .f32) : FVec F S2x4096 .f32 :=
  Host.reduceAdd (weights x0 x1) (constant S_ .f32 0x00000000#32) reducesTo_S2x12288x4096_S2x4096_d1 h_S_

/-- %14 … %16: each weight over its query's sum — the softmax over the keys. -/
def probs (x0 : FVec F S2x3x256x64x64 .f32) (x1 : FVec F S2x256x64x64 .f32) : FVec F S2x12288x4096 .f32 :=
  Host.divf (weights x0 x1)
    (broadcastInDim S2x12288x4096 ![0, 1, 2] bcast_S2x1x4096_S2x12288x4096_0_1_2
      (broadcastInDim S2x1x4096 ![0, 2] bcast_S2x4096_S2x1x4096_0_2 (rowSum x0 x1)))

/-- %17, %18: the keys' labels laid out one class per row, one key per column (transpose, reshape). -/
def labels (x2 : FVec F S2x3x16x64x64 .f32) : FVec F S2x16x12288 .f32 :=
  shapeCast _ (transpose S2x16x3x64x64 [0, 2, 1, 3, 4] x2 transposes_S2x3x16x64x64_S2x16x3x64x64_0_2_1_3_4)
    shapeCasts_S2x16x3x64x64_S2x16x12288

/-- %19, %20 — the value of %20: the labels times the softmax, a matrix product over the 12288 keys,
    reshaped to the 64 × 64 grid of queries. -/
def pred (x0 : FVec F S2x3x256x64x64 .f32) (x1 : FVec F S2x256x64x64 .f32) (x2 : FVec F S2x3x16x64x64 .f32) :
    FVec F S2x16x64x64 .f32 :=
  shapeCast _ (Host.dotGeneral dot_S2x16x12288_S2x12288x4096_S2x16x4096_2_1_1_2_0_0 none (labels x2) (probs x0 x1))
    shapeCasts_S2x16x4096_S2x16x64x64

/-! ## The tail -/

/-- What the called function computes of the integer argument alone, the index array it gathers with
    (its %5): the label as given where it is not negative, plus 16 where it is, on the shape [2,1,64,64,1]. -/
def pickIdx (x3 : IVec S2x64x64 32) : IVec S2x1x64x64x1 32 :=
  shapeCast _
    (select
      (cmpi .slt (broadcastInDim S2x1x64x64 ![0, 2, 3] bcast_S2x64x64_S2x1x64x64_0_2_3 x3)
        (broadcastInDim S2x1x64x64 ![] bcast_S_S2x1x64x64 (constantI S_ 32 0#32)))
      (addi (broadcastInDim S2x1x64x64 ![0, 2, 3] bcast_S2x64x64_S2x1x64x64_0_2_3 x3)
        (broadcastInDim S2x1x64x64 ![] bcast_S_S2x1x64x64 (constantI S_ 32 16#32)))
      (broadcastInDim S2x1x64x64 ![0, 2, 3] bcast_S2x64x64_S2x1x64x64_0_2_3 x3))
    shapeCasts_S2x1x64x64_S2x1x64x64x1

/-- %21 … %29 as one function of %20 and the integer argument: add the constant 0x283424DC (1e-14),
    logarithm, the call (gather the class the index names where 0 ≤ index ≤ 15, a NaN elsewhere), reshape,
    negate, sum over all 8192 positions from 0, divide by 8192. -/
def tail (P : FVec F S2x16x64x64 .f32) (x3 : IVec S2x64x64 32) : FVec F S_ .f32 :=
  Host.divf
    (Host.reduceAdd
      (Host.negf
        (shapeCast _
          (select
            (Host.reduce IntOp.andi
              (andi
                (cmpi .sge (pickIdx x3) (broadcastInDim S2x1x64x64x1 ![] bcast_S_S2x1x64x64x1 (constantI S_ 32 0#32)))
                (cmpi .sle (pickIdx x3)
                  (broadcastInDim S2x1x64x64x1 ![0, 1, 2, 3, 4] bcast_S1x1x1x1x1_S2x1x64x64x1_0_1_2_3_4
                    (broadcastInDim S1x1x1x1x1 ![4] bcast_S1_S1x1x1x1x1_4 (constantI S1 32 15#32)))))
              (constantI S_ 1 1#1) reducesTo_S2x1x64x64x1_S2x1x64x64_d4 h_S_)
            (Host.gather gather_S2x16x64x64_S2x1x64x64x1_S2x1x64x64_n_1_023_023_1_4_1111
              (Host.log (addf P (broadcastInDim S2x16x64x64 ![] bcast_S_S2x16x64x64 (constant S_ .f32 0x283424DC#32))))
              (pickIdx x3))
            (broadcastInDim S2x1x64x64 ![] bcast_S_S2x1x64x64 (constant S_ .f32 0x7FC00000#32)))
          shapeCasts_S2x1x64x64_S2x64x64))
      (constant S_ .f32 0x00000000#32) reducesTo_S2x64x64_S_d0_1_2 h_S_)
    (constant S_ .f32 0x46000000#32)

/-! ## The program as a list of operations -/

/-- @main's 58 operations in program order, the called function's 22 in its call's place over the
    call's own buffers. -/
abbrev ops : List (HloOp τ sig (Elt F)) :=
  [ -- %0 … %5: the scores
    unary main_arg0 main_v0 ((transpose S2x3x64x64x256 [0, 1, 3, 4, 2] · transposes_S2x3x256x64x64_S2x3x64x64x256_0_1_3_4_2) : (⟨S2x3x256x64x64, .f32⟩ : BufTy).Contents (Elt F) → (⟨S2x3x64x64x256, .f32⟩ : BufTy).Contents (Elt F)),
    reshape main_v0 main_v1 rfl shapeCasts_S2x3x64x64x256_S2x12288x256,
    reshape main_arg1 main_v2 rfl shapeCasts_S2x256x64x64_S2x256x4096,
    binary main_v1 main_v2 main_v3 ((fun l r => Host.dotGeneral dot_S2x12288x256_S2x256x4096_S2x12288x4096_2_1_1_2_0_0 none l r) : (⟨S2x12288x256, .f32⟩ : BufTy).Contents (Elt F) → (⟨S2x256x4096, .f32⟩ : BufTy).Contents (Elt F) → (⟨S2x12288x4096, .f32⟩ : BufTy).Contents (Elt F)),
    nullary main_cst (constant S_ .f32 0x3F800000#32),
    unary main_cst main_v4 (broadcastInDim S2x12288x4096 ![] bcast_S_S2x12288x4096 : (⟨S_, .f32⟩ : BufTy).Contents (Elt F) → (⟨S2x12288x4096, .f32⟩ : BufTy).Contents (Elt F)),
    binary main_v3 main_v4 main_v5 (mulf : (⟨S2x12288x4096, .f32⟩ : BufTy).Contents (Elt F) → (⟨S2x12288x4096, .f32⟩ : BufTy).Contents (Elt F) → (⟨S2x12288x4096, .f32⟩ : BufTy).Contents (Elt F)),
    -- %6 … %8: the row maximum
    nullary main_cst_0 (constant S_ .f32 0xFF800000#32),
    binary main_v5 main_cst_0 main_v6 ((fun x v => Host.reduce FloatOps.maximumf x v reducesTo_S2x12288x4096_S2x4096_d1 h_S_) : (⟨S2x12288x4096, .f32⟩ : BufTy).Contents (Elt F) → (⟨S_, .f32⟩ : BufTy).Contents (Elt F) → (⟨S2x4096, .f32⟩ : BufTy).Contents (Elt F)),
    nullary main_cst_1 (constant S_ .f32 0xFF800000#32),
    unary main_cst_1 main_v7 (broadcastInDim S2x4096 ![] bcast_S_S2x4096 : (⟨S_, .f32⟩ : BufTy).Contents (Elt F) → (⟨S2x4096, .f32⟩ : BufTy).Contents (Elt F)),
    binary main_v7 main_v6 main_v8 (maximumf : (⟨S2x4096, .f32⟩ : BufTy).Contents (Elt F) → (⟨S2x4096, .f32⟩ : BufTy).Contents (Elt F) → (⟨S2x4096, .f32⟩ : BufTy).Contents (Elt F)),
    -- %9 … %12: the weights
    unary main_v8 main_v9 (broadcastInDim S2x1x4096 ![0, 2] bcast_S2x4096_S2x1x4096_0_2 : (⟨S2x4096, .f32⟩ : BufTy).Contents (Elt F) → (⟨S2x1x4096, .f32⟩ : BufTy).Contents (Elt F)),
    unary main_v9 main_v10 (broadcastInDim S2x12288x4096 ![0, 1, 2] bcast_S2x1x4096_S2x12288x4096_0_1_2 : (⟨S2x1x4096, .f32⟩ : BufTy).Contents (Elt F) → (⟨S2x12288x4096, .f32⟩ : BufTy).Contents (Elt F)),
    binary main_v5 main_v10 main_v11 (subf : (⟨S2x12288x4096, .f32⟩ : BufTy).Contents (Elt F) → (⟨S2x12288x4096, .f32⟩ : BufTy).Contents (Elt F) → (⟨S2x12288x4096, .f32⟩ : BufTy).Contents (Elt F)),
    unary main_v11 main_v12 (Host.exp : (⟨S2x12288x4096, .f32⟩ : BufTy).Contents (Elt F) → (⟨S2x12288x4096, .f32⟩ : BufTy).Contents (Elt F)),
    -- %13: the row sum
    nullary main_cst_2 (constant S_ .f32 0x00000000#32),
    binary main_v12 main_cst_2 main_v13 ((fun x v => Host.reduceAdd x v reducesTo_S2x12288x4096_S2x4096_d1 h_S_) : (⟨S2x12288x4096, .f32⟩ : BufTy).Contents (Elt F) → (⟨S_, .f32⟩ : BufTy).Contents (Elt F) → (⟨S2x4096, .f32⟩ : BufTy).Contents (Elt F)),
    -- %14 … %16: the softmax
    unary main_v13 main_v14 (broadcastInDim S2x1x4096 ![0, 2] bcast_S2x4096_S2x1x4096_0_2 : (⟨S2x4096, .f32⟩ : BufTy).Contents (Elt F) → (⟨S2x1x4096, .f32⟩ : BufTy).Contents (Elt F)),
    unary main_v14 main_v15 (broadcastInDim S2x12288x4096 ![0, 1, 2] bcast_S2x1x4096_S2x12288x4096_0_1_2 : (⟨S2x1x4096, .f32⟩ : BufTy).Contents (Elt F) → (⟨S2x12288x4096, .f32⟩ : BufTy).Contents (Elt F)),
    binary main_v12 main_v15 main_v16 (Host.divf : (⟨S2x12288x4096, .f32⟩ : BufTy).Contents (Elt F) → (⟨S2x12288x4096, .f32⟩ : BufTy).Contents (Elt F) → (⟨S2x12288x4096, .f32⟩ : BufTy).Contents (Elt F)),
    -- %17 … %20: the labels, their weighted average, on the grid
    unary main_arg2 main_v17 ((transpose S2x16x3x64x64 [0, 2, 1, 3, 4] · transposes_S2x3x16x64x64_S2x16x3x64x64_0_2_1_3_4) : (⟨S2x3x16x64x64, .f32⟩ : BufTy).Contents (Elt F) → (⟨S2x16x3x64x64, .f32⟩ : BufTy).Contents (Elt F)),
    reshape main_v17 main_v18 rfl shapeCasts_S2x16x3x64x64_S2x16x12288,
    binary main_v18 main_v16 main_v19 ((fun l r => Host.dotGeneral dot_S2x16x12288_S2x12288x4096_S2x16x4096_2_1_1_2_0_0 none l r) : (⟨S2x16x12288, .f32⟩ : BufTy).Contents (Elt F) → (⟨S2x12288x4096, .f32⟩ : BufTy).Contents (Elt F) → (⟨S2x16x4096, .f32⟩ : BufTy).Contents (Elt F)),
    reshape main_v19 main_v20 rfl shapeCasts_S2x16x4096_S2x16x64x64,
    -- %21 … %24: add 1e-14, logarithm; the integer argument on [2,1,64,64]
    nullary main_cst_3 (constant S_ .f32 0x283424DC#32),
    unary main_cst_3 main_v21 (broadcastInDim S2x16x64x64 ![] bcast_S_S2x16x64x64 : (⟨S_, .f32⟩ : BufTy).Contents (Elt F) → (⟨S2x16x64x64, .f32⟩ : BufTy).Contents (Elt F)),
    binary main_v20 main_v21 main_v22 (addf : (⟨S2x16x64x64, .f32⟩ : BufTy).Contents (Elt F) → (⟨S2x16x64x64, .f32⟩ : BufTy).Contents (Elt F) → (⟨S2x16x64x64, .f32⟩ : BufTy).Contents (Elt F)),
    unary main_v22 main_v23 (Host.log : (⟨S2x16x64x64, .f32⟩ : BufTy).Contents (Elt F) → (⟨S2x16x64x64, .f32⟩ : BufTy).Contents (Elt F)),
    unary main_arg3 main_v24 (broadcastInDim S2x1x64x64 ![0, 2, 3] bcast_S2x64x64_S2x1x64x64_0_2_3 : (⟨S2x64x64, .i32⟩ : BufTy).Contents (Elt F) → (⟨S2x1x64x64, .i32⟩ : BufTy).Contents (Elt F)),
    -- %25: the call, its 22 operations
    TRef.nullary (TRef.of (T := ⟨S_, .i32⟩) main_call0_c) (constantI S_ 32 0#32),
    TRef.unary (TRef.of (T := ⟨S_, .i32⟩) main_call0_c) (TRef.of (T := ⟨S2x1x64x64, .i32⟩) main_call0_v0) (broadcastInDim S2x1x64x64 ![] bcast_S_S2x1x64x64),
    TRef.binary (TRef.of (T := ⟨S2x1x64x64, .i32⟩) main_v24) (TRef.of (T := ⟨S2x1x64x64, .i32⟩) main_call0_v0) (TRef.of (T := ⟨S2x1x64x64, .i1⟩) main_call0_v1) (cmpi .slt),
    TRef.nullary (TRef.of (T := ⟨S_, .i32⟩) main_call0_c_0) (constantI S_ 32 16#32),
    TRef.unary (TRef.of (T := ⟨S_, .i32⟩) main_call0_c_0) (TRef.of (T := ⟨S2x1x64x64, .i32⟩) main_call0_v2) (broadcastInDim S2x1x64x64 ![] bcast_S_S2x1x64x64),
    TRef.binary (TRef.of (T := ⟨S2x1x64x64, .i32⟩) main_v24) (TRef.of (T := ⟨S2x1x64x64, .i32⟩) main_call0_v2) (TRef.of (T := ⟨S2x1x64x64, .i32⟩) main_call0_v3) addi,
    TRef.ternary (TRef.of (T := ⟨S2x1x64x64, .i1⟩) main_call0_v1) (TRef.of (T := ⟨S2x1x64x64, .i32⟩) main_call0_v3) (TRef.of (T := ⟨S2x1x64x64, .i32⟩) main_v24) (TRef.of (T := ⟨S2x1x64x64, .i32⟩) main_call0_v4) select,
    TRef.reshape (TRef.of (T := ⟨S2x1x64x64, .i32⟩) main_call0_v4) (TRef.of (T := ⟨S2x1x64x64x1, .i32⟩) main_call0_v5) rfl shapeCasts_S2x1x64x64_S2x1x64x64x1,
    TRef.nullary (TRef.of (T := ⟨S1, .i32⟩) main_call0_c_1) (constantI S1 32 15#32),
    TRef.nullary (TRef.of (T := ⟨S_, .i32⟩) main_call0_c_2) (constantI S_ 32 0#32),
    TRef.unary (TRef.of (T := ⟨S_, .i32⟩) main_call0_c_2) (TRef.of (T := ⟨S2x1x64x64x1, .i32⟩) main_call0_v6) (broadcastInDim S2x1x64x64x1 ![] bcast_S_S2x1x64x64x1),
    TRef.binary (TRef.of (T := ⟨S2x1x64x64x1, .i32⟩) main_call0_v5) (TRef.of (T := ⟨S2x1x64x64x1, .i32⟩) main_call0_v6) (TRef.of (T := ⟨S2x1x64x64x1, .i1⟩) main_call0_v7) (cmpi .sge),
    TRef.unary (TRef.of (T := ⟨S1, .i32⟩) main_call0_c_1) (TRef.of (T := ⟨S1x1x1x1x1, .i32⟩) main_call0_v8) (broadcastInDim S1x1x1x1x1 ![4] bcast_S1_S1x1x1x1x1_4),
    TRef.unary (TRef.of (T := ⟨S1x1x1x1x1, .i32⟩) main_call0_v8) (TRef.of (T := ⟨S2x1x64x64x1, .i32⟩) main_call0_v9) (broadcastInDim S2x1x64x64x1 ![0, 1, 2, 3, 4] bcast_S1x1x1x1x1_S2x1x64x64x1_0_1_2_3_4),
    TRef.binary (TRef.of (T := ⟨S2x1x64x64x1, .i32⟩) main_call0_v5) (TRef.of (T := ⟨S2x1x64x64x1, .i32⟩) main_call0_v9) (TRef.of (T := ⟨S2x1x64x64x1, .i1⟩) main_call0_v10) (cmpi .sle),
    TRef.binary (TRef.of (T := ⟨S2x1x64x64x1, .i1⟩) main_call0_v7) (TRef.of (T := ⟨S2x1x64x64x1, .i1⟩) main_call0_v10) (TRef.of (T := ⟨S2x1x64x64x1, .i1⟩) main_call0_v11) andi,
    TRef.nullary (TRef.of (T := ⟨S_, .i1⟩) main_call0_c_3) (constantI S_ 1 1#1),
    TRef.binary (TRef.of (T := ⟨S2x1x64x64x1, .i1⟩) main_call0_v11) (TRef.of (T := ⟨S_, .i1⟩) main_call0_c_3) (TRef.of (T := ⟨S2x1x64x64, .i1⟩) main_call0_v12) (fun x v => Host.reduce IntOp.andi x v reducesTo_S2x1x64x64x1_S2x1x64x64_d4 h_S_),
    TRef.binary (TRef.of (T := ⟨S2x16x64x64, .f32⟩) main_v23) (TRef.of (T := ⟨S2x1x64x64x1, .i32⟩) main_call0_v5) (TRef.of (T := ⟨S2x1x64x64, .f32⟩) main_call0_v13) (fun x i => Host.gather gather_S2x16x64x64_S2x1x64x64x1_S2x1x64x64_n_1_023_023_1_4_1111 x i),
    TRef.nullary (TRef.of (T := ⟨S_, .f32⟩) main_call0_cst) (constant S_ .f32 0x7FC00000#32),
    TRef.unary (TRef.of (T := ⟨S_, .f32⟩) main_call0_cst) (TRef.of (T := ⟨S2x1x64x64, .f32⟩) main_call0_v14) (broadcastInDim S2x1x64x64 ![] bcast_S_S2x1x64x64),
    TRef.ternary (TRef.of (T := ⟨S2x1x64x64, .i1⟩) main_call0_v12) (TRef.of (T := ⟨S2x1x64x64, .f32⟩) main_call0_v13) (TRef.of (T := ⟨S2x1x64x64, .f32⟩) main_call0_v14) (TRef.of (T := ⟨S2x1x64x64, .f32⟩) main_v25) select,
    -- %26 … %29: reshape, negate, mean
    reshape main_v25 main_v26 rfl shapeCasts_S2x1x64x64_S2x64x64,
    unary main_v26 main_v27 (Host.negf : (⟨S2x64x64, .f32⟩ : BufTy).Contents (Elt F) → (⟨S2x64x64, .f32⟩ : BufTy).Contents (Elt F)),
    nullary main_cst_4 (constant S_ .f32 0x00000000#32),
    binary main_v27 main_cst_4 main_v28 ((fun x v => Host.reduceAdd x v reducesTo_S2x64x64_S_d0_1_2 h_S_) : (⟨S2x64x64, .f32⟩ : BufTy).Contents (Elt F) → (⟨S_, .f32⟩ : BufTy).Contents (Elt F) → (⟨S_, .f32⟩ : BufTy).Contents (Elt F)),
    nullary main_cst_5 (constant S_ .f32 0x46000000#32),
    binary main_v28 main_cst_5 main_v29 (Host.divf : (⟨S_, .f32⟩ : BufTy).Contents (Elt F) → (⟨S_, .f32⟩ : BufTy).Contents (Elt F) → (⟨S_, .f32⟩ : BufTy).Contents (Elt F)) ]

set_option maxRecDepth 65536 in
/-- @main is the straight line of these operations: each printed line is one step, and the call unfolds
    to its body's lines. -/
theorem main_eq (c : Dev nD) : main (F := F) c = seq ops := rfl

/-- The signature scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

set_option maxRecDepth 65536 in
/-- Every operation touches TensorCore references only. -/
theorem ops_sub : (ops : List (HloOp τ sig (Elt F))).Forall fun op => op.bufs ⊆ tcRefs τ sig :=
  ⟨unary_bufs_sub .., reshape_bufs_sub .., reshape_bufs_sub .., binary_bufs_sub .., nullary_bufs_sub .., unary_bufs_sub .., binary_bufs_sub ..,
   nullary_bufs_sub .., binary_bufs_sub .., nullary_bufs_sub .., unary_bufs_sub .., binary_bufs_sub ..,
   unary_bufs_sub .., unary_bufs_sub .., binary_bufs_sub .., unary_bufs_sub ..,
   nullary_bufs_sub .., binary_bufs_sub ..,
   unary_bufs_sub .., unary_bufs_sub .., binary_bufs_sub ..,
   unary_bufs_sub .., reshape_bufs_sub .., binary_bufs_sub .., reshape_bufs_sub ..,
   nullary_bufs_sub .., unary_bufs_sub .., binary_bufs_sub .., unary_bufs_sub .., unary_bufs_sub ..,
   nullary_bufs_sub .., unary_bufs_sub .., binary_bufs_sub .., nullary_bufs_sub .., unary_bufs_sub .., binary_bufs_sub .., ternary_bufs_sub ..,
   reshape_bufs_sub .., nullary_bufs_sub .., nullary_bufs_sub .., unary_bufs_sub .., binary_bufs_sub .., unary_bufs_sub .., unary_bufs_sub ..,
   binary_bufs_sub .., binary_bufs_sub .., nullary_bufs_sub .., binary_bufs_sub .., binary_bufs_sub .., nullary_bufs_sub .., unary_bufs_sub ..,
   ternary_bufs_sub ..,
   reshape_bufs_sub .., unary_bufs_sub .., nullary_bufs_sub .., binary_bufs_sub .., nullary_bufs_sub .., binary_bufs_sub ..⟩

/-! ## The run -/

set_option maxRecDepth 65536 in
set_option maxHeartbeats 4000000 in
/-- On every device, for any float values, from any memory with zero counters: every weakly fair execution
    of @main terminates with the result buffer at tail of pred of the arguments' launch contents, and the
    four arguments unchanged. The fold of the 58 operations over the launch memory is read back at the result
    buffer (each operation's result at its own buffer, any other buffer untouched); what is read is the
    operations composed, which is tail ∘ pred by unfolding the definitions above. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = tail (pred (m ((c.tc : Thread nD τ).loc main_arg0)) (m ((c.tc : Thread nD τ).loc main_arg1))
                    (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v29).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.RefRun

end
-- ==== Proof.RefValue.lean ====
/-
  The reference program's value before the tail, read at an index: it is the softmax-weighted average of
  the specification.

  The program computes, for image b, query t and class d,
      ∑ n, label n · ( exp (score n − μ) / ∑ n', exp (score n' − μ) )
  where score n is the inner product of key n's and query t's 256 features, μ is the maximum of the
  scores over the 12288 keys, and the sums run over the keys. Every entry of the three arrays being a real
  number, every intermediate value is a real number too, so the extended reals' operations are the reals'
  and the sum is  wacc / wsum  at level μ — which does not depend on the level. The only thing used of
  the maximum is that it is SOME real number.

  The stages follow the program: the two layouts (a transpose and a reshape read an array at a computed
  position), the first matrix product (the scores), the row maximum, the exponentials and their row sum,
  the quotient, the second matrix product, the final reshape.
-/
import proofs.«165208_j19602230739911_2_alg».proof.Proof.RefRun
import proofs.«165208_j19602230739911_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.RefValue

open Cert.ReferenceIdeal Cert.ReferenceIdeal.Gen Idealize.ShloMosaic Idealize.ShloMosaic.ValueIdx
  Cert.OnlineSoftmax Cert.Spec Cert.RefRun

/-- The first matrix product's dimension numbers: batch axis 0, the keys' feature axis 2 against the
    queries' feature axis 1. -/
abbrev D1 := dot_S2x12288x256_S2x256x4096_S2x12288x4096_2_1_1_2_0_0
/-- The second's: batch axis 0, the labels' key axis 2 against the softmax's key axis 1. -/
abbrev D2 := dot_S2x16x12288_S2x12288x4096_S2x16x4096_2_1_1_2_0_0

/-! ## Constants -/

/-- The pattern 0x3F800000 is the number 1. -/
theorem one_f32 : Ideal.ofBits .f32 0x3F800000#32 = 1 := IdealRules.sign_bit.ideal_onePat .f32

/-- The pattern 0xFF800000 is -∞. -/
theorem negInf_f32 : Ideal.ofBits .f32 0xFF800000#32 = ⊥ := by simp [Ideal.ofBits, Ideal.ieee]

/-! ## The layouts -/

/-- Row n of the keys' matrix is key n: with n = 4096 · frame + 64 · row + column, the reshape reads the
    transposed array at (b, frame, row, column, f) — both positions are ((b · 12288) + n) · 256 + f in
    row-major order — and the transpose reads the argument at (b, frame, f, row, column). -/
theorem keyRows_apply {α : Type} (x : S2x3x256x64x64.Idx → α) (b : Fin 2) (n : Fin 12288) (f : Fin 256) :
    shapeCast S2x12288x256 (transpose S2x3x64x64x256 [0, 1, 3, 4, 2] x transposes_S2x3x256x64x64_S2x3x64x64x256_0_1_3_4_2)
        shapeCasts_S2x3x64x64x256_S2x12288x256 (ix3 b n f)
      = x (keyIdx b f n.val) := by
  have hb := b.isLt
  have hn := n.isLt
  have hf := f.isLt
  refine (shapeCast_apply _ shapeCasts_S2x3x64x64x256_S2x12288x256 (ix3 b n f)
    (ix5 b (⟨n.val / 4096 % 3, Nat.mod_lt _ (by decide)⟩ : Fin 3) (⟨n.val / 64 % 64, Nat.mod_lt _ (by decide)⟩ : Fin 64)
      (⟨n.val % 64, Nat.mod_lt _ (by decide)⟩ : Fin 64) f) ?_).trans ?_
  · rewrite [Shape.rowMajor_val_five, Shape.rowMajor_val_three]
    show (((b.val * 3 + n.val / 4096 % 3) * 64 + n.val / 64 % 64) * 64 + n.val % 64) * 256 + f.val
      = (b.val * 12288 + n.val) * 256 + f.val
    omega
  · exact transpose_apply [0, 1, 3, 4, 2] x transposes_S2x3x256x64x64_S2x3x64x64x256_0_1_3_4_2 _ (keyIdx b f n.val)
      (fun a => match a with
        | ⟨0, _⟩ => rfl | ⟨1, _⟩ => rfl | ⟨2, _⟩ => rfl | ⟨3, _⟩ => rfl | ⟨4, _⟩ => rfl)

/-- Column t of the queries' matrix is query t = 64 · row + column: the reshape reads the argument at
    (b, f, row, column). -/
theorem queryCols_apply {α : Type} (x : S2x256x64x64.Idx → α) (b : Fin 2) (f : Fin 256) (t : Fin 4096) :
    shapeCast S2x256x4096 x shapeCasts_S2x256x64x64_S2x256x4096 (ix3 b f t) = x (qryIdx b f t.val) := by
  have hb := b.isLt
  have ht := t.isLt
  have hf := f.isLt
  refine shapeCast_apply x shapeCasts_S2x256x64x64_S2x256x4096 (ix3 b f t) (qryIdx b f t.val) ?_
  rewrite [Shape.rowMajor_val_four, Shape.rowMajor_val_three]
  show ((b.val * 256 + f.val) * 64 + t.val / 64 % 64) * 64 + t.val % 64 = (b.val * 256 + f.val) * 4096 + t.val
  omega

/-- Row d of the labels' matrix holds class d of every key: the reshape reads the transposed array at
    (b, d, frame, row, column), the transpose reads the argument at (b, frame, d, row, column). -/
theorem labels_apply {F : FTy → Type} [FloatOps F] (x : FVec F S2x3x16x64x64 .f32) (b : Fin 2) (d : Fin 16) (n : Fin 12288) :
    labels x (ix3 b d n) = x (keyIdx b d n.val) := by
  have hb := b.isLt
  have hn := n.isLt
  have hd := d.isLt
  unfold labels
  refine (shapeCast_apply _ shapeCasts_S2x16x3x64x64_S2x16x12288 (ix3 b d n)
    (ix5 b d (⟨n.val / 4096 % 3, Nat.mod_lt _ (by decide)⟩ : Fin 3) (⟨n.val / 64 % 64, Nat.mod_lt _ (by decide)⟩ : Fin 64)
      (⟨n.val % 64, Nat.mod_lt _ (by decide)⟩ : Fin 64)) ?_).trans ?_
  · rewrite [Shape.rowMajor_val_five, Shape.rowMajor_val_three]
    show (((b.val * 16 + d.val) * 3 + n.val / 4096 % 3) * 64 + n.val / 64 % 64) * 64 + n.val % 64
      = (b.val * 16 + d.val) * 12288 + n.val
    omega
  · exact transpose_apply [0, 2, 1, 3, 4] x transposes_S2x3x16x64x64_S2x16x3x64x64_0_2_1_3_4 _ (keyIdx b d n.val)
      (fun a => match a with
        | ⟨0, _⟩ => rfl | ⟨1, _⟩ => rfl | ⟨2, _⟩ => rfl | ⟨3, _⟩ => rfl | ⟨4, _⟩ => rfl)

/-- A value per (image, query) spread over the keys (two broadcasts: a unit axis inserted, then stretched)
    reads, at any key, the value of its image and query. -/
theorem bcastRow_apply {α : Type} (y : S2x4096.Idx → α) (b : Fin 2) (n : Fin 12288) (t : Fin 4096) :
    broadcastInDim S2x12288x4096 ![0, 1, 2] bcast_S2x1x4096_S2x12288x4096_0_1_2
        (broadcastInDim S2x1x4096 ![0, 2] bcast_S2x4096_S2x1x4096_0_2 y) (ix3 b n t)
      = y (ix2 b t) := by
  refine (broadcastInDim_apply _ bcast_S2x1x4096_S2x12288x4096_0_1_2 _ (ix3 b n t) (ix3 b (0 : Fin 1) t)
    (fun a => match a with
      | ⟨0, _⟩ => by show b.val = if (2 : Nat) = 1 then 0 else b.val; rw [if_neg (by decide)]
      | ⟨1, _⟩ => by show 0 = if (1 : Nat) = 1 then 0 else n.val; rw [if_pos rfl]
      | ⟨2, _⟩ => by show t.val = if (4096 : Nat) = 1 then 0 else t.val; rw [if_neg (by decide)])).trans ?_
  exact broadcastInDim_apply _ bcast_S2x4096_S2x1x4096_0_2 y (ix3 b (0 : Fin 1) t) (ix2 b t)
    (fun a => match a with
      | ⟨0, _⟩ => by show b.val = if (2 : Nat) = 1 then 0 else b.val; rw [if_neg (by decide)]
      | ⟨1, _⟩ => by show t.val = if (4096 : Nat) = 1 then 0 else t.val; rw [if_neg (by decide)])

/-! ## The two matrix products at an index -/

/-- The operand positions of the first product, coordinate by coordinate: at result position (b, n, t) and
    contraction coordinate k the left operand is read at (b, n, k), the right at (b, k, t). The batch axis
    and the free axis come from the result's position, the contracted axis from the contraction index. -/
theorem lhs1_0 (i : S2x12288x4096.Idx) (q : D1.contr.Idx) : (D1.lhsIdx i q 0).val = (i 0).val := by
  unfold DotDims.lhsIdx
  rw [dif_pos (show (0 : Fin S2x12288x256.rank) ∈ D1.lhsBatch by decide)]
  rfl
theorem lhs1_1 (i : S2x12288x4096.Idx) (q : D1.contr.Idx) : (D1.lhsIdx i q 1).val = (i 1).val := by
  unfold DotDims.lhsIdx
  rw [dif_neg (show ¬(1 : Fin S2x12288x256.rank) ∈ D1.lhsBatch by decide),
    dif_pos (show (1 : Fin S2x12288x256.rank) ∈ D1.lhsNonContracting by decide)]
  rfl
theorem lhs1_2 (i : S2x12288x4096.Idx) (q : D1.contr.Idx) : (D1.lhsIdx i q 2).val = (q ⟨0, by decide⟩).val :=
  D1.lhsIdx_val_of_single rfl i q
theorem rhs1_0 (i : S2x12288x4096.Idx) (q : D1.contr.Idx) : (D1.rhsIdx i q 0).val = (i 0).val := by
  unfold DotDims.rhsIdx
  rw [dif_pos (show (0 : Fin S2x256x4096.rank) ∈ D1.rhsBatch by decide)]
  rfl
theorem rhs1_1 (i : S2x12288x4096.Idx) (q : D1.contr.Idx) : (D1.rhsIdx i q 1).val = (q ⟨0, by decide⟩).val :=
  D1.rhsIdx_val_of_single rfl i q
theorem rhs1_2 (i : S2x12288x4096.Idx) (q : D1.contr.Idx) : (D1.rhsIdx i q 2).val = (i 2).val := by
  unfold DotDims.rhsIdx
  rw [dif_neg (show ¬(2 : Fin S2x256x4096.rank) ∈ D1.rhsBatch by decide),
    dif_pos (show (2 : Fin S2x256x4096.rank) ∈ D1.rhsNonContracting by decide)]
  rfl

/-- The first product at (b, n, t): the sum over the 256 features of row n of the left operand times
    column t of the right. The contraction has one axis, so its index is that axis's coordinate, and the
    sum over contraction indices is re-indexed as the sum over f : Fin 256. -/
theorem dot1_apply (L : FVec Ideal S2x12288x256 .f32) (R : FVec Ideal S2x256x4096 .f32) (b : Fin 2) (n : Fin 12288) (t : Fin 4096) :
    Host.dotGeneral (F := Ideal) D1 none L R (ix3 b n t) = ∑ f : Fin 256, L (ix3 b n f) * R (ix3 b f t) := by
  simp only [Host.dotGeneral]
  rw [Ideal.dotGeneral_apply, ← Equiv.sum_comp (contrEquiv1 D1 256 rfl rfl).symm]
  refine Finset.sum_congr rfl fun f _ => ?_
  have hk := contrEquiv1_symm_val D1 256 rfl rfl f
  have el : D1.lhsIdx (ix3 b n t) ((contrEquiv1 D1 256 rfl rfl).symm f) = ix3 b n f := funext fun a => Fin.ext (by
    match a with
    | ⟨0, _⟩ => exact lhs1_0 _ _
    | ⟨1, _⟩ => exact lhs1_1 _ _
    | ⟨2, _⟩ => exact (lhs1_2 _ _).trans hk)
  have er : D1.rhsIdx (ix3 b n t) ((contrEquiv1 D1 256 rfl rfl).symm f) = ix3 b f t := funext fun a => Fin.ext (by
    match a with
    | ⟨0, _⟩ => exact rhs1_0 _ _
    | ⟨1, _⟩ => exact (rhs1_1 _ _).trans hk
    | ⟨2, _⟩ => exact rhs1_2 _ _)
  rw [el, er]

/-- The same for the second product: at (b, d, t) and contraction coordinate k the labels are read at
    (b, d, k), the softmax at (b, k, t). -/
theorem lhs2_0 (i : S2x16x4096.Idx) (q : D2.contr.Idx) : (D2.lhsIdx i q 0).val = (i 0).val := by
  unfold DotDims.lhsIdx
  rw [dif_pos (show (0 : Fin S2x16x12288.rank) ∈ D2.lhsBatch by decide)]
  rfl
theorem lhs2_1 (i : S2x16x4096.Idx) (q : D2.contr.Idx) : (D2.lhsIdx i q 1).val = (i 1).val := by
  unfold DotDims.lhsIdx
  rw [dif_neg (show ¬(1 : Fin S2x16x12288.rank) ∈ D2.lhsBatch by decide),
    dif_pos (show (1 : Fin S2x16x12288.rank) ∈ D2.lhsNonContracting by decide)]
  rfl
theorem lhs2_2 (i : S2x16x4096.Idx) (q : D2.contr.Idx) : (D2.lhsIdx i q 2).val = (q ⟨0, by decide⟩).val :=
  D2.lhsIdx_val_of_single rfl i q
theorem rhs2_0 (i : S2x16x4096.Idx) (q : D2.contr.Idx) : (D2.rhsIdx i q 0).val = (i 0).val := by
  unfold DotDims.rhsIdx
  rw [dif_pos (show (0 : Fin S2x12288x4096.rank) ∈ D2.rhsBatch by decide)]
  rfl
theorem rhs2_1 (i : S2x16x4096.Idx) (q : D2.contr.Idx) : (D2.rhsIdx i q 1).val = (q ⟨0, by decide⟩).val :=
  D2.rhsIdx_val_of_single rfl i q
theorem rhs2_2 (i : S2x16x4096.Idx) (q : D2.contr.Idx) : (D2.rhsIdx i q 2).val = (i 2).val := by
  unfold DotDims.rhsIdx
  rw [dif_neg (show ¬(2 : Fin S2x12288x4096.rank) ∈ D2.rhsBatch by decide),
    dif_pos (show (2 : Fin S2x12288x4096.rank) ∈ D2.rhsNonContracting by decide)]
  rfl

/-- The second product at (b, d, t): the sum over the 12288 keys of row d of the labels times column t of
    the softmax. -/
theorem dot2_apply (L : FVec Ideal S2x16x12288 .f32) (R : FVec Ideal S2x12288x4096 .f32) (b : Fin 2) (d : Fin 16) (t : Fin 4096) :
    Host.dotGeneral (F := Ideal) D2 none L R (ix3 b d t) = ∑ n : Fin 12288, L (ix3 b d n) * R (ix3 b n t) := by
  simp only [Host.dotGeneral]
  rw [Ideal.dotGeneral_apply, ← Equiv.sum_comp (contrEquiv1 D2 12288 rfl rfl).symm]
  refine Finset.sum_congr rfl fun n _ => ?_
  have hk := contrEquiv1_symm_val D2 12288 rfl rfl n
  have el : D2.lhsIdx (ix3 b d t) ((contrEquiv1 D2 12288 rfl rfl).symm n) = ix3 b d n := funext fun a => Fin.ext (by
    match a with
    | ⟨0, _⟩ => exact lhs2_0 _ _
    | ⟨1, _⟩ => exact lhs2_1 _ _
    | ⟨2, _⟩ => exact (lhs2_2 _ _).trans hk)
  have er : D2.rhsIdx (ix3 b d t) ((contrEquiv1 D2 12288 rfl rfl).symm n) = ix3 b n t := funext fun a => Fin.ext (by
    match a with
    | ⟨0, _⟩ => exact rhs2_0 _ _
    | ⟨1, _⟩ => exact (rhs2_1 _ _).trans hk
    | ⟨2, _⟩ => exact rhs2_2 _ _)
  rw [el, er]

/-! ## The scores -/

/-- The score of key n against query t is a real number, the specification's: each product of two real
    entries is the real product (the program multiplies key by query, the specification query by key), a
    finite sum of reals is the real sum, and the factor 1 changes nothing. -/
theorem scores_apply (x0 : FVec Ideal S2x3x256x64x64 .f32) (x1 : FVec Ideal S2x256x64x64 .f32)
    (h0 : AllReal x0) (h1 : AllReal x1) (b : Fin 2) (n : Fin 12288) (t : Fin 4096) :
    scores (F := Ideal) x0 x1 (ix3 b n t) = ((score x0 x1 b t.val n.val : ℝ) : EReal) := by
  have hterm : ∀ f : Fin 256, x0 (keyIdx b f n.val) * x1 (qryIdx b f t.val)
      = (((x1 (qryIdx b f t.val)).toReal * (x0 (keyIdx b f n.val)).toReal : ℝ) : EReal) := fun f => by
    rw [EReal.coe_mul, ← h0 _, ← h1 _, mul_comm]
  unfold scores
  refine (mulf_apply _ _ _).trans ?_
  have hone : broadcastInDim S2x12288x4096 ![] bcast_S_S2x12288x4096 (constant (F := Ideal) S_ .f32 0x3F800000#32) (ix3 b n t) = 1 :=
    one_f32
  rw [hone, mul_one]
  refine (dot1_apply _ _ b n t).trans ?_
  unfold score
  rw [← coe_sum]
  refine Finset.sum_congr rfl fun f _ => ?_
  rw [keyRows_apply, queryCols_apply]
  exact hterm f

/-! ## The row maximum -/

/-- The witness that the scores' array reduces along its key axis onto (image, query). -/
theorem reduces_keys : S2x12288x4096.Reduces [1] S2x4096 := by decide

/-- The position over (b, t) with key coordinate k inserted is (b, k, t). -/
theorem lift_keys (b : Fin 2) (t : Fin 4096) (k : Fin 12288) : reduces_keys.lift (ix2 b t) k = ix3 b k t :=
  funext fun a => Fin.ext (by match a with | ⟨0, _⟩ => rfl | ⟨1, _⟩ => rfl | ⟨2, _⟩ => rfl)

/-- The maximum the program subtracts is a real number. It is the maximum, started from -∞, of the 12288
    scores of the query, each a real number, and then once more the maximum with -∞; there is at least one
    key, so the result is neither -∞ nor +∞. WHICH real number it is plays no part below. -/
theorem rowMax_real (x0 : FVec Ideal S2x3x256x64x64 .f32) (x1 : FVec Ideal S2x256x64x64 .f32)
    (h0 : AllReal x0) (h1 : AllReal x1) (b : Fin 2) (t : Fin 4096) :
    ∃ μ : ℝ, rowMax (F := Ideal) x0 x1 (ix2 b t) = (μ : EReal) := by
  obtain ⟨β, hβ⟩ := fold_max_real (B := 12288) (by decide) (scores (F := Ideal) x0 x1 ∘ reduces_keys.lift (ix2 b t))
    (fun k => score x0 x1 b t.val k.val)
    (fun k => (congrArg (scores (F := Ideal) x0 x1) (lift_keys b t k)).trans (scores_apply x0 x1 h0 h1 b k t))
  have hred : Host.reduce (FloatOps.maximumf (F := Ideal) (φ := .f32)) (scores (F := Ideal) x0 x1)
      (constant (F := Ideal) S_ .f32 0xFF800000#32) reducesTo_S2x12288x4096_S2x4096_d1 h_S_ (ix2 b t) = (β : EReal) := by
    refine (Host.reduce_eq_fold_single _ _ _ reducesTo_S2x12288x4096_S2x4096_d1 reduces_keys h_S_ (ix2 b t)).trans ?_
    refine Eq.trans ?_ hβ
    show (Finset.univ : Finset (Fin 12288)).fold max (Ideal.ofBits .f32 0xFF800000#32)
      (scores (F := Ideal) x0 x1 ∘ reduces_keys.lift (ix2 b t)) = _
    rw [negInf_f32]
    rfl
  refine ⟨β, ?_⟩
  unfold rowMax
  refine (maximumf_apply _ _ _).trans ?_
  rw [hred]
  show max (Ideal.ofBits .f32 0xFF800000#32) (β : EReal) = _
  rw [negInf_f32]
  exact max_eq_right bot_le

/-! ## The softmax -/

/-- The weight of key n for query t, the level μ being the real number the row maximum is: the exponential
    of the real difference. -/
theorem weights_apply (x0 : FVec Ideal S2x3x256x64x64 .f32) (x1 : FVec Ideal S2x256x64x64 .f32)
    (h0 : AllReal x0) (h1 : AllReal x1) (b : Fin 2) (n : Fin 12288) (t : Fin 4096) (μ : ℝ)
    (hμ : rowMax (F := Ideal) x0 x1 (ix2 b t) = (μ : EReal)) :
    weights (F := Ideal) x0 x1 (ix3 b n t) = ((Real.exp (score x0 x1 b t.val n.val - μ) : ℝ) : EReal) := by
  unfold weights
  show Ideal.exp (scores (F := Ideal) x0 x1 (ix3 b n t) - broadcastInDim S2x12288x4096 ![0, 1, 2] bcast_S2x1x4096_S2x12288x4096_0_1_2
      (broadcastInDim S2x1x4096 ![0, 2] bcast_S2x4096_S2x1x4096_0_2 (rowMax (F := Ideal) x0 x1)) (ix3 b n t)) = _
  rw [bcastRow_apply, hμ, scores_apply x0 x1 h0 h1, ← EReal.coe_sub, Ideal.exp_coe]

/-- The sum of a query's weights over the keys, from 0: the real sum wsum at level μ over all 12288 keys. -/
theorem rowSum_apply (x0 : FVec Ideal S2x3x256x64x64 .f32) (x1 : FVec Ideal S2x256x64x64 .f32)
    (h0 : AllReal x0) (h1 : AllReal x1) (b : Fin 2) (t : Fin 4096) (μ : ℝ)
    (hμ : rowMax (F := Ideal) x0 x1 (ix2 b t) = (μ : EReal)) :
    rowSum (F := Ideal) x0 x1 (ix2 b t) = ((wsum (score x0 x1 b t.val) μ 12288 : ℝ) : EReal) := by
  unfold rowSum
  simp only [Host.reduceAdd, Ideal.hostReduceAdd_def]
  rw [Ideal.hostReduceAdd_single reducesTo_S2x12288x4096_S2x4096_d1 reduces_keys]
  show Ideal.ofBits .f32 0x00000000#32 + ∑ k : Fin 12288, weights (F := Ideal) x0 x1 (reduces_keys.lift (ix2 b t) k) = _
  rw [Ideal.ofBits_zero_f32, zero_add]
  have hk : ∀ k : Fin 12288, weights (F := Ideal) x0 x1 (reduces_keys.lift (ix2 b t) k)
      = ((Real.exp (score x0 x1 b t.val k.val - μ) : ℝ) : EReal) := fun k => by
    rw [lift_keys]; exact weights_apply x0 x1 h0 h1 b k t μ hμ
  rw [Finset.sum_congr rfl fun k _ => hk k, coe_sum]
  unfold wsum
  rw [Fin.sum_univ_eq_sum_range (fun k => Real.exp (score x0 x1 b t.val k - μ)) 12288]

/-- The softmax of key n for query t: the weight over the sum, a real quotient because the sum of
    positive weights is not zero. -/
theorem probs_apply (x0 : FVec Ideal S2x3x256x64x64 .f32) (x1 : FVec Ideal S2x256x64x64 .f32)
    (h0 : AllReal x0) (h1 : AllReal x1) (b : Fin 2) (n : Fin 12288) (t : Fin 4096) (μ : ℝ)
    (hμ : rowMax (F := Ideal) x0 x1 (ix2 b t) = (μ : EReal)) :
    probs (F := Ideal) x0 x1 (ix3 b n t)
      = ((Real.exp (score x0 x1 b t.val n.val - μ) / wsum (score x0 x1 b t.val) μ 12288 : ℝ) : EReal) := by
  unfold probs
  show Ideal.div (weights (F := Ideal) x0 x1 (ix3 b n t)) (broadcastInDim S2x12288x4096 ![0, 1, 2] bcast_S2x1x4096_S2x12288x4096_0_1_2
      (broadcastInDim S2x1x4096 ![0, 2] bcast_S2x4096_S2x1x4096_0_2 (rowSum (F := Ideal) x0 x1)) (ix3 b n t)) = _
  rw [bcastRow_apply, rowSum_apply x0 x1 h0 h1 b t μ hμ, weights_apply x0 x1 h0 h1 b n t μ hμ]
  exact div_real _ _ (wsum_pos _ _ (by decide)).ne'

/-! ## The weighted average -/

/-- The reference's value before the tail, at class d and grid position (r, w) of image b, is the
    specification's softmax-weighted average at query 64 r + w. The reshape reads the second matrix
    product at (b, d, 64 r + w); that product is ∑ n, label n · softmax n; the labels being real, each term
    is a real product, the sum is  wacc / wsum  at the row maximum's level, and the quotient is the same at
    level 0, where the specification states it. -/
theorem pred_eq (x0 : FVec Ideal S2x3x256x64x64 .f32) (x1 : FVec Ideal S2x256x64x64 .f32) (x2 : FVec Ideal S2x3x16x64x64 .f32)
    (h0 : AllReal x0) (h1 : AllReal x1) (h2 : AllReal x2) (b : Fin 2) (d : Fin 16) (r w : Fin 64) :
    pred (F := Ideal) x0 x1 x2 (ix4 b d r w) = ((attn x0 x1 x2 b (64 * r.val + w.val) d : ℝ) : EReal) := by
  have hb := b.isLt
  have hd := d.isLt
  have hr := r.isLt
  have hw := w.isLt
  -- the query
  have htlt : 64 * r.val + w.val < 4096 := by omega
  obtain ⟨μ, hμ⟩ := rowMax_real x0 x1 h0 h1 b ⟨64 * r.val + w.val, htlt⟩
  unfold pred
  -- the reshape: (b, d, r, w) of the grid is (b, d, 64 r + w) of the matrix
  refine (shapeCast_apply _ shapeCasts_S2x16x4096_S2x16x64x64 (ix4 b d r w) (ix3 b d (⟨64 * r.val + w.val, htlt⟩ : Fin 4096)) ?_).trans ?_
  · rewrite [Shape.rowMajor_val_three, Shape.rowMajor_val_four]
    show (b.val * 16 + d.val) * 4096 + (64 * r.val + w.val) = ((b.val * 16 + d.val) * 64 + r.val) * 64 + w.val
    omega
  -- the product over the keys, term by term a real product
  refine (dot2_apply _ _ b d ⟨64 * r.val + w.val, htlt⟩).trans ?_
  have hterm : ∀ n : Fin 12288, labels (F := Ideal) x2 (ix3 b d n) * probs (F := Ideal) x0 x1 (ix3 b n ⟨64 * r.val + w.val, htlt⟩)
      = ((label x2 b d n.val * (Real.exp (score x0 x1 b (64 * r.val + w.val) n.val - μ)
            / wsum (score x0 x1 b (64 * r.val + w.val)) μ 12288) : ℝ) : EReal) := fun n => by
    rw [labels_apply, probs_apply x0 x1 h0 h1 b n ⟨64 * r.val + w.val, htlt⟩ μ hμ, EReal.coe_mul]
    unfold label
    rw [← h2 _]
  rw [Finset.sum_congr rfl fun n _ => hterm n, coe_sum,
    Fin.sum_univ_eq_sum_range (fun n => label x2 b d n * (Real.exp (score x0 x1 b (64 * r.val + w.val) n - μ)
      / wsum (score x0 x1 b (64 * r.val + w.val)) μ 12288)) 12288,
    softmax_weighted, ratio_level _ _ μ 0]
  rfl

end Cert.RefValue

end
-- ==== Proof.KernelRun.lean ====
/-
  The kernel program, run: its result buffer ends at the COMMON TAIL applied to the specification.

  After the region @main re-lays the result array [2, 4096, 16] to the image grid [2, 16, 64, 64] (a reshape and a
  transpose) and then does exactly what the reference does with its own prediction: add 1e-14, logarithm, pick the
  class the integer argument names, negate, mean. So the program's result is `tail (relay O) labels` for the region's
  result array `O` — the very term the reference's run states, with `relay O` where the reference has `pred`. With
  `O` the specification (`Cert.KernelOut.final`) and the reference's `pred` the specification too
  (`Cert.RefValue.pred_eq`), index by index — entry (b, d, row, col) of either is `attn b (64 row + col) d` —, the two
  programs' results are one term.
-/
import proofs.«165208_j19602230739911_2_alg».proof.Proof.KernelOut
import proofs.«165208_j19602230739911_2_alg».proof.Proof.RefRun
import proofs.«165208_j19602230739911_2_alg».proof.Proof.RefValue
import Idealize.ShloMosaic.Lib.Pipeline.Value
import Idealize.ShloMosaic.Lib.StableHlo.Run
import Idealize.ShloMosaic.PureOps.Ideal

noncomputable section

open Idealize.ShloMosaic Idealize.ShloMosaic.TcCoe Idealize.SL.Sem Idealize.ShloMosaic.ValueIdx
open Idealize.ShloMosaic.Pipeline (Dat)

namespace Cert.KernelRun

open Cert.KernelIdeal Cert.KernelIdeal.Gen Cert.KernelOut Cert.Spec

variable (m : (ℓ : Loc nD τ sig) → Buf (Elt Ideal) ℓ) (ρ : Dev nD → PrngReg)

/-- The result array [2, 4096, 16] re-laid to [2, 16, 64, 64]: the first two host operations after the region. -/
def relay (O : S2x4096x16.Idx → EReal) : S2x16x64x64.Idx → EReal :=
  transpose S2x16x64x64 [0, 3, 1, 2] (shapeCast S2x64x64x16 O shapeCasts_S2x4096x16_S2x64x64x16) transposes_S2x64x64x16_S2x16x64x64_0_3_1_2

set_option maxRecDepth 65536 in
set_option maxHeartbeats 4000000 in
/-- The host operations after the region, from ANY contents of the buffers: the last result is the common tail of the
    re-laid result array and the integer argument. -/
theorem tail_after (W : Valuation τ sig (Elt Ideal)) :
    StableHlo.after (List.flatten [hostOps1, hostOps1_1, hostOps1_2]) W (Proc.devRef .tc main_v14)
      = Cert.RefRun.tail (F := Ideal) (relay (W (Proc.devRef .tc main_v3))) (W (Proc.devRef .tc main_arg3)) := by
  simp only [hostOps1, hostOps1_1, hostOps1_2, List.flatten_cons, List.flatten_nil, List.append_nil, List.cons_append, List.nil_append]
  after_results_simp
  rfl

/-- The re-laid specification is the reference's prediction, entry by entry. -/
theorem relay_spec (ref : S2x3x256x64x64.Idx → EReal) (tgt : S2x256x64x64.Idx → EReal) (lab : S2x3x16x64x64.Idx → EReal)
    (hR : AllReal (s := S2x3x256x64x64) ref) (hT : AllReal (s := S2x256x64x64) tgt) (hL : AllReal (s := S2x3x16x64x64) lab) :
    relay (outArr ref tgt lab) = Cert.RefRun.pred (F := Ideal) ref tgt lab := by
  funext i
  obtain ⟨b, d, r, w, rfl⟩ : ∃ (b : Fin 2) (d : Fin 16) (r w : Fin 64), i = ix4 b d r w := ⟨i 0, i 1, i 2, i 3, eq_ix4 i⟩
  refine Eq.trans ?_ (Cert.RefValue.pred_eq ref tgt lab hR hT hL b d r w).symm
  unfold relay
  have hq : 64 * r.val + w.val < 4096 := by have := r.isLt; have := w.isLt; omega
  refine (transpose_apply [0, 3, 1, 2] _ transposes_S2x64x64x16_S2x16x64x64_0_3_1_2 (ix4 b d r w) (ix4 b r w d) (fun a => by
    match a with
    | ⟨0, _⟩ => rfl
    | ⟨1, _⟩ => rfl
    | ⟨2, _⟩ => rfl
    | ⟨3, _⟩ => rfl)).trans ?_
  refine (shapeCast_apply _ shapeCasts_S2x4096x16_S2x64x64x16 (ix4 b r w d) (ix3 b (⟨64 * r.val + w.val, hq⟩ : Fin 4096) d) ?_).trans ?_
  · rw [Shape.rowMajor_val_three, Shape.rowMajor_val_four]
    show (b.val * 4096 + (64 * r.val + w.val)) * 16 + d.val = ((b.val * 64 + r.val) * 64 + w.val) * 16 + d.val
    omega
  · rfl

/-- What the result buffer holds after the host tail, given that the arguments are real numbers. -/
theorem result_eq (c : Dev nD)
    (hR : AllReal (s := S2x3x256x64x64) (m ((c : Thread nD τ).loc main_arg0)))
    (hT : AllReal (s := S2x256x64x64) (m ((c : Thread nD τ).loc main_arg1)))
    (hL : AllReal (s := S2x3x16x64x64) (m ((c : Thread nD τ).loc main_arg2))) :
    Pipeline.afterTail₀ cfgs (dats m) 0 (V0 m) [hostOps1, hostOps1_1, hostOps1_2] c main_v14
      = Cert.RefRun.tail (F := Ideal)
          (Cert.RefRun.pred (F := Ideal) (m ((c : Thread nD τ).loc main_arg0)) (m ((c : Thread nD τ).loc main_arg1)) (m ((c : Thread nD τ).loc main_arg2)))
          (m ((c : Thread nD τ).loc main_arg3)) := by
  unfold Pipeline.afterTail₀
  refine (tail_after _).trans ?_
  have e3 : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) _ 3
  have ea : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  rw [e3, ea, final m c hR hT hL, relay_spec _ _ _ hR hT hL]

/-- THE RUN: every weakly fair execution of the kernel program terminates with its result at the common tail of the
    reference's prediction, and the arguments unchanged — provided the float arguments are real numbers. -/
theorem run (hreal : ∀ c : Dev nD, AllReal (s := S2x3x256x64x64) (m ((c : Thread nD τ).loc main_arg0))
      ∧ AllReal (s := S2x256x64x64) (m ((c : Thread nD τ).loc main_arg1))
      ∧ AllReal (s := S2x3x16x64x64) (m ((c : Thread nD τ).loc main_arg2))) :
    θ_run defs (onTc (τ := τ) (main (F := Ideal))) ⟨m, fun _ => 0, ρ⟩ fun r => ∀ c : Dev nD,
      r.2.mem ((c.tc : Thread nD τ).loc main_v14)
        = Cert.RefRun.tail (F := Ideal)
            (Cert.RefRun.pred (F := Ideal) (m ((c : Thread nD τ).loc main_arg0)) (m ((c : Thread nD τ).loc main_arg1)) (m ((c : Thread nD τ).loc main_arg2)))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v14 (Pipeline.mem_restRefs_of main_v14 (by decide) (by decide))).trans
        (result_eq m c (hreal c).1 (hreal c).2.1 (hreal c).2.2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelRun

end
-- ==== Proof.FiniteInputs.lean ====
/-
  What the precondition says of the three float arrays: every entry is a real number.

  The precondition takes the absolute value of each float array entry by entry, compares it "less than" with
  the word 0x7F800000 — which is +∞ — and asks that ALL the comparisons of all three arrays come out true.
  On the extended reals the absolute value of `x` is `max x (-x)`, and

      max x (-x) < ⊤   ⟺   x < ⊤ and -x < ⊤   ⟺   x ≠ ⊤ and x ≠ ⊥,

  so `x` is neither infinity: it is the real number `x.toReal`. This is the only consequence of the precondition
  the equivalence of the two programs needs — the laws it rests on (distributivity, `exp (a + b) = exp a · exp b`) are laws of
  the real numbers and fail at ±∞.

  The file goes from the inside out: one extended real (`real_of_abs_lt_top`, `real_of_cmp`), then one array
  of any shape whose "all" came out true (`allReal_of_all`), then the three arrays of the precondition (`allReal`).
-/
import proofs.«165208_j19602230739911_2_alg».proof.Pre_finite_inputs
import proofs.«165208_j19602230739911_2_alg».proof.Proof.Gen.Pre_finite_inputs
import proofs.«165208_j19602230739911_2_alg».proof.Proof.Spec
import Idealize.ShloMosaic.Lib.ReduceAll
import Idealize.ShloMosaic.PureOps.Ideal.Laws

open Idealize.ShloMosaic

namespace Cert.FiniteInputs

/-! ## One extended real -/

/-- The word the precondition compares against, 0x7F800000 (sign 0, exponent all ones, fraction 0), is +∞. -/
theorem inf_word : Ideal.ofBits .f32 0x7F800000#32 = (⊤ : EReal) := by
  simp [Ideal.ofBits, Ideal.ieee]

/-- An extended real whose absolute value `max x (-x)` is below +∞ is a real number: `x < ⊤` rules out `x = ⊤`,
    and `-x < ⊤` rules out `x = ⊥` (whose negative is `⊤`). -/
theorem real_of_abs_lt_top (x : EReal) (h : max x (-x) < ⊤) : x = ((x.toReal : ℝ) : EReal) := by
  obtain ⟨hpos, hneg⟩ := max_lt_iff.1 h
  have htop : x ≠ ⊤ := ne_of_lt hpos
  have hbot : x ≠ ⊥ := by
    rintro rfl
    -- `-⊥ = ⊤`, and `⊤ < ⊤` is absurd
    rw [EReal.neg_bot] at hneg
    exact lt_irrefl _ hneg
  exact (EReal.coe_toReal htop hbot).symm

/-- The same fact in the form the precondition states it: the ordered "less than" of `|x|` against the word of +∞ is the bit 1.
    The comparison's bit is 1 exactly when the strict inequality holds. -/
theorem real_of_cmp (x : EReal) (h : Ideal.cmp .olt (max x (-x)) (Ideal.ofBits .f32 0x7F800000#32) = 1#1) :
    x = ((x.toReal : ℝ) : EReal) := by
  rw [inf_word] at h
  refine real_of_abs_lt_top x ?_
  by_contra hlt
  -- were the inequality false the bit would be 0, and 0 ≠ 1
  simp [Ideal.cmp, hlt] at h

/-! ## One array, of any shape -/

/-- The shape of a scalar has exactly one index (the empty tuple). -/
instance : Subsingleton Cert.Pre_finite_inputs.S_.Idx := ⟨fun a b => funext fun d => d.elim0⟩

/-- One array of any shape `s`: if the "and" over ALL its entries of the comparisons `|x i| < +∞`, started from true,
    is true, then every entry of `x` is a real number. An "and" that ends true met only trues, so the comparison is
    true at each index `i`; there the broadcast scalar reads the word of +∞, and the element fact above applies. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    Cert.Spec.AllReal x := by
  intro i
  have hi := Host.reduce_andi_all _ _ hr hu ValueIdx.ix0 h i
  -- at index `i`: the comparison of `max (x i) (-(x i))` with the broadcast constant's only entry
  exact real_of_cmp (x i) hi

/-! ## The precondition -/

/-- The precondition holds (its one bit is 1) only if every entry of each of the three float arrays is a real number.
    The bit is the "and" of three bits, one per array, so each of the three is 1; each is the "all" of one array. -/
theorem allReal (x0 : FVec Ideal Cert.Pre_finite_inputs.S2x3x256x64x64 .f32) (x1 : FVec Ideal Cert.Pre_finite_inputs.S2x256x64x64 .f32)
    (x2 : FVec Ideal Cert.Pre_finite_inputs.S2x3x16x64x64 .f32) (x3 : IVec Cert.Pre_finite_inputs.S2x64x64 32)
    (h : Cert.Pre_finite_inputs.fn (F := Ideal) x0 x1 x2 x3 = fun _ => 1#1) :
    Cert.Spec.AllReal x0 ∧ Cert.Spec.AllReal x1 ∧ Cert.Spec.AllReal x2 := by
  have hbit := congrFun h ValueIdx.ix0
  dsimp only [Cert.Pre_finite_inputs.fn] at hbit
  -- (b0 and b1) and b2 = 1, so b0 = b1 = b2 = 1
  obtain ⟨h01, h2⟩ := IntOp.andi_eq_one.1 hbit
  obtain ⟨h0, h1⟩ := IntOp.andi_eq_one.1 h01
  exact ⟨allReal_of_all x0 _ _ _ h0, allReal_of_all x1 _ _ _ h1, allReal_of_all x2 _ _ _ h2⟩

end Cert.FiniteInputs
-- ==== Proof.lean ====
/-
  `Cert.Claim` for the label-propagation cross-entropy kernel: a flash-attention Pallas kernel against jnp's
  softmax-then-matmul reference, equal over the extended reals.

  Both programs take reference features `ref`, target features `tgt`, reference labels `lab` (floats) and integer
  target labels. For every target pixel `t` of image `b` the reference computes the scores of `t` against all
  12288 reference pixels, their softmax, and the softmax-weighted average of the reference labels of each class `d`:
      `attn b t d = (∑ n, exp (s n) · label d n) / (∑ n, exp (s n))`,      `s n = ⟨tgt (·, t), ref (·, n)⟩`.
  The kernel computes the same quantity by an ONLINE softmax: for each query tile it walks the keys in 48 blocks of
  256, keeping per query a running maximum `m`, a running sum of weights `l` and a running weighted label sum `acc`
  in scratch memory, rescaling `l` and `acc` by `exp (m_old - m_new)` whenever the maximum moves, and stores
  `acc / l` after the last block. Over the exact reals the rescaling is `exp (a + b) = exp a · exp b` and
  distributivity, and the final quotient does not depend on which level the sums were taken at, so it is `attn`
  (Proof/OnlineSoftmax.lean; the kernel's side in Proof/Kernel*.lean, the reference's in Proof/Ref*.lean). These laws
  hold for real numbers, not at ±∞, which is where the precondition (every float input finite) is used
  (Proof/FiniteInputs.lean). After that both programs apply the SAME tail to their predictions — add 1e-14, logarithm,
  pick the class the integer label names, negate, mean — so equal predictions give equal results, whatever the
  integer labels are.

  The three frames: the two kernel programs' are the generated frame certificates; the reference, having no kernel,
  has its run (Proof/RefRun.lean) with the result forgotten. The ideal pass rewrote nothing, so `preserves` is `True`.
-/
import proofs.«165208_j19602230739911_2_alg».proof.Defs
import proofs.«165208_j19602230739911_2_alg».proof.Proof.Gen.Kernel
import proofs.«165208_j19602230739911_2_alg».proof.Proof.Gen.Kernel.Skeleton
import proofs.«165208_j19602230739911_2_alg».proof.Proof.Gen.Kernel.Launch
import proofs.«165208_j19602230739911_2_alg».proof.Proof.Gen.Kernel.Points
import proofs.«165208_j19602230739911_2_alg».proof.Proof.Gen.Kernel.Frame
import proofs.«165208_j19602230739911_2_alg».proof.Proof.Gen.KernelIdeal
import proofs.«165208_j19602230739911_2_alg».proof.Proof.Gen.KernelIdeal.Skeleton
import proofs.«165208_j19602230739911_2_alg».proof.Proof.Gen.KernelIdeal.Launch
import proofs.«165208_j19602230739911_2_alg».proof.Proof.Gen.KernelIdeal.Points
import proofs.«165208_j19602230739911_2_alg».proof.Proof.Gen.KernelIdeal.Frame
import proofs.«165208_j19602230739911_2_alg».proof.Proof.Gen.ReferenceIdeal
import proofs.«165208_j19602230739911_2_alg».proof.Proof.Gen.Pre_finite_inputs
import proofs.«165208_j19602230739911_2_alg».proof.Proof.KernelRun
import proofs.«165208_j19602230739911_2_alg».proof.Proof.RefRun
import proofs.«165208_j19602230739911_2_alg».proof.Proof.FiniteInputs
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, the result forgotten. -/
theorem frame_referenceIdeal : Cert.frame_ReferenceIdeal := fun m ρ _ =>
  (θ_run Cert.ReferenceIdeal.defs _ _).mono (fun _ h c => (h c).2) (Cert.RefRun.run (F := Ideal) m ρ)

/-- The ideal pass rewrote no operation of the kernel. -/
theorem preserves : Cert.preserves_Kernel_KernelIdeal := trivial

/-- At the ideal instance both programs end at the common tail of the softmax-weighted label average: the kernel by
    its online accumulation (the inputs being real numbers, by the precondition), the reference by definition; the
    arguments agree, so the two results are one term. -/
theorem algebraic : Cert.algebraic_KernelIdeal_ReferenceIdeal := by
  intro m ρ m' ρ' hpre hagree
  have hreal := fun c => Cert.FiniteInputs.allReal _ _ _ _ (hpre c)
  refine ⟨_, Cert.KernelRun.run m ρ hreal, ?_⟩
  refine (θ_run Cert.ReferenceIdeal.defs _ _).mono (fun _ h c => ⟨?_, (h c).2⟩) (Cert.RefRun.run (F := Ideal) m' ρ')
  rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
